-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : IVec S4096 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S4096x512 : Shape := ⟨2, ![4096, 512]⟩
abbrev S4096 : Shape := ⟨1, ![4096]⟩
abbrev S4096x1 : Shape := ⟨2, ![4096, 1]⟩
abbrev S1x4096 : Shape := ⟨2, ![1, 4096]⟩
abbrev S1x1 : Shape := ⟨2, ![1, 1]⟩
abbrev S512x512 : Shape := ⟨2, ![512, 512]⟩
abbrev S512x1 : Shape := ⟨2, ![512, 1]⟩
abbrev S1x512 : Shape := ⟨2, ![1, 512]⟩
abbrev S512 : Shape := ⟨1, ![512]⟩
abbrev S1x512x512 : Shape := ⟨3, ![1, 512, 512]⟩
abbrev S1 : Shape := ⟨1, ![1]⟩
abbrev S1x1x1 : Shape := ⟨3, ![1, 1, 1]⟩
abbrev S1x512x1 : Shape := ⟨3, ![1, 512, 1]⟩
abbrev S_ : Shape := ⟨0, ![]⟩

abbrev nBuf : Space → Nat
  | .hbm => 15
  | .vmem => 15
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S4096x1, .i32⟩
  | .hbm, ⟨3, _⟩ => ⟨S1x4096, .i32⟩
  | .hbm, ⟨4, _⟩ => ⟨S1x1, .f32⟩
  | .hbm, ⟨5, _⟩ => ⟨S1x1, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .vmem, ⟨8, _⟩ => ⟨S1x1, .f32⟩
  | .local _ .vmem, ⟨9, _⟩ => ⟨S1x1, .f32⟩
  | .local _ .vmem, ⟨10, _⟩ => ⟨S1x1, .f32⟩
  | .local _ .vmem, ⟨11, _⟩ => ⟨S512x1, .f32⟩
  | .local _ .vmem, ⟨12, _⟩ => ⟨S1x1, .f32⟩
  | .local _ .vmem, ⟨13, _⟩ => ⟨S1x1, .f32⟩
  | .local _ .vmem, ⟨14, _⟩ => ⟨S1x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨2, ![8, 8], ![false, false]⟩

def k0_cond4 (i : grid0.Coords) : BitVec 1 :=
  let arg0 : BitVec 32 := BitVec.ofNat 32 (i 0).val
  let c7_i32_34 : BitVec 32 := 7#32
  let v86 : BitVec 1 := Scalar.cmpi .eq arg0 c7_i32_34
  let arg1 : BitVec 32 := BitVec.ofNat 32 (i 1).val
  let c7_i32_35 : BitVec 32 := 7#32
  let v87 : BitVec 1 := Scalar.cmpi .eq arg1 c7_i32_35
  let v88 : BitVec 1 := Scalar.andi v86 v87
  let v89 : BitVec 32 := Scalar.extui v88
  let c0_i32_36 : BitVec 32 := 0#32
  let v90 : BitVec 1 := Scalar.cmpi .ne v89 c0_i32_36
  v90

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

class Facts₀ : Prop where
  shapeCasts_S4096_S4096x1 : S4096.ShapeCasts S4096x1
  shapeCasts_S4096_S1x4096 : S4096.ShapeCasts S1x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  broadcasts_S512x1_S512x512 : S512x1.Broadcasts S512x512
  transposes_S512x512_p1_0_S512x512 : S512x512.Transposes [1, 0] S512x512
  iota_S512x512_d0_w32 : S512x512.Iotas .tc 32 [0]
  iota_S512x512_d1_w32 : S512x512.Iotas .tc 32 [1]
  natLt_1_32 : 1 < 32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  shapeCasts_S512x512_S1x512x512 : S512x512.ShapeCasts S1x512x512
  reduces_S1x512x512_S1 : S1x512x512.Reduces [1, 2] S1
  shapeCasts_S1_S1x1x1 : S1.ShapeCasts S1x1x1
  inpos_S1x1x1_p0_0_0 : ∀ a, (![0, 0, 0] : Fin 3 → Nat) a < S1x1x1.size a
  shapeCasts_S512x1_S1x512x1 : S512x1.ShapeCasts S1x512x1
  reduces_S1x512x1_S1 : S1x512x1.Reduces [1, 2] S1
  shapeCasts_S1x1_S_ : S1x1.ShapeCasts S_
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .f32 = 32 ∨ (Rect.block (s := S4096x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .i32 = 32 ∨ (Rect.block (s := S1x4096) S1x512.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x1.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond4 i == 1#1) | 5 => fun i => !(k0_cond4 i == 1#1) | 6 => fun i => !(k0_cond4 i == 1#1) | ⟨_ + 7, h⟩ => absurd h (Nat.not_lt.2 (Nat.le_add_left _ _))

class Facts : Prop extends Facts₀ where

variable [Facts]
-- ==== ReferenceIdeal.lean ====
abbrev S4096x512 : Shape := ⟨2, ![4096, 512]⟩
abbrev S4096 : Shape := ⟨1, ![4096]⟩
abbrev S4096x4096 : Shape := ⟨2, ![4096, 4096]⟩
abbrev S_ : Shape := ⟨0, ![]⟩
abbrev S1x4096 : Shape := ⟨2, ![1, 4096]⟩
abbrev S4096x1 : Shape := ⟨2, ![4096, 1]⟩
abbrev S512x4096 : Shape := ⟨2, ![512, 4096]⟩

abbrev nBuf : Space → Nat
  | .hbm => 50
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S4096x4096, .i32⟩
  | .hbm, ⟨3, _⟩ => ⟨S4096x4096, .i32⟩
  | .hbm, ⟨4, _⟩ => ⟨S_, .i32⟩
  | .hbm, ⟨5, _⟩ => ⟨S4096x4096, .i32⟩
  | .hbm, ⟨6, _⟩ => ⟨S4096x4096, .i32⟩
  | .hbm, ⟨7, _⟩ => ⟨S4096x4096, .i1⟩
  | .hbm, ⟨8, _⟩ => ⟨S4096x4096, .f32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S4096x4096, .f32⟩
  | .hbm, ⟨15, _⟩ => ⟨S4096x4096, .f32⟩
  | .hbm, ⟨16, _⟩ => ⟨S4096x512, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x512, .f32⟩
  | .hbm, ⟨25, _⟩ => ⟨S4096x512, .f32⟩
  | .hbm, ⟨26, _⟩ => ⟨S512x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096, .f32⟩
  | .hbm, ⟨40, _⟩ => ⟨S1x4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_call0_v0 : Ref sig .tc := ⟨.hbm, 16, rfl⟩
abbrev main_call0_cst : Ref sig .tc := ⟨.hbm, 17, rfl⟩
abbrev main_call0_v1 : Ref sig .tc := ⟨.hbm, 18, rfl⟩
abbrev main_call0_v2 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S4096_S4096x1_0 : S4096.BroadcastsInDim S4096x1 (![0] : Fin 1 → Fin S4096x1.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  reducesTo_S4096x512_S4096_d1 : S4096x512.ReducesTo [1] S4096
  h_S_ : 0 < S_.numel
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  transposes_S4096x512_S512x4096_1_0 : S4096x512.Transposes [1, 0] S512x4096
  reducesTo_S4096x4096_S4096_d1 : S4096x4096.ReducesTo [1] S4096
  reducesTo_S4096x4096_S_d0_1 : S4096x4096.ReducesTo [0, 1] S_
  dot_S4096x512_S512x4096_S4096x4096_1_0_0_1_n_n_wf : DotDims.WF S4096x512 S512x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.K.Shared.lean ====
import proofs.«121591_j16836271800363_1_alg».proof.Proof.Gen.Kernel.Launch
import proofs.«121591_j16836271800363_1_alg».proof.Proof.Gen.Kernel.Points
import Idealize.ShloMosaic.Lib.Pipeline.Frame
import Idealize.ShloMosaic.Lib.Pipeline.FrameSuffix

set_option pp.maxSteps 5000
set_option pp.deepTerms false

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The distinct buffers behind the seven windows' arrays: windows 0 and 1 both read `main_arg0`. -/
theorem arr_image : (Finset.univ.image (Pipeline.arrRef spec0) : Finset (Ref sig .tc))
    = [main_arg0, main_v0, main_v1, main_v2_0, main_v2_1, main_v2_2].toFinset := by decide

/-- The pipeline's arrays, window by window, when windows 0 and 1 hold the two halves of `main_arg0`'s share and
    every other window holds its own array whole. -/
theorem arrays_eq7 (c : Dev nD) (dat : Dat τ (Elt F) Unit ℕ (UR sig nD τ) ℕ cfg0 c)
    (hq0 : dat.q 0 = fullShare.left) (hq1 : dat.q 1 = fullShare.right)
    (hq2 : dat.q 2 = fullShare) (hq3 : dat.q 3 = fullShare)
    (G : (w : Fin cfg0.W) → Buf (Elt F) ((cfg0.win w).arr.view.loc (c.tc : Thread nD τ))) :
    (dat.arrays G : sProp 𝕄)
      = iprop((((c.tc : Thread nD τ).loc main_arg0) ↦{fullShare.left} G 0) ∗ (((c.tc : Thread nD τ).loc main_arg0) ↦{fullShare.right} G 1)
          ∗ (((c.tc : Thread nD τ).loc main_v0) ↦{fullShare} G 2) ∗ (((c.tc : Thread nD τ).loc main_v1) ↦{fullShare} G 3)
          ∗ (((c.tc : Thread nD τ).loc main_v2_0) ↦{fullShare} G 4) ∗ (((c.tc : Thread nD τ).loc main_v2_1) ↦{fullShare} G 5)
          ∗ (((c.tc : Thread nD τ).loc main_v2_2) ↦{fullShare} G 6)) := by
  have s0 : dat.share 0 = fullShare.left := (if_neg (by decide)).trans hq0
  have s1 : dat.share 1 = fullShare.right := (if_neg (by decide)).trans hq1
  have s2 : dat.share 2 = fullShare := (if_neg (by decide)).trans hq2
  have s3 : dat.share 3 = fullShare := (if_neg (by decide)).trans hq3
  have s4 : dat.share 4 = fullShare := if_pos (by decide)
  have s5 : dat.share 5 = fullShare := if_pos (by decide)
  have s6 : dat.share 6 = fullShare := if_pos (by decide)
  unfold Dat.arrays
  rw [bigSep_W0]
  rw [(arr_whole0 0).set_eq_univ, (arr_whole0 2).set_eq_univ, (arr_whole0 3).set_eq_univ,
    (arr_whole0 4).set_eq_univ, (arr_whole0 5).set_eq_univ, (arr_whole0 6).set_eq_univ, s0, s1, s2, s3, s4, s5, s6]

/-- The buffers behind the arrays, each whole, one by one. -/
theorem arrBufs_eq6 (c : Dev nD) (V : (b : Ref sig .tc) → Buf (Elt F) ((c.tc : Thread nD τ).loc b)) :
    (Pipeline.arrBufs spec0 c V : sProp 𝕄)
      = iprop((((c.tc : Thread nD τ).loc main_arg0) ↦{fullShare} V main_arg0) ∗ (((c.tc : Thread nD τ).loc main_v0) ↦{fullShare} V main_v0)
          ∗ (((c.tc : Thread nD τ).loc main_v1) ↦{fullShare} V main_v1) ∗ (((c.tc : Thread nD τ).loc main_v2_0) ↦{fullShare} V main_v2_0)
          ∗ (((c.tc : Thread nD τ).loc main_v2_1) ↦{fullShare} V main_v2_1) ∗ (((c.tc : Thread nD τ).loc main_v2_2) ↦{fullShare} V main_v2_2)) := by
  unfold Pipeline.arrBufs
  rw [bigSep_eq_bigSepL_of_eq _ arr_image (by decide)]
  rfl

/-- How the region's entry holdings become the pipeline's arrays: `main_arg0`'s full share is cut in two halves,
    one for each of the two windows that read it; every other array goes whole to its one window. -/
theorem hsplit (c : Dev nD) (dat : Dat τ (Elt F) Unit ℕ (UR sig nD τ) ℕ cfg0 c)
    (V : (b : Ref sig .tc) → Buf (Elt F) ((c.tc : Thread nD τ).loc b))
    (hq0 : dat.q 0 = fullShare.left) (hq1 : dat.q 1 = fullShare.right)
    (hq2 : dat.q 2 = fullShare) (hq3 : dat.q 3 = fullShare)
    (G : (w : Fin cfg0.W) → Buf (Elt F) ((cfg0.win w).arr.view.loc (c.tc : Thread nD τ)))
    (hG : ∀ w, G w = V (Pipeline.arrRef spec0 w)) :
    (Pipeline.arrBufs spec0 c V : sProp 𝕄) ⊢ dat.arrays G := by
  rw [arrays_eq7 c dat hq0 hq1 hq2 hq3, arrBufs_eq6, hG 0, hG 1, hG 2, hG 3, hG 4, hG 5, hG 6]
  iintro ⟨H0, Hv0, Hv1, H4, H5, H6⟩
  ihave H0' := (pointsTo_share (PosShare.mem_left_op_right fullShare)).1 $$ H0
  icases H0' with ⟨H0a, H0b⟩
  isplitl [H0a]; · iexact H0a
  isplitl [H0b]; · iexact H0b
  isplitl [Hv0]; · iexact Hv0
  isplitl [Hv1]; · iexact Hv1
  isplitl [H4]; · iexact H4
  isplitl [H5]; · iexact H5
  iexact H6

/-! ## The lines after the region -/

/-- The three result arrays, each one window's. -/
abbrev outRefs : Finset (Ref sig .tc) := [main_v2_0, main_v2_1, main_v2_2].toFinset

/-- The device buffers the lines after the region may touch: the three result arrays and the buffers that bypass the
    region. The shared input array `main_arg0` (and the two label arrays) stay with the windows that hold them. -/
def tailS : Finset (DevRef τ sig) :=
  (outRefs ∪ Pipeline.restRefs sig spec0).map ⟨Proc.devRef (sig := sig) .tc, Proc.devRef_injective _⟩

theorem outRefs_disj : Disjoint outRefs (Pipeline.restRefs sig spec0) := by decide

/-- Those buffers held at a valuation: the three result arrays and the bypassing buffers. -/
theorem held_tailS (c : Dev nD) (Wv : Valuation τ sig (Elt F)) :
    (StableHlo.held (c.tc : Thread nD τ) tailS Wv : sProp 𝕄)
      = iprop(((((c.tc : Thread nD τ).loc main_v2_0) ↦{fullShare} Wv (Proc.devRef .tc main_v2_0))
            ∗ (((c.tc : Thread nD τ).loc main_v2_1) ↦{fullShare} Wv (Proc.devRef .tc main_v2_1))
            ∗ (((c.tc : Thread nD τ).loc main_v2_2) ↦{fullShare} Wv (Proc.devRef .tc main_v2_2)))
          ∗ Pipeline.unscopedRest spec0 c (fun b => Wv (Proc.devRef .tc b))) := by
  unfold StableHlo.held tailS Pipeline.unscopedRest
  rw [bigSep_map, bigSep_union outRefs_disj]
  congr 1
  rw [bigSep_eq_bigSepL_of_eq _ rfl (by decide)]
  rfl

/-- Reading the region's exit contents at an array that only one window holds: that window's final contents. -/
theorem withArrays_at (c : Dev nD) (V : Valuation τ sig (Elt F))
    (A : (w : Fin 7) → Buf (Elt F) ((spec0 w).arr.view.loc (c.tc : Thread nD τ))) (w : Fin 7)
    (huniq : ∀ w', Pipeline.arrRef spec0 w' = Pipeline.arrRef spec0 w → w' = w) :
    Pipeline.withArrays spec0 c V A (Proc.devRef .tc (Pipeline.arrRef spec0 w)) = A w := by
  unfold Pipeline.withArrays
  have h : ∃ w', Proc.devRef .tc (Pipeline.arrRef spec0 w') = Proc.devRef (τ := τ) .tc (Pipeline.arrRef spec0 w) := ⟨w, rfl⟩
  rw [dif_pos h]
  suffices ∀ (w' : Fin 7) (e : Proc.devRef .tc (Pipeline.arrRef spec0 w') = Proc.devRef (τ := τ) .tc (Pipeline.arrRef spec0 w)),
      cast (congrArg (fun b' : DevRef τ sig => b'.ty.Contents (Elt F)) e) (A w') = A w from this _ h.choose_spec
  intro w' e
  obtain rfl : w' = w := huniq w' (Proc.devRef_injective _ e)
  rfl

end Cert.Kernel.Hand

end
-- ==== Proof.K.Tail.lean ====
import proofs.«121591_j16836271800363_1_alg».proof.Proof.K.Shared

set_option pp.maxSteps 5000
set_option pp.deepTerms false

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem mem_tailS (x : Ref sig .tc) (h : x ∈ outRefs ∪ Pipeline.restRefs sig spec0) : Proc.devRef (τ := τ) .tc x ∈ tailS :=
  Finset.mem_map_of_mem _ h

/-- The eight lines after the region touch only the three result arrays and buffers that bypass the region. -/
theorem tail_sub : ∀ ops ∈ ([hostOps1] : List (List (HloOp τ sig (Elt F)))), ∀ op ∈ ops, op.bufs ⊆ tailS := by
  intro ops hops op hop
  simp only [List.mem_cons, List.mem_nil_iff, _root_.or_false] at hops
  subst hops
  simp only [hostOps1, List.mem_cons, List.mem_nil_iff, _root_.or_false] at hop
  rcases hop with rfl | rfl | rfl | rfl | rfl | rfl | rfl | rfl
  all_goals
    simp only [StableHlo.reshape_bufs, StableHlo.nullary_bufs, StableHlo.unary_bufs, StableHlo.binary_bufs,
      Finset.insert_subset_iff, Finset.singleton_subset_iff]
    repeat' constructor
    all_goals exact mem_tailS _ (by decide)

/-- They allocate nothing. -/
theorem tail_fresh : ∀ ops ∈ ([hostOps1] : List (List (HloOp τ sig (Elt F)))), ∀ op ∈ ops, op.fresh = ∅ := by
  intro ops hops op hop
  simp only [List.mem_cons, List.mem_nil_iff, _root_.or_false] at hops
  subst hops
  simp only [hostOps1, List.mem_cons, List.mem_nil_iff, _root_.or_false] at hop
  rcases hop with rfl | rfl | rfl | rfl | rfl | rfl | rfl | rfl <;> rfl

/-- None of them writes one of the three result arrays: each writes its own result buffer. -/
theorem tail_keeps (x : Ref sig .tc) (hx : x ∈ outRefs) :
    ∀ op ∈ ([hostOps1] : List (List (HloOp τ sig (Elt F)))).flatten, Proc.devRef (τ := τ) .tc x ∉ op.writes := by
  intro op hop
  simp only [List.flatten_cons, List.flatten_nil, List.append_nil, hostOps1, List.mem_cons, List.mem_nil_iff, _root_.or_false] at hop
  simp only [outRefs, List.mem_toFinset, List.mem_cons, List.mem_nil_iff, _root_.or_false] at hx
  rcases hx with rfl | rfl | rfl <;> rcases hop with rfl | rfl | rfl | rfl | rfl | rfl | rfl | rfl <;>
    simp only [StableHlo.nullary_writes, StableHlo.unary_writes, StableHlo.binary_writes, StableHlo.reshape_writes, Finset.mem_singleton] <;>
    exact StableHlo.devRef_ne_of_ne (by decide)

/-- THE LINES AFTER THE REGION, for arrays two windows share. From the region's exit — the boundary, the pipeline's arrays
    at any contents `A` (the two halves of `main_arg0` still apart), the bypassing buffers at `V₀` — the eight lines run
    within the three result arrays and the bypassing buffers, write none of the arrays, and hand back the arrays at `A`
    and the bypassing buffers at the lines' `StableHlo.after` from the exit contents. -/
theorem htail (𝒱₀ : Variants) (c : Dev nD) (dat : Dat τ (Elt F) Unit ℕ (UR sig nD τ) ℕ cfg0 c)
    (hq0 : dat.q 0 = fullShare.left) (hq1 : dat.q 1 = fullShare.right)
    (hq2 : dat.q 2 = fullShare) (hq3 : dat.q 3 = fullShare)
    (V₀ : Valuation τ sig (Elt F))
    (A : (w : Fin cfg0.W) → Buf (Elt F) ((cfg0.win w).arr.view.loc (c.tc : Thread nD τ)))
    (Q' : PUnit → sProp 𝕄) :
    iprop((iprop(dat.arrays A ∗ Pipeline.unscopedRest spec0 c (fun b => StableHlo.after ([hostOps1] : List (List (HloOp τ sig (Elt F)))).flatten (Pipeline.withArrays spec0 c V₀ A) (Proc.devRef .tc b))) -∗ Q' ⟨⟩)
        ∗ boundary (c.tc : Thread nD τ) ∗ dat.arrays A ∗ Pipeline.unscopedRest spec0 c (fun b => V₀ (Proc.devRef .tc b)))
      ⊢ wp frame (wpE (Pipeline.defs (fun q => Cfg.toPCfg (Val := Elt F) (cfgs q)) defs₀) (Variants.lift 𝒱₀) (c.tc : Thread nD τ) none) Set.univ
          (Pipeline.chain (([hostOps1] : List (List (HloOp τ sig (Elt F)))).map StableHlo.seq)) Q' := by
  classical
  have h4 : Pipeline.withArrays spec0 c V₀ A (Proc.devRef .tc main_v2_0) = A 4 := withArrays_at c V₀ A 4 (by decide)
  have h5 : Pipeline.withArrays spec0 c V₀ A (Proc.devRef .tc main_v2_1) = A 5 := withArrays_at c V₀ A 5 (by decide)
  have h6 : Pipeline.withArrays spec0 c V₀ A (Proc.devRef .tc main_v2_2) = A 6 := withArrays_at c V₀ A 6 (by decide)
  have hrest : (Pipeline.unscopedRest spec0 c (fun b => Pipeline.withArrays spec0 c V₀ A (Proc.devRef .tc b)) : sProp 𝕄)
      = Pipeline.unscopedRest spec0 c (fun b => V₀ (Proc.devRef .tc b)) := by
    unfold Pipeline.unscopedRest
    exact bigSep_congr fun b hb => by
      dsimp only
      rw [Pipeline.withArrays_of_ne spec0 c V₀ A b fun w e => (Finset.mem_sdiff.mp hb).2 (Finset.mem_image.mpr ⟨w, Finset.mem_univ _, e⟩)]
  have k4 : StableHlo.after ([hostOps1] : List (List (HloOp τ sig (Elt F)))).flatten (Pipeline.withArrays spec0 c V₀ A) (Proc.devRef .tc main_v2_0) = A 4 := by
    rw [StableHlo.after_of_forall_not_mem _ _ (tail_keeps main_v2_0 (by decide)), h4]
  have k5 : StableHlo.after ([hostOps1] : List (List (HloOp τ sig (Elt F)))).flatten (Pipeline.withArrays spec0 c V₀ A) (Proc.devRef .tc main_v2_1) = A 5 := by
    rw [StableHlo.after_of_forall_not_mem _ _ (tail_keeps main_v2_1 (by decide)), h5]
  have k6 : StableHlo.after ([hostOps1] : List (List (HloOp τ sig (Elt F)))).flatten (Pipeline.withArrays spec0 c V₀ A) (Proc.devRef .tc main_v2_2) = A 6 := by
    rw [StableHlo.after_of_forall_not_mem _ _ (tail_keeps main_v2_2 (by decide)), h6]
  have hW := held_tailS (F := F) c (Pipeline.withArrays spec0 c V₀ A)
  rw [h4, h5, h6, hrest] at hW
  have hW' := held_tailS (F := F) c (StableHlo.after ([hostOps1] : List (List (HloOp τ sig (Elt F)))).flatten (Pipeline.withArrays spec0 c V₀ A))
  rw [k4, k5, k6] at hW'
  have step := Pipeline.wp_seqs_then (Ix := Unit) (Name := ℕ) (U := UR sig nD τ) (Lvl := ℕ) (fun q => Cfg.toPCfg (Val := Elt F) (cfgs q)) defs₀ 𝒱₀ c tailS [] (K := Q')
    [hostOps1] tail_sub tail_fresh (Pipeline.withArrays spec0 c V₀ A)
  rw [hW, hW', Pipeline.chain_nil, wp_pure] at step
  rw [arrays_eq7 c dat hq0 hq1 hq2 hq3, ← List.append_nil (([hostOps1] : List (List (HloOp τ sig (Elt F)))).map StableHlo.seq)]
  iintro ⟨Hk, Hb, ⟨H0, H1, H2, H3, H4, H5, H6⟩, Hr⟩
  iapply step $$ [Hb H4 H5 H6 Hr]
  · isplitl [Hb]; · iexact Hb
    isplitr [Hr]
    · isplitl [H4]; · iexact H4
      isplitl [H5]; · iexact H5
      iexact H6
    iexact Hr
  iintro ⟨Hb, ⟨H4, H5, H6⟩, Hr⟩
  imodintro
  iapply Hk
  isplitr [Hr]
  · isplitl [H0]; · iexact H0
    isplitl [H1]; · iexact H1
    isplitl [H2]; · iexact H2
    isplitl [H3]; · iexact H3
    isplitl [H4]; · iexact H4
    isplitl [H5]; · iexact H5
    iexact H6
  iexact Hr

end Cert.Kernel.Hand

end
-- ==== Proof.K.Launch.lean ====
import proofs.«121591_j16836271800363_1_alg».proof.Proof.K.Tail

set_option pp.maxSteps 5000
set_option pp.deepTerms false

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation: after the two reshapes of the
    label array that precede the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is the two reshapes, the region, then the eight lines after it: it reduces to the region continued by those
    lines, at the contents after the reshapes. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- THE RUN around a region whose windows 0 and 1 share `main_arg0`: for any proof data whose arrays are the region-entry
    contents, whose two windows on `main_arg0` hold the two halves of its share, that owes nothing and whose invariant
    starts from and ends in the scratch buffers at anything, every weakly fair execution of @main terminates, each array
    ending at what the proof data compute and every other unscoped buffer as the lines after the region leave it. -/
theorem run_main_of (dats : (p : Fin 1) → (c : Dev nD) → Dat τ (Elt F) Unit ℕ (UR sig nD τ) ℕ (cfgs p) c)
    (hbody : ∀ c, Pipeline.BodyObligationLoose (dats 0 c) defs₀ Variants.none () Set.univ)
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ)
      (Pipeline.FramePost cfgs dats 0 (Pipeline.afterTail₀ cfgs dats 0 (V0 m) [hostOps1])) := by
  classical
  exact Pipeline.θ_run_region_pf_tail (fun q => (cfgs q).toPCfg (Val := Elt F)) (fun q => (cfgs q).toPCfg_adm) dats () cellOf_inj 0
    winFacts₀0 (Pipeline.OwnSemFacts.none spec0) (Pipeline.PreFacts.none _) emb₁ defs₀ Variants.none m ρ main
    (fun _ => Pipeline.chain (([hostOps1] : List (List (HloOp τ sig (Elt F)))).map StableHlo.seq)) hbody
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => hsplit c (dats 0 c) (V m c) (hq0 c) (hq1 c) (hq2 c) (hq3 c) _ fun w => hA c w)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Pipeline.afterTail₀ cfgs dats 0 (V0 m) [hostOps1] c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => by
      rw [Pipeline.unscopedRestP_none, Pipeline.unscopedRestP_none]
      exact htail Variants.none c (dats 0 c) (hq0 c) (hq1 c) (hq2 c) (hq3 c) (V0 m c) (fun w => (dats 0 c).arrAt w cfg0.N) Q')
    (QY := fun c s => ∀ b ∈ Pipeline.restRefs sig spec0, s.mem ((c.tc : Thread nD τ).loc b) = Pipeline.afterTail₀ cfgs dats 0 (V0 m) [hostOps1] c b)
    (hY := fun c s' => by
      rw [Pipeline.unscopedRestP_none]
      iintro ⟨-, HU, HSI⟩
      unfold Pipeline.unscopedRest
      imodintro
      iapply (pointsTo_read_all (Pipeline.restRefs sig spec0) (fun b => (c.tc : Thread nD τ).loc b) (Pipeline.afterTail₀ cfgs dats 0 (V0 m) [hostOps1] c) s')
      isplitl [HU] <;> iassumption)
    (hQ := fun s h c => And.intro (h c).1 (h c).2.2)

end Cert.Kernel.Hand

end
-- ==== Proof.K.Runs.lean ====
/- The kernel body's branch conditions in closed form over the 8 x 8 grid, where the three output
   windows are idle, and the names of the staging and scratch memrefs the body is called with. -/
import proofs.«121591_j16836271800363_1_alg».proof.Proof.Gen.Kernel.Launch
import proofs.«121591_j16836271800363_1_alg».proof.Proof.Gen.Kernel.Skeleton
import proofs.«121591_j16836271800363_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's four branch conditions

Point `t` of the grid has coordinates `i = t / 8`, `k = t % 8`. -/

/-- `i = 0` and `k = 0`: the three scalar accumulators are zeroed. -/
abbrev cond0_1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_1 : ∀ t : Fin cfg0.N, cond0_1 (grid0.coords t) ↔ t.val = 0 :=
  (by decide +kernel : ∀ t : Fin grid0.N, cond0_1 (grid0.coords t) ↔ t.val = 0)

/-- `k = 0`: the row accumulator is zeroed. -/
abbrev cond0_2 (i : grid0.Coords) : Prop := (Scalar.cmpi .ne (Scalar.extui (Scalar.cmpi .eq (BitVec.ofNat 32 (i 1).val) 0#32)) 0#32) = 1#1
theorem hcond0_2 : ∀ t : Fin cfg0.N, cond0_2 (grid0.coords t) ↔ t.val % 8 = 0 :=
  (by decide +kernel : ∀ t : Fin grid0.N, cond0_2 (grid0.coords t) ↔ t.val % 8 = 0)

/-- `k = 7`: the sum of the logarithms of the row accumulator is added to the second scalar accumulator. -/
abbrev cond0_3 (i : grid0.Coords) : Prop := (Scalar.cmpi .ne (Scalar.extui (Scalar.cmpi .eq (BitVec.ofNat 32 (i 1).val) 7#32)) 0#32) = 1#1
theorem hcond0_3 : ∀ t : Fin cfg0.N, cond0_3 (grid0.coords t) ↔ t.val % 8 = 7 :=
  (by decide +kernel : ∀ t : Fin grid0.N, cond0_3 (grid0.coords t) ↔ t.val % 8 = 7)

/-- `i = 7` and `k = 7`: the three scalar accumulators are stored into the outputs. -/
abbrev cond0_4 (i : grid0.Coords) : Prop := k0_cond4 i = 1#1
theorem hcond0_4 : ∀ t : Fin cfg0.N, cond0_4 (grid0.coords t) ↔ t.val = 63 :=
  (by decide +kernel : ∀ t : Fin grid0.N, cond0_4 (grid0.coords t) ↔ t.val = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-- Away from the last point nothing is stored into output 4, and its block is not written back. -/
theorem idleAt0_4 : ∀ t : Fin cfg0.N, ¬cond0_4 (grid0.coords t) → cfg0.idle 4 (grid0.coords t) = true := by decide +kernel
theorem noFlush0_4 : ∀ t : Fin cfg0.N, ¬cond0_4 (grid0.coords t) → (cfg0.win 4).flush t = false := by decide +kernel
theorem liveAt0_4_E : ∀ t : Fin cfg0.N, cond0_4 (grid0.coords t) → cfg0.idle 4 (grid0.coords t) = false := by decide +kernel
theorem idleAt0_5 : ∀ t : Fin cfg0.N, ¬cond0_4 (grid0.coords t) → cfg0.idle 5 (grid0.coords t) = true := by decide +kernel
theorem noFlush0_5 : ∀ t : Fin cfg0.N, ¬cond0_4 (grid0.coords t) → (cfg0.win 5).flush t = false := by decide +kernel
theorem liveAt0_5_E : ∀ t : Fin cfg0.N, cond0_4 (grid0.coords t) → cfg0.idle 5 (grid0.coords t) = false := by decide +kernel
theorem idleAt0_6 : ∀ t : Fin cfg0.N, ¬cond0_4 (grid0.coords t) → cfg0.idle 6 (grid0.coords t) = true := by decide +kernel
theorem noFlush0_6 : ∀ t : Fin cfg0.N, ¬cond0_4 (grid0.coords t) → (cfg0.win 6).flush t = false := by decide +kernel
theorem liveAt0_6_E : ∀ t : Fin cfg0.N, cond0_4 (grid0.coords t) → cfg0.idle 6 (grid0.coords t) = false := by decide +kernel

/-! ## The memrefs the body is called with -/

/-- One staging buffer of each output window, through which its contents are stated. -/
abbrev VO0_4 : View sig .tc .vmem S1x1 .f32 := (Memref.whole cc0_stg4_0 : Memref sig .tc .vmem S1x1 .f32).view
abbrev VO0_5 : View sig .tc .vmem S1x1 .f32 := (Memref.whole cc0_stg5_0 : Memref sig .tc .vmem S1x1 .f32).view
abbrev VO0_6 : View sig .tc .vmem S1x1 .f32 := (Memref.whole cc0_stg6_0 : Memref sig .tc .vmem S1x1 .f32).view

/-- Each window's current staging memref at point `t`, and its wholeness. -/
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1 .f32 := win0_6.stage (cfg0.slots t 6)
abbrev hs0_6 (t : Fin cfg0.N) : (ms0_6 t).IsWhole := hstage0_6 ((cfg0.slots t 6).cast nbuf0_6)

/-- The four scratch operands: the row accumulator (512 x 1) and the three scalar accumulators. -/
abbrev scM0_0 : Memref sig .tc .vmem S512x1 .f32 := Memref.whole cc0_scratch0
abbrev scM0_1 : Memref sig .tc .vmem S1x1 .f32 := Memref.whole cc0_scratch1
abbrev scM0_2 : Memref sig .tc .vmem S1x1 .f32 := Memref.whole cc0_scratch2
abbrev scM0_3 : Memref sig .tc .vmem S1x1 .f32 := Memref.whole cc0_scratch3
abbrev VS0_0 : View sig .tc .vmem S512x1 .f32 := scM0_0.view
abbrev VS0_1 : View sig .tc .vmem S1x1 .f32 := scM0_1.view
abbrev VS0_2 : View sig .tc .vmem S1x1 .f32 := scM0_2.view
abbrev VS0_3 : View sig .tc .vmem S1x1 .f32 := scM0_3.view

/-- The region's invariant on a core: the four scratch operands each owned at some contents, and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Hand

end
-- ==== Proof.K.Blocks.lean ====
import proofs.«121591_j16836271800363_1_alg».proof.Proof.K.Launch
import proofs.«121591_j16836271800363_1_alg».proof.Proof.K.Runs

set_option maxRecDepth 16384
set_option pp.maxSteps 5000
set_option pp.deepTerms false

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The argument arrays are as launched -/

/-- The two reshapes before the region write neither argument array. -/
theorem V_main_arg0 (c : Dev nD) : V m c main_arg0 = m ((c : Thread nD τ).loc main_arg0) := by
  show StableHlo.after hostOps0 (fun b => m (c, b)) (Proc.devRef .tc main_arg0) = _
  after_results
theorem V_main_arg1 (c : Dev nD) : V m c main_arg1 = m ((c : Thread nD τ).loc main_arg1) := by
  show StableHlo.after hostOps0 (fun b => m (c, b)) (Proc.devRef .tc main_arg1) = _
  after_results

/-- Nor does any of the eight lines after the region, and `main_arg1` is no window's array. -/
theorem tail_main_arg1 (c : Dev nD) (dats : (p : Fin 1) → (c : Dev nD) → Dat τ (Elt F) Unit ℕ (UR sig nD τ) ℕ (cfgs p) c) :
    Pipeline.afterTail₀ cfgs dats 0 (V0 m) [hostOps1] c main_arg1 = m ((c : Thread nD τ).loc main_arg1) := by
  unfold Pipeline.afterTail₀
  rw [StableHlo.after_of_forall_not_mem _ _ (fun op hop => ?_), Pipeline.withArrays_of_ne spec0 c (V0 m c) _ main_arg1 (by decide)]
  · exact V_main_arg1 m c
  · simp only [List.flatten_cons, List.flatten_nil, List.append_nil, hostOps1, List.mem_cons, List.mem_nil_iff, _root_.or_false] at hop
    rcases hop with rfl | rfl | rfl | rfl | rfl | rfl | rfl | rfl <;>
      simp only [StableHlo.nullary_writes, StableHlo.unary_writes, StableHlo.binary_writes, StableHlo.reshape_writes, Finset.mem_singleton] <;>
      exact StableHlo.devRef_ne_of_ne (by decide)

/-! ## The frame claim's post from the run's -/

/-- THE FRAME from the run: both argument arrays end as launched — `main_arg0` because an input window's array keeps
    its entry contents, `main_arg1` because it bypasses the region and no line writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
    ((h c).2 main_arg1 (by decide)).trans (tail_main_arg1 m c dats)⟩) h

end Cert.Kernel.Hand

end
-- ==== Proof.K.RunA.lean ====
/- The kernel body run at the first grid point (i = 0, k = 0): the three scalar accumulators and the row accumulator are zeroed, then the point's block is accumulated; nothing is added from the logarithms and no output is stored. The lists of pieces say what each stored buffer ends with,
   last store first; they are read off the body's stores. -/
import proofs.«121591_j16836271800363_1_alg».proof.Proof.K.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's triple in case A: from the four input blocks, the three output buffers and the four scratch
    operands owned whole, the body runs to a continuation that is given the inputs as they were and each buffer
    the case stores into with its pieces written. -/
noncomputable def kernelRun0_A (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : cond0_1 i) (hc2 : cond0_2 i) (hc3 : ¬cond0_3 i) (hc4 : ¬cond0_4 i)
    (x0 : Vec F S512x512 .f32) (x1 : Vec F S512x512 .f32) (x2 : Vec F S512x1 .i32) (x3 : Vec F S1x512 .i32) :
    Σ' (LS0 : List (View.Piece (Elt F) S512x1 .f32)) (LS1 : List (View.Piece (Elt F) S1x1 .f32)) (LS2 : List (View.Piece (Elt F) S1x1 .f32)), { LS3 : List (View.Piece (Elt F) S1x1 .f32) //
      ∀ (xi4 : Vec F S1x1 .f32) (xi5 : Vec F S1x1 .f32) (xi6 : Vec F S1x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare xi4
            ∗ owns (c : Thread nD τ) arg7 fullShare xi5
            ∗ owns (c : Thread nD τ) arg8 fullShare xi6
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare xi4
                ∗ owns (c : Thread nD τ) arg7 fullShare xi5
                ∗ owns (c : Thread nD τ) arg8 fullShare xi6
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)
                ∗ (∃ f, arg12.view.loc (c : Thread nD τ) ↦[arg12.view.set]{fullShare} arg12.view.writes (Elt F) f LS3)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10 arg11 harg11 arg12 harg12) K } := by
  refine ⟨?_, ?_, ?_, ?_, fun xi4 xi5 xi6 E K => ?run⟩
  case run =>
    simp only [cc0__supcon_kernel_eq_skeleton]; unfold cc0__supcon_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    iexists _; iexact H12

end Cert.Kernel.Hand

end
-- ==== Proof.K.RunB.lean ====
/- The kernel body run at the first column of a later block row (k = 0, i > 0): the row accumulator is zeroed, then the point's block is accumulated; the second scalar accumulator is left as it was and no output is stored. The lists of pieces say what each stored buffer ends with,
   last store first; they are read off the body's stores. -/
import proofs.«121591_j16836271800363_1_alg».proof.Proof.K.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's triple in case B: from the four input blocks, the three output buffers and the four scratch
    operands owned whole, the body runs to a continuation that is given the inputs as they were and each buffer
    the case stores into with its pieces written. -/
noncomputable def kernelRun0_B (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : cond0_2 i) (hc3 : ¬cond0_3 i) (hc4 : ¬cond0_4 i)
    (x0 : Vec F S512x512 .f32) (x1 : Vec F S512x512 .f32) (x2 : Vec F S512x1 .i32) (x3 : Vec F S1x512 .i32) (xs1 : Vec F S1x1 .f32) (xs2 : Vec F S1x1 .f32) (xs3 : Vec F S1x1 .f32) :
    Σ' (LS0 : List (View.Piece (Elt F) S512x1 .f32)) (LS1 : List (View.Piece (Elt F) S1x1 .f32)), { LS3 : List (View.Piece (Elt F) S1x1 .f32) //
      ∀ (xi4 : Vec F S1x1 .f32) (xi5 : Vec F S1x1 .f32) (xi6 : Vec F S1x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare xi4
            ∗ owns (c : Thread nD τ) arg7 fullShare xi5
            ∗ owns (c : Thread nD τ) arg8 fullShare xi6
            ∗ (∃ d, owns (c : Thread nD τ) arg9 fullShare d)
            ∗ owns (c : Thread nD τ) arg10 fullShare xs1
            ∗ owns (c : Thread nD τ) arg11 fullShare xs2
            ∗ owns (c : Thread nD τ) arg12 fullShare xs3
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare xi4
                ∗ owns (c : Thread nD τ) arg7 fullShare xi5
                ∗ owns (c : Thread nD τ) arg8 fullShare xi6
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ owns (c : Thread nD τ) arg11 fullShare xs2
                ∗ (∃ f, arg12.view.loc (c : Thread nD τ) ↦[arg12.view.set]{fullShare} arg12.view.writes (Elt F) f LS3)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10 arg11 harg11 arg12 harg12) K } := by
  refine ⟨?_, ?_, ?_, fun xi4 xi5 xi6 E K => ?run⟩
  case run =>
    simp only [cc0__supcon_kernel_eq_skeleton]; unfold cc0__supcon_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10; obtain rfl := harg11.eq_unread hf11; obtain rfl := harg12.eq_unread hf12
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]
    · iexists _; isplitr; · ipureintro; exact harg11.read_unread _
      iexact H11
    iexists _; iexact H12

end Cert.Kernel.Hand

end
-- ==== Proof.K.RunC.lean ====
/- The kernel body run at an inner column (0 < k < 7): the point's block is accumulated into the row accumulator and the first and third scalar accumulators; the second scalar accumulator is left as it was and no output is stored. The lists of pieces say what each stored buffer ends with,
   last store first; they are read off the body's stores. -/
import proofs.«121591_j16836271800363_1_alg».proof.Proof.K.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's triple in case C: from the four input blocks, the three output buffers and the four scratch
    operands owned whole, the body runs to a continuation that is given the inputs as they were and each buffer
    the case stores into with its pieces written. -/
noncomputable def kernelRun0_C (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : ¬cond0_3 i) (hc4 : ¬cond0_4 i)
    (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) :
    Σ' (LS0 : List (View.Piece (Elt F) S512x1 .f32)) (LS1 : List (View.Piece (Elt F) S1x1 .f32)), { LS3 : List (View.Piece (Elt F) S1x1 .f32) //
      ∀ (xi4 : Vec F S1x1 .f32) (xi5 : Vec F S1x1 .f32) (xi6 : Vec F S1x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare xi4
            ∗ owns (c : Thread nD τ) arg7 fullShare xi5
            ∗ owns (c : Thread nD τ) arg8 fullShare xi6
            ∗ owns (c : Thread nD τ) arg9 fullShare xs0
            ∗ owns (c : Thread nD τ) arg10 fullShare xs1
            ∗ owns (c : Thread nD τ) arg11 fullShare xs2
            ∗ owns (c : Thread nD τ) arg12 fullShare xs3
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare xi4
                ∗ owns (c : Thread nD τ) arg7 fullShare xi5
                ∗ owns (c : Thread nD τ) arg8 fullShare xi6
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ owns (c : Thread nD τ) arg11 fullShare xs2
                ∗ (∃ f, arg12.view.loc (c : Thread nD τ) ↦[arg12.view.set]{fullShare} arg12.view.writes (Elt F) f LS3)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10 arg11 harg11 arg12 harg12) K } := by
  refine ⟨?_, ?_, ?_, fun xi4 xi5 xi6 E K => ?run⟩
  case run =>
    simp only [cc0__supcon_kernel_eq_skeleton]; unfold cc0__supcon_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]
    · iexists _; isplitr; · ipureintro; exact harg11.read_unread _
      iexact H11
    iexists _; iexact H12

end Cert.Kernel.Hand

end
-- ==== Proof.K.RunD.lean ====
/- The kernel body run at the last column of a block row other than the last (k = 7, i < 7): the point's block is accumulated, then the sum of the logarithms of the row accumulator is added to the second scalar accumulator; no output is stored. The lists of pieces say what each stored buffer ends with,
   last store first; they are read off the body's stores. -/
import proofs.«121591_j16836271800363_1_alg».proof.Proof.K.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's triple in case D: from the four input blocks, the three output buffers and the four scratch
    operands owned whole, the body runs to a continuation that is given the inputs as they were and each buffer
    the case stores into with its pieces written. -/
noncomputable def kernelRun0_D (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : ¬cond0_4 i)
    (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) :
    Σ' (LS0 : List (View.Piece (Elt F) S512x1 .f32)) (LS1 : List (View.Piece (Elt F) S1x1 .f32)) (LS2 : List (View.Piece (Elt F) S1x1 .f32)), { LS3 : List (View.Piece (Elt F) S1x1 .f32) //
      ∀ (xi4 : Vec F S1x1 .f32) (xi5 : Vec F S1x1 .f32) (xi6 : Vec F S1x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare xi4
            ∗ owns (c : Thread nD τ) arg7 fullShare xi5
            ∗ owns (c : Thread nD τ) arg8 fullShare xi6
            ∗ owns (c : Thread nD τ) arg9 fullShare xs0
            ∗ owns (c : Thread nD τ) arg10 fullShare xs1
            ∗ owns (c : Thread nD τ) arg11 fullShare xs2
            ∗ owns (c : Thread nD τ) arg12 fullShare xs3
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare xi4
                ∗ owns (c : Thread nD τ) arg7 fullShare xi5
                ∗ owns (c : Thread nD τ) arg8 fullShare xi6
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)
                ∗ (∃ f, arg12.view.loc (c : Thread nD τ) ↦[arg12.view.set]{fullShare} arg12.view.writes (Elt F) f LS3)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10 arg11 harg11 arg12 harg12) K } := by
  refine ⟨?_, ?_, ?_, ?_, fun xi4 xi5 xi6 E K => ?run⟩
  case run =>
    simp only [cc0__supcon_kernel_eq_skeleton]; unfold cc0__supcon_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    iexists _; iexact H12

end Cert.Kernel.Hand

end
-- ==== Proof.K.RunE.lean ====
/- The kernel body run at the last grid point (i = 7, k = 7): the point's block is accumulated, the sum of the logarithms of the row accumulator is added to the second scalar accumulator, and the three scalar accumulators are stored into the three outputs. The lists of pieces say what each stored buffer ends with,
   last store first; they are read off the body's stores. -/
import proofs.«121591_j16836271800363_1_alg».proof.Proof.K.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's triple in case E: from the four input blocks, the three output buffers and the four scratch
    operands owned whole, the body runs to a continuation that is given the inputs as they were and each buffer
    the case stores into with its pieces written. -/
noncomputable def kernelRun0_E (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i)
    (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) :
    Σ' (L4 : List (View.Piece (Elt F) S1x1 .f32)) (L5 : List (View.Piece (Elt F) S1x1 .f32)) (L6 : List (View.Piece (Elt F) S1x1 .f32)) (LS0 : List (View.Piece (Elt F) S512x1 .f32)) (LS1 : List (View.Piece (Elt F) S1x1 .f32)) (LS2 : List (View.Piece (Elt F) S1x1 .f32)), { LS3 : List (View.Piece (Elt F) S1x1 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ (∃ d, owns (c : Thread nD τ) arg6 fullShare d)
            ∗ (∃ d, owns (c : Thread nD τ) arg7 fullShare d)
            ∗ (∃ d, owns (c : Thread nD τ) arg8 fullShare d)
            ∗ owns (c : Thread nD τ) arg9 fullShare xs0
            ∗ owns (c : Thread nD τ) arg10 fullShare xs1
            ∗ owns (c : Thread nD τ) arg11 fullShare xs2
            ∗ owns (c : Thread nD τ) arg12 fullShare xs3
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)
                ∗ (∃ f, arg12.view.loc (c : Thread nD τ) ↦[arg12.view.set]{fullShare} arg12.view.writes (Elt F) f LS3)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, fun E K => ?run⟩
  case run =>
    simp only [cc0__supcon_kernel_eq_skeleton]; unfold cc0__supcon_kernel_skel
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, ⟨%f11, %hf11, H11⟩, ⟨%f12, %hf12, H12⟩, Hk⟩
    obtain rfl := harg2.eq_unread hf2; obtain rfl := harg3.eq_unread hf3; obtain rfl := harg4.eq_unread hf4; obtain rfl := harg5.eq_unread hf5; obtain rfl := harg9.eq_unread hf9; obtain rfl := harg10.eq_unread hf10; obtain rfl := harg11.eq_unread hf11; obtain rfl := harg12.eq_unread hf12
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12

end Cert.Kernel.Hand

end
-- ==== Proof.K.Pieces.lean ====
/- What each case of the kernel body leaves in the buffers it stores into, read back as a value: every such
   buffer is stored whole last, so it holds that last store's payload, as a function of the four input blocks,
   the grid point, and the contents the scratch operands had when the point was entered. A value the body loads
   from a buffer it stored earlier in the same point is the payload stored; a load before any store reads the
   entry contents. -/
import proofs.«121591_j16836271800363_1_alg».proof.Proof.K.RunA
import proofs.«121591_j16836271800363_1_alg».proof.Proof.K.RunB
import proofs.«121591_j16836271800363_1_alg».proof.Proof.K.RunC
import proofs.«121591_j16836271800363_1_alg».proof.Proof.K.RunD
import proofs.«121591_j16836271800363_1_alg».proof.Proof.K.RunE
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a rank-two rectangle, as a function. -/
theorem off00_eq_zero : (![0, 0] : Fin 2 → Nat) = fun _ => 0 := funext fun a => by fin_cases a <;> rfl

/-! ## Case A -/

/-- The pieces case A leaves in scratch operand 0 cover it. -/
theorem scover0_A_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 hc1 hc2 hc3 hc4 x0 x1 x2 x3).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc1 hc2 hc3 hc4 x0 x1 x2 x3).1 S512x1.size (by sl_kernel_rfl) y

/-- What case A leaves in scratch operand 0: its pieces read back. -/
noncomputable def sout0_A_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) : Vec F S512x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc1 hc2 hc3 hc4 x0 x1 x2 x3).1)

/-- It is the payload of the case's last store into it, over the blocks and the entry contents. -/
theorem sout0_A_0_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) :
    sout0_A_0 c i arg2 harg2 arg3 harg3 arg4 harg4 arg5 harg5 arg6 harg6 arg7 harg7 arg8 harg8 arg9 harg9 arg10 harg10 arg11 harg11 arg12 harg12 hc1 hc2 hc3 hc4 x0 x1 x2 x3 = k0_pay1 k0_pay6 (k0_pay13 (k0_pay7 x0 x1) (k0_pay8 i)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc1 hc2 hc3 hc4 x0 x1 x2 x3)]
  unfold kernelRun0_A
  dsimp only
  sl_unfold_words
  first
    | rw [View.canon_unit_zero (S := S512x1) off00_eq_zero]
    | rw [View.canon_cons_unit_zero (S := S512x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

/-- The pieces case A leaves in scratch operand 1 cover it. -/
theorem scover0_A_1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) (y : S1x1.Idx) :
    ∃ pc ∈ (kernelRun0_A c i arg2 harg2 arg3 harg3 arg4 harg4 arg5 harg5 arg6 harg6 arg7 harg7 arg8 harg8 arg9 harg9 arg10 harg10 arg11 harg11 arg12 harg12 hc1 hc2 hc3 hc4 x0 x1 x2 x3).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc1 hc2 hc3 hc4 x0 x1 x2 x3).2.1 S1x1.size (by sl_kernel_rfl) y

/-- What case A leaves in scratch operand 1: its pieces read back. -/
noncomputable def sout0_A_1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) : Vec F S1x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 hc1 hc2 hc3 hc4 x0 x1 x2 x3).2.1)

/-- It is the payload of the case's last store into it, over the blocks and the entry contents. -/
theorem sout0_A_1_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) :
    sout0_A_1 c i arg2 harg2 arg3 harg3 arg4 harg4 arg5 harg5 arg6 harg6 arg7 harg7 arg8 harg8 arg9 harg9 arg10 harg10 arg11 harg11 arg12 harg12 hc1 hc2 hc3 hc4 x0 x1 x2 x3 = k0_pay11 (k0_pay7 x0 x1) (k0_pay8 i) x2 x3 k0_pay3 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc1 hc2 hc3 hc4 x0 x1 x2 x3)]
  unfold kernelRun0_A
  dsimp only
  sl_unfold_words
  first
    | rw [View.canon_unit_zero (S := S1x1) off00_eq_zero]
    | rw [View.canon_cons_unit_zero (S := S1x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

/-- The pieces case A leaves in scratch operand 2 cover it. -/
theorem scover0_A_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) (y : S1x1.Idx) :
    ∃ pc ∈ (kernelRun0_A c i arg2 harg2 arg3 harg3 arg4 harg4 arg5 harg5 arg6 harg6 arg7 harg7 arg8 harg8 arg9 harg9 arg10 harg10 arg11 harg11 arg12 harg12 hc1 hc2 hc3 hc4 x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc1 hc2 hc3 hc4 x0 x1 x2 x3).2.2.1 S1x1.size (by sl_kernel_rfl) y

/-- What case A leaves in scratch operand 2: its pieces read back. -/
noncomputable def sout0_A_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) : Vec F S1x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 hc1 hc2 hc3 hc4 x0 x1 x2 x3).2.2.1)

/-- It is the payload of the case's last store into it, over the blocks and the entry contents. -/
theorem sout0_A_2_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) :
    sout0_A_2 c i arg2 harg2 arg3 harg3 arg4 harg4 arg5 harg5 arg6 harg6 arg7 harg7 arg8 harg8 arg9 harg9 arg10 harg10 arg11 harg11 arg12 harg12 hc1 hc2 hc3 hc4 x0 x1 x2 x3 = k0_pay4 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc1 hc2 hc3 hc4 x0 x1 x2 x3)]
  unfold kernelRun0_A
  dsimp only
  sl_unfold_words
  first
    | rw [View.canon_unit_zero (S := S1x1) off00_eq_zero]
    | rw [View.canon_cons_unit_zero (S := S1x1) off00_eq_zero]

/-- The pieces case A leaves in scratch operand 3 cover it. -/
theorem scover0_A_3 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) (y : S1x1.Idx) :
    ∃ pc ∈ (kernelRun0_A c i arg2 harg2 arg3 harg3 arg4 harg4 arg5 harg5 arg6 harg6 arg7 harg7 arg8 harg8 arg9 harg9 arg10 harg10 arg11 harg11 arg12 harg12 hc1 hc2 hc3 hc4 x0 x1 x2 x3).2.2.2.val, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc1 hc2 hc3 hc4 x0 x1 x2 x3).2.2.2.val S1x1.size (by sl_kernel_rfl) y

/-- What case A leaves in scratch operand 3: its pieces read back. -/
noncomputable def sout0_A_3 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) : Vec F S1x1 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 hc1 hc2 hc3 hc4 x0 x1 x2 x3).2.2.2.val)

/-- It is the payload of the case's last store into it, over the blocks and the entry contents. -/
theorem sout0_A_3_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) :
    sout0_A_3 c i arg2 harg2 arg3 harg3 arg4 harg4 arg5 harg5 arg6 harg6 arg7 harg7 arg8 harg8 arg9 harg9 arg10 harg10 arg11 harg11 arg12 harg12 hc1 hc2 hc3 hc4 x0 x1 x2 x3 = k0_pay12 (k0_pay8 i) x2 x3 k0_pay5 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 hc1 hc2 hc3 hc4 x0 x1 x2 x3)]
  unfold kernelRun0_A
  dsimp only
  sl_unfold_words
  first
    | rw [View.canon_unit_zero (S := S1x1) off00_eq_zero]
    | rw [View.canon_cons_unit_zero (S := S1x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

/-! ## Case B -/

/-- The pieces case B leaves in scratch operand 0 cover it. -/
theorem scover0_B_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) (xs1 : Vec F S1x1 .f32) (xs2 : Vec F S1x1 .f32) (xs3 : Vec F S1x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 hc1 hc2 hc3 hc4 x0 x1 x2 x3 xs1 xs2 xs3).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc1 hc2 hc3 hc4 x0 x1 x2 x3 xs1 xs2 xs3).1 S512x1.size (by sl_kernel_rfl) y

/-- What case B leaves in scratch operand 0: its pieces read back. -/
noncomputable def sout0_B_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) (xs1 : Vec F S1x1 .f32) (xs2 : Vec F S1x1 .f32) (xs3 : Vec F S1x1 .f32) : Vec F S512x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc1 hc2 hc3 hc4 x0 x1 x2 x3 xs1 xs2 xs3).1)

/-- It is the payload of the case's last store into it, over the blocks and the entry contents. -/
theorem sout0_B_0_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) (xs1 : Vec F S1x1 .f32) (xs2 : Vec F S1x1 .f32) (xs3 : Vec F S1x1 .f32) :
    sout0_B_0 c i arg2 harg2 arg3 harg3 arg4 harg4 arg5 harg5 arg6 harg6 arg7 harg7 arg8 harg8 arg9 harg9 arg10 harg10 arg11 harg11 arg12 harg12 hc1 hc2 hc3 hc4 x0 x1 x2 x3 xs1 xs2 xs3 = k0_pay1 k0_pay6 (k0_pay13 (k0_pay7 x0 x1) (k0_pay8 i)) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc1 hc2 hc3 hc4 x0 x1 x2 x3 xs1 xs2 xs3)]
  unfold kernelRun0_B
  dsimp only
  sl_unfold_words
  first
    | rw [View.canon_unit_zero (S := S512x1) off00_eq_zero]
    | rw [View.canon_cons_unit_zero (S := S512x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

/-- The pieces case B leaves in scratch operand 1 cover it. -/
theorem scover0_B_1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) (xs1 : Vec F S1x1 .f32) (xs2 : Vec F S1x1 .f32) (xs3 : Vec F S1x1 .f32) (y : S1x1.Idx) :
    ∃ pc ∈ (kernelRun0_B c i arg2 harg2 arg3 harg3 arg4 harg4 arg5 harg5 arg6 harg6 arg7 harg7 arg8 harg8 arg9 harg9 arg10 harg10 arg11 harg11 arg12 harg12 hc1 hc2 hc3 hc4 x0 x1 x2 x3 xs1 xs2 xs3).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc1 hc2 hc3 hc4 x0 x1 x2 x3 xs1 xs2 xs3).2.1 S1x1.size (by sl_kernel_rfl) y

/-- What case B leaves in scratch operand 1: its pieces read back. -/
noncomputable def sout0_B_1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) (xs1 : Vec F S1x1 .f32) (xs2 : Vec F S1x1 .f32) (xs3 : Vec F S1x1 .f32) : Vec F S1x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 hc1 hc2 hc3 hc4 x0 x1 x2 x3 xs1 xs2 xs3).2.1)

/-- It is the payload of the case's last store into it, over the blocks and the entry contents. -/
theorem sout0_B_1_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) (xs1 : Vec F S1x1 .f32) (xs2 : Vec F S1x1 .f32) (xs3 : Vec F S1x1 .f32) :
    sout0_B_1 c i arg2 harg2 arg3 harg3 arg4 harg4 arg5 harg5 arg6 harg6 arg7 harg7 arg8 harg8 arg9 harg9 arg10 harg10 arg11 harg11 arg12 harg12 hc1 hc2 hc3 hc4 x0 x1 x2 x3 xs1 xs2 xs3 = k0_pay11 (k0_pay7 x0 x1) (k0_pay8 i) x2 x3 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc1 hc2 hc3 hc4 x0 x1 x2 x3 xs1 xs2 xs3)]
  unfold kernelRun0_B
  dsimp only
  sl_unfold_words
  first
    | rw [View.canon_unit_zero (S := S1x1) off00_eq_zero]
    | rw [View.canon_cons_unit_zero (S := S1x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

/-- The pieces case B leaves in scratch operand 3 cover it. -/
theorem scover0_B_3 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) (xs1 : Vec F S1x1 .f32) (xs2 : Vec F S1x1 .f32) (xs3 : Vec F S1x1 .f32) (y : S1x1.Idx) :
    ∃ pc ∈ (kernelRun0_B c i arg2 harg2 arg3 harg3 arg4 harg4 arg5 harg5 arg6 harg6 arg7 harg7 arg8 harg8 arg9 harg9 arg10 harg10 arg11 harg11 arg12 harg12 hc1 hc2 hc3 hc4 x0 x1 x2 x3 xs1 xs2 xs3).2.2.val, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc1 hc2 hc3 hc4 x0 x1 x2 x3 xs1 xs2 xs3).2.2.val S1x1.size (by sl_kernel_rfl) y

/-- What case B leaves in scratch operand 3: its pieces read back. -/
noncomputable def sout0_B_3 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) (xs1 : Vec F S1x1 .f32) (xs2 : Vec F S1x1 .f32) (xs3 : Vec F S1x1 .f32) : Vec F S1x1 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 hc1 hc2 hc3 hc4 x0 x1 x2 x3 xs1 xs2 xs3).2.2.val)

/-- It is the payload of the case's last store into it, over the blocks and the entry contents. -/
theorem sout0_B_3_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) (xs1 : Vec F S1x1 .f32) (xs2 : Vec F S1x1 .f32) (xs3 : Vec F S1x1 .f32) :
    sout0_B_3 c i arg2 harg2 arg3 harg3 arg4 harg4 arg5 harg5 arg6 harg6 arg7 harg7 arg8 harg8 arg9 harg9 arg10 harg10 arg11 harg11 arg12 harg12 hc1 hc2 hc3 hc4 x0 x1 x2 x3 xs1 xs2 xs3 = k0_pay12 (k0_pay8 i) x2 x3 xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 hc1 hc2 hc3 hc4 x0 x1 x2 x3 xs1 xs2 xs3)]
  unfold kernelRun0_B
  dsimp only
  sl_unfold_words
  first
    | rw [View.canon_unit_zero (S := S1x1) off00_eq_zero]
    | rw [View.canon_cons_unit_zero (S := S1x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

/-! ## Case C -/

/-- The pieces case C leaves in scratch operand 0 cover it. -/
theorem scover0_C_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : ¬cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).1 S512x1.size (by sl_kernel_rfl) y

/-- What case C leaves in scratch operand 0: its pieces read back. -/
noncomputable def sout0_C_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : ¬cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) : Vec F S512x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).1)

/-- It is the payload of the case's last store into it, over the blocks and the entry contents. -/
theorem sout0_C_0_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : ¬cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) :
    sout0_C_0 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3 = k0_pay1 xs0 (k0_pay13 (k0_pay7 x0 x1) (k0_pay8 i)) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3)]
  unfold kernelRun0_C
  dsimp only
  sl_unfold_words
  first
    | rw [View.canon_unit_zero (S := S512x1) off00_eq_zero]
    | rw [View.canon_cons_unit_zero (S := S512x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

/-- The pieces case C leaves in scratch operand 1 cover it. -/
theorem scover0_C_1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : ¬cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) (y : S1x1.Idx) :
    ∃ pc ∈ (kernelRun0_C c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.1 S1x1.size (by sl_kernel_rfl) y

/-- What case C leaves in scratch operand 1: its pieces read back. -/
noncomputable def sout0_C_1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : ¬cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) : Vec F S1x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.1)

/-- It is the payload of the case's last store into it, over the blocks and the entry contents. -/
theorem sout0_C_1_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : ¬cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) :
    sout0_C_1 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3 = k0_pay11 (k0_pay7 x0 x1) (k0_pay8 i) x2 x3 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3)]
  unfold kernelRun0_C
  dsimp only
  sl_unfold_words
  first
    | rw [View.canon_unit_zero (S := S1x1) off00_eq_zero]
    | rw [View.canon_cons_unit_zero (S := S1x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

/-- The pieces case C leaves in scratch operand 3 cover it. -/
theorem scover0_C_3 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : ¬cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) (y : S1x1.Idx) :
    ∃ pc ∈ (kernelRun0_C c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.val, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.val S1x1.size (by sl_kernel_rfl) y

/-- What case C leaves in scratch operand 3: its pieces read back. -/
noncomputable def sout0_C_3 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : ¬cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) : Vec F S1x1 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.val)

/-- It is the payload of the case's last store into it, over the blocks and the entry contents. -/
theorem sout0_C_3_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : ¬cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) :
    sout0_C_3 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3 = k0_pay12 (k0_pay8 i) x2 x3 xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3)]
  unfold kernelRun0_C
  dsimp only
  sl_unfold_words
  first
    | rw [View.canon_unit_zero (S := S1x1) off00_eq_zero]
    | rw [View.canon_cons_unit_zero (S := S1x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

/-! ## Case D -/

/-- The pieces case D leaves in scratch operand 0 cover it. -/
theorem scover0_D_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) (y : S512x1.Idx) :
    ∃ pc ∈ (kernelRun0_D c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).1 S512x1.size (by sl_kernel_rfl) y

/-- What case D leaves in scratch operand 0: its pieces read back. -/
noncomputable def sout0_D_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) : Vec F S512x1 .f32 :=
  VS0_0.read (Elt F) (VS0_0.writes (Elt F) VS0_0.junk (kernelRun0_D c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).1)

/-- It is the payload of the case's last store into it, over the blocks and the entry contents. -/
theorem sout0_D_0_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) :
    sout0_D_0 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3 = k0_pay1 xs0 (k0_pay13 (k0_pay7 x0 x1) (k0_pay8 i)) := by
  unfold sout0_D_0
  rw [View.read_writes_eq_canon _ _ _ (scover0_D_0 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3)]
  unfold kernelRun0_D
  dsimp only
  sl_unfold_words
  first
    | rw [View.canon_unit_zero (S := S512x1) off00_eq_zero]
    | rw [View.canon_cons_unit_zero (S := S512x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

/-- The pieces case D leaves in scratch operand 1 cover it. -/
theorem scover0_D_1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) (y : S1x1.Idx) :
    ∃ pc ∈ (kernelRun0_D c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.1 S1x1.size (by sl_kernel_rfl) y

/-- What case D leaves in scratch operand 1: its pieces read back. -/
noncomputable def sout0_D_1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) : Vec F S1x1 .f32 :=
  VS0_1.read (Elt F) (VS0_1.writes (Elt F) VS0_1.junk (kernelRun0_D c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.1)

/-- It is the payload of the case's last store into it, over the blocks and the entry contents. -/
theorem sout0_D_1_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) :
    sout0_D_1 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3 = k0_pay11 (k0_pay7 x0 x1) (k0_pay8 i) x2 x3 xs1 := by
  unfold sout0_D_1
  rw [View.read_writes_eq_canon _ _ _ (scover0_D_1 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3)]
  unfold kernelRun0_D
  dsimp only
  sl_unfold_words
  first
    | rw [View.canon_unit_zero (S := S1x1) off00_eq_zero]
    | rw [View.canon_cons_unit_zero (S := S1x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

/-- The pieces case D leaves in scratch operand 2 cover it. -/
theorem scover0_D_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) (y : S1x1.Idx) :
    ∃ pc ∈ (kernelRun0_D c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.1 S1x1.size (by sl_kernel_rfl) y

/-- What case D leaves in scratch operand 2: its pieces read back. -/
noncomputable def sout0_D_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) : Vec F S1x1 .f32 :=
  VS0_2.read (Elt F) (VS0_2.writes (Elt F) VS0_2.junk (kernelRun0_D c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.1)

/-- It is the payload of the case's last store into it, over the blocks and the entry contents. -/
theorem sout0_D_2_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) :
    sout0_D_2 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3 = k0_pay2 xs2 (k0_pay1 xs0 (k0_pay13 (k0_pay7 x0 x1) (k0_pay8 i))) := by
  unfold sout0_D_2
  rw [View.read_writes_eq_canon _ _ _ (scover0_D_2 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3)]
  unfold kernelRun0_D
  dsimp only
  sl_unfold_words
  first
    | rw [View.canon_unit_zero (S := S1x1) off00_eq_zero]
    | rw [View.canon_cons_unit_zero (S := S1x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

/-- The pieces case D leaves in scratch operand 3 cover it. -/
theorem scover0_D_3 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) (y : S1x1.Idx) :
    ∃ pc ∈ (kernelRun0_D c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.2.val, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.2.val S1x1.size (by sl_kernel_rfl) y

/-- What case D leaves in scratch operand 3: its pieces read back. -/
noncomputable def sout0_D_3 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) : Vec F S1x1 .f32 :=
  VS0_3.read (Elt F) (VS0_3.writes (Elt F) VS0_3.junk (kernelRun0_D c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.2.val)

/-- It is the payload of the case's last store into it, over the blocks and the entry contents. -/
theorem sout0_D_3_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) :
    sout0_D_3 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3 = k0_pay12 (k0_pay8 i) x2 x3 xs3 := by
  unfold sout0_D_3
  rw [View.read_writes_eq_canon _ _ _ (scover0_D_3 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3)]
  unfold kernelRun0_D
  dsimp only
  sl_unfold_words
  first
    | rw [View.canon_unit_zero (S := S1x1) off00_eq_zero]
    | rw [View.canon_cons_unit_zero (S := S1x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

/-! ## Case E -/

/-- The pieces case E leaves in output 4's staging buffer cover it. -/
theorem cover0_E_4 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) (y : S1x1.Idx) :
    ∃ pc ∈ (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).1, y ∈ pc.1.set :=
  View.cover_of_tiledL (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).1 S1x1.size (by sl_kernel_rfl) y

/-- What case E leaves in output 4's staging buffer: its pieces read back. -/
noncomputable def out0_E_4 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) : Vec F S1x1 .f32 :=
  VO0_4.read (Elt F) (VO0_4.writes (Elt F) VO0_4.junk (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).1)

/-- It is the payload of the case's last store into it, over the blocks and the entry contents. -/
theorem out0_E_4_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) :
    out0_E_4 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3 = k0_pay11 (k0_pay7 x0 x1) (k0_pay8 i) x2 x3 xs1 := by
  unfold out0_E_4
  rw [View.read_writes_eq_canon _ _ _ (cover0_E_4 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3)]
  unfold kernelRun0_E
  dsimp only
  sl_unfold_words
  first
    | rw [View.canon_unit_zero (S := S1x1) off00_eq_zero]
    | rw [View.canon_cons_unit_zero (S := S1x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

/-- The pieces case E leaves in output 5's staging buffer cover it. -/
theorem cover0_E_5 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) (y : S1x1.Idx) :
    ∃ pc ∈ (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.1, y ∈ pc.1.set :=
  View.cover_of_tiledL (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.1 S1x1.size (by sl_kernel_rfl) y

/-- What case E leaves in output 5's staging buffer: its pieces read back. -/
noncomputable def out0_E_5 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) : Vec F S1x1 .f32 :=
  VO0_5.read (Elt F) (VO0_5.writes (Elt F) VO0_5.junk (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.1)

/-- It is the payload of the case's last store into it, over the blocks and the entry contents. -/
theorem out0_E_5_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) :
    out0_E_5 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3 = k0_pay2 xs2 (k0_pay1 xs0 (k0_pay13 (k0_pay7 x0 x1) (k0_pay8 i))) := by
  unfold out0_E_5
  rw [View.read_writes_eq_canon _ _ _ (cover0_E_5 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3)]
  unfold kernelRun0_E
  dsimp only
  sl_unfold_words
  first
    | rw [View.canon_unit_zero (S := S1x1) off00_eq_zero]
    | rw [View.canon_cons_unit_zero (S := S1x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

/-- The pieces case E leaves in output 6's staging buffer cover it. -/
theorem cover0_E_6 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) (y : S1x1.Idx) :
    ∃ pc ∈ (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.1, y ∈ pc.1.set :=
  View.cover_of_tiledL (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.1 S1x1.size (by sl_kernel_rfl) y

/-- What case E leaves in output 6's staging buffer: its pieces read back. -/
noncomputable def out0_E_6 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) : Vec F S1x1 .f32 :=
  VO0_6.read (Elt F) (VO0_6.writes (Elt F) VO0_6.junk (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.1)

/-- It is the payload of the case's last store into it, over the blocks and the entry contents. -/
theorem out0_E_6_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) :
    out0_E_6 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3 = k0_pay12 (k0_pay8 i) x2 x3 xs3 := by
  unfold out0_E_6
  rw [View.read_writes_eq_canon _ _ _ (cover0_E_6 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3)]
  unfold kernelRun0_E
  dsimp only
  sl_unfold_words
  first
    | rw [View.canon_unit_zero (S := S1x1) off00_eq_zero]
    | rw [View.canon_cons_unit_zero (S := S1x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

/-- The pieces case E leaves in scratch operand 0 cover it. -/
theorem scover0_E_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) (y : S512x1.Idx) :
    ∃ pc ∈ (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.2.1, y ∈ pc.1.set :=
  View.cover_of_tiledL (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.2.1 S512x1.size (by sl_kernel_rfl) y

/-- What case E leaves in scratch operand 0: its pieces read back. -/
noncomputable def sout0_E_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) : Vec F S512x1 .f32 :=
  VS0_0.read (Elt F) (VS0_0.writes (Elt F) VS0_0.junk (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.2.1)

/-- It is the payload of the case's last store into it, over the blocks and the entry contents. -/
theorem sout0_E_0_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) :
    sout0_E_0 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3 = k0_pay1 xs0 (k0_pay13 (k0_pay7 x0 x1) (k0_pay8 i)) := by
  unfold sout0_E_0
  rw [View.read_writes_eq_canon _ _ _ (scover0_E_0 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3)]
  unfold kernelRun0_E
  dsimp only
  sl_unfold_words
  first
    | rw [View.canon_unit_zero (S := S512x1) off00_eq_zero]
    | rw [View.canon_cons_unit_zero (S := S512x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

/-- The pieces case E leaves in scratch operand 1 cover it. -/
theorem scover0_E_1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) (y : S1x1.Idx) :
    ∃ pc ∈ (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.2.2.1, y ∈ pc.1.set :=
  View.cover_of_tiledL (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.2.2.1 S1x1.size (by sl_kernel_rfl) y

/-- What case E leaves in scratch operand 1: its pieces read back. -/
noncomputable def sout0_E_1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) : Vec F S1x1 .f32 :=
  VS0_1.read (Elt F) (VS0_1.writes (Elt F) VS0_1.junk (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.2.2.1)

/-- It is the payload of the case's last store into it, over the blocks and the entry contents. -/
theorem sout0_E_1_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) :
    sout0_E_1 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3 = k0_pay11 (k0_pay7 x0 x1) (k0_pay8 i) x2 x3 xs1 := by
  unfold sout0_E_1
  rw [View.read_writes_eq_canon _ _ _ (scover0_E_1 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3)]
  unfold kernelRun0_E
  dsimp only
  sl_unfold_words
  first
    | rw [View.canon_unit_zero (S := S1x1) off00_eq_zero]
    | rw [View.canon_cons_unit_zero (S := S1x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

/-- The pieces case E leaves in scratch operand 2 cover it. -/
theorem scover0_E_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) (y : S1x1.Idx) :
    ∃ pc ∈ (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.2.2.2.1, y ∈ pc.1.set :=
  View.cover_of_tiledL (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.2.2.2.1 S1x1.size (by sl_kernel_rfl) y

/-- What case E leaves in scratch operand 2: its pieces read back. -/
noncomputable def sout0_E_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) : Vec F S1x1 .f32 :=
  VS0_2.read (Elt F) (VS0_2.writes (Elt F) VS0_2.junk (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.2.2.2.1)

/-- It is the payload of the case's last store into it, over the blocks and the entry contents. -/
theorem sout0_E_2_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) :
    sout0_E_2 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3 = k0_pay2 xs2 (k0_pay1 xs0 (k0_pay13 (k0_pay7 x0 x1) (k0_pay8 i))) := by
  unfold sout0_E_2
  rw [View.read_writes_eq_canon _ _ _ (scover0_E_2 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3)]
  unfold kernelRun0_E
  dsimp only
  sl_unfold_words
  first
    | rw [View.canon_unit_zero (S := S1x1) off00_eq_zero]
    | rw [View.canon_cons_unit_zero (S := S1x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

/-- The pieces case E leaves in scratch operand 3 cover it. -/
theorem scover0_E_3 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) (y : S1x1.Idx) :
    ∃ pc ∈ (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.2.2.2.2.val, y ∈ pc.1.set :=
  View.cover_of_tiledL (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.2.2.2.2.val S1x1.size (by sl_kernel_rfl) y

/-- What case E leaves in scratch operand 3: its pieces read back. -/
noncomputable def sout0_E_3 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) : Vec F S1x1 .f32 :=
  VS0_3.read (Elt F) (VS0_3.writes (Elt F) VS0_3.junk (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.2.2.2.2.val)

/-- It is the payload of the case's last store into it, over the blocks and the entry contents. -/
theorem sout0_E_3_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) :
    sout0_E_3 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3 = k0_pay12 (k0_pay8 i) x2 x3 xs3 := by
  unfold sout0_E_3
  rw [View.read_writes_eq_canon _ _ _ (scover0_E_3 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3)]
  unfold kernelRun0_E
  dsimp only
  sl_unfold_words
  first
    | rw [View.canon_unit_zero (S := S1x1) off00_eq_zero]
    | rw [View.canon_cons_unit_zero (S := S1x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

end Cert.Kernel.Hand

end
-- ==== Proof.K.Data.lean ====
import proofs.«121591_j16836271800363_1_alg».proof.Proof.K.Blocks
import proofs.«121591_j16836271800363_1_alg».proof.Proof.K.Pieces

set_option maxRecDepth 16384
set_option pp.maxSteps 5000
set_option pp.deepTerms false

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The five control cases, from a point's position -/

theorem ca1 (t : Fin cfg0.N) (h : t.val = 0) : cond0_1 (grid0.coords t) := (hcond0_1 t).mpr h
theorem ca2 (t : Fin cfg0.N) (h : t.val = 0) : cond0_2 (grid0.coords t) := (hcond0_2 t).mpr (by omega)
theorem ca3 (t : Fin cfg0.N) (h : t.val = 0) : ¬cond0_3 (grid0.coords t) := fun hh => by have := (hcond0_3 t).mp hh; omega
theorem ca4 (t : Fin cfg0.N) (h : t.val = 0) : ¬cond0_4 (grid0.coords t) := fun hh => by have := (hcond0_4 t).mp hh; omega
theorem cb1 (t : Fin cfg0.N) (h : ¬t.val = 0) : ¬cond0_1 (grid0.coords t) := fun hh => h ((hcond0_1 t).mp hh)
theorem cb2 (t : Fin cfg0.N) (h : t.val % 8 = 0) : cond0_2 (grid0.coords t) := (hcond0_2 t).mpr h
theorem cb3 (t : Fin cfg0.N) (h : t.val % 8 = 0) : ¬cond0_3 (grid0.coords t) := fun hh => by have := (hcond0_3 t).mp hh; omega
theorem cb4 (t : Fin cfg0.N) (h : t.val % 8 = 0) : ¬cond0_4 (grid0.coords t) := fun hh => by have := (hcond0_4 t).mp hh; omega
theorem cc1 (t : Fin cfg0.N) (h : ¬t.val = 0) : ¬cond0_1 (grid0.coords t) := cb1 t h
theorem cc2 (t : Fin cfg0.N) (h : ¬t.val % 8 = 0) : ¬cond0_2 (grid0.coords t) := fun hh => h ((hcond0_2 t).mp hh)
theorem cc3 (t : Fin cfg0.N) (h : ¬t.val % 8 = 7) : ¬cond0_3 (grid0.coords t) := fun hh => h ((hcond0_3 t).mp hh)
theorem cc4 (t : Fin cfg0.N) (h : ¬t.val % 8 = 7) : ¬cond0_4 (grid0.coords t) := fun hh => by have := (hcond0_4 t).mp hh; omega
theorem cd1 (t : Fin cfg0.N) (h : t.val % 8 = 7) : ¬cond0_1 (grid0.coords t) := fun hh => by have := (hcond0_1 t).mp hh; omega
theorem cd2 (t : Fin cfg0.N) (h : t.val % 8 = 7) : ¬cond0_2 (grid0.coords t) := fun hh => by have := (hcond0_2 t).mp hh; omega
theorem cd3 (t : Fin cfg0.N) (h : t.val % 8 = 7) : cond0_3 (grid0.coords t) := (hcond0_3 t).mpr h
theorem cd4 (t : Fin cfg0.N) (h : ¬t.val = 63) : ¬cond0_4 (grid0.coords t) := fun hh => h ((hcond0_4 t).mp hh)
theorem ce1 (t : Fin cfg0.N) (h : t.val = 63) : ¬cond0_1 (grid0.coords t) := fun hh => by have := (hcond0_1 t).mp hh; omega
theorem ce2 (t : Fin cfg0.N) (h : t.val = 63) : ¬cond0_2 (grid0.coords t) := fun hh => by have := (hcond0_2 t).mp hh; omega
theorem ce3 (t : Fin cfg0.N) (h : t.val = 63) : cond0_3 (grid0.coords t) := (hcond0_3 t).mpr (by omega)
theorem ce4 (t : Fin cfg0.N) (h : t.val = 63) : cond0_4 (grid0.coords t) := (hcond0_4 t).mpr h

/-! ## What the outputs' staging buffers and the four scratch buffers hold after each point -/

/-- The three outputs' staging buffers and the four scratch buffers (the row accumulator and the three scalar
    accumulators), as contents. -/
structure St (F : FTy → Type) [FloatOps F] where
  o4 : Vec F S1x1 .f32
  o5 : Vec F S1x1 .f32
  o6 : Vec F S1x1 .f32
  s0 : Vec F S512x1 .f32
  s1 : Vec F S1x1 .f32
  s2 : Vec F S1x1 .f32
  s3 : Vec F S1x1 .f32

/-- One point: the control case the point's position selects, run at the point's memrefs and input blocks on what
    the point before left. A case that does not store a buffer leaves what it found. -/
def stepSt (c : Dev nD) (t : Fin cfg0.N) (p : St F) : St F :=
  if h0 : t.val = 0 then
    { o4 := p.o4, o5 := p.o5, o6 := p.o6,
      s0 := sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ca1 t h0) (ca2 t h0) (ca3 t h0) (ca4 t h0) (iblk m c 0 t) (iblk m c 1 t) (iblk m c 2 t) (iblk m c 3 t),
      s1 := sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ca1 t h0) (ca2 t h0) (ca3 t h0) (ca4 t h0) (iblk m c 0 t) (iblk m c 1 t) (iblk m c 2 t) (iblk m c 3 t),
      s2 := sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ca1 t h0) (ca2 t h0) (ca3 t h0) (ca4 t h0) (iblk m c 0 t) (iblk m c 1 t) (iblk m c 2 t) (iblk m c 3 t),
      s3 := sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ca1 t h0) (ca2 t h0) (ca3 t h0) (ca4 t h0) (iblk m c 0 t) (iblk m c 1 t) (iblk m c 2 t) (iblk m c 3 t) }
  else if h8 : t.val % 8 = 0 then
    { o4 := p.o4, o5 := p.o5, o6 := p.o6,
      s0 := sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cb1 t h0) (cb2 t h8) (cb3 t h8) (cb4 t h8) (iblk m c 0 t) (iblk m c 1 t) (iblk m c 2 t) (iblk m c 3 t) p.s1 p.s2 p.s3,
      s1 := sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cb1 t h0) (cb2 t h8) (cb3 t h8) (cb4 t h8) (iblk m c 0 t) (iblk m c 1 t) (iblk m c 2 t) (iblk m c 3 t) p.s1 p.s2 p.s3,
      s2 := p.s2,
      s3 := sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cb1 t h0) (cb2 t h8) (cb3 t h8) (cb4 t h8) (iblk m c 0 t) (iblk m c 1 t) (iblk m c 2 t) (iblk m c 3 t) p.s1 p.s2 p.s3 }
  else if h7 : t.val % 8 = 7 then
    if h63 : t.val = 63 then
      { o4 := out0_E_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ce1 t h63) (ce2 t h63) (ce3 t h63) (ce4 t h63) (iblk m c 0 t) (iblk m c 1 t) (iblk m c 2 t) (iblk m c 3 t) p.s0 p.s1 p.s2 p.s3,
        o5 := out0_E_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ce1 t h63) (ce2 t h63) (ce3 t h63) (ce4 t h63) (iblk m c 0 t) (iblk m c 1 t) (iblk m c 2 t) (iblk m c 3 t) p.s0 p.s1 p.s2 p.s3,
        o6 := out0_E_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ce1 t h63) (ce2 t h63) (ce3 t h63) (ce4 t h63) (iblk m c 0 t) (iblk m c 1 t) (iblk m c 2 t) (iblk m c 3 t) p.s0 p.s1 p.s2 p.s3,
        s0 := sout0_E_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ce1 t h63) (ce2 t h63) (ce3 t h63) (ce4 t h63) (iblk m c 0 t) (iblk m c 1 t) (iblk m c 2 t) (iblk m c 3 t) p.s0 p.s1 p.s2 p.s3,
        s1 := sout0_E_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ce1 t h63) (ce2 t h63) (ce3 t h63) (ce4 t h63) (iblk m c 0 t) (iblk m c 1 t) (iblk m c 2 t) (iblk m c 3 t) p.s0 p.s1 p.s2 p.s3,
        s2 := sout0_E_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ce1 t h63) (ce2 t h63) (ce3 t h63) (ce4 t h63) (iblk m c 0 t) (iblk m c 1 t) (iblk m c 2 t) (iblk m c 3 t) p.s0 p.s1 p.s2 p.s3,
        s3 := sout0_E_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ce1 t h63) (ce2 t h63) (ce3 t h63) (ce4 t h63) (iblk m c 0 t) (iblk m c 1 t) (iblk m c 2 t) (iblk m c 3 t) p.s0 p.s1 p.s2 p.s3 }
    else
      { o4 := p.o4, o5 := p.o5, o6 := p.o6,
        s0 := sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cd1 t h7) (cd2 t h7) (cd3 t h7) (cd4 t h63) (iblk m c 0 t) (iblk m c 1 t) (iblk m c 2 t) (iblk m c 3 t) p.s0 p.s1 p.s2 p.s3,
        s1 := sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cd1 t h7) (cd2 t h7) (cd3 t h7) (cd4 t h63) (iblk m c 0 t) (iblk m c 1 t) (iblk m c 2 t) (iblk m c 3 t) p.s0 p.s1 p.s2 p.s3,
        s2 := sout0_D_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cd1 t h7) (cd2 t h7) (cd3 t h7) (cd4 t h63) (iblk m c 0 t) (iblk m c 1 t) (iblk m c 2 t) (iblk m c 3 t) p.s0 p.s1 p.s2 p.s3,
        s3 := sout0_D_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cd1 t h7) (cd2 t h7) (cd3 t h7) (cd4 t h63) (iblk m c 0 t) (iblk m c 1 t) (iblk m c 2 t) (iblk m c 3 t) p.s0 p.s1 p.s2 p.s3 }
  else
    { o4 := p.o4, o5 := p.o5, o6 := p.o6,
      s0 := sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cc1 t h0) (cc2 t h8) (cc3 t h7) (cc4 t h7) (iblk m c 0 t) (iblk m c 1 t) (iblk m c 2 t) (iblk m c 3 t) p.s0 p.s1 p.s2 p.s3,
      s1 := sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cc1 t h0) (cc2 t h8) (cc3 t h7) (cc4 t h7) (iblk m c 0 t) (iblk m c 1 t) (iblk m c 2 t) (iblk m c 3 t) p.s0 p.s1 p.s2 p.s3,
      s2 := p.s2,
      s3 := sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cc1 t h0) (cc2 t h8) (cc3 t h7) (cc4 t h7) (iblk m c 0 t) (iblk m c 1 t) (iblk m c 2 t) (iblk m c 3 t) p.s0 p.s1 p.s2 p.s3 }

/-- Contents nothing reads: what the first point is handed (it resets every accumulator). -/
def junkSt : St F where
  o4 := VO0_4.read (Elt F) VO0_4.junk
  o5 := VO0_5.read (Elt F) VO0_5.junk
  o6 := VO0_6.read (Elt F) VO0_6.junk
  s0 := VS0_0.read (Elt F) VS0_0.junk
  s1 := VS0_1.read (Elt F) VS0_1.junk
  s2 := VS0_2.read (Elt F) VS0_2.junk
  s3 := VS0_3.read (Elt F) VS0_3.junk

/-- THE ACCUMULATION: the buffers after the body at position `n`, by recursion on the point. -/
def outsAt (c : Dev nD) : (n : ℕ) → n < cfg0.N → St F
  | 0, hn => stepSt m c ⟨0, hn⟩ junkSt
  | n + 1, hn => stepSt m c ⟨n + 1, hn⟩ (outsAt c n (Nat.lt_of_succ_lt hn))

theorem outsAt_pos (c : Dev nD) (t : Fin cfg0.N) (ht : t.val ≠ 0) :
    outsAt m c t.val t.isLt = stepSt m c t (outsAt m c (t.val - 1) (Nat.lt_of_le_of_lt (Nat.sub_le _ _) t.isLt)) := by
  obtain ⟨n, hn⟩ := t
  cases n with
  | zero => exact absurd rfl ht
  | succ n => rfl

theorem outsAt_zero (c : Dev nD) (t : Fin cfg0.N) (ht : t.val = 0) :
    outsAt m c t.val t.isLt = stepSt m c t junkSt := by
  obtain ⟨n, hn⟩ := t
  cases n with
  | zero => rfl
  | succ n => exact absurd ht (Nat.succ_ne_zero n)

/-! ## The region invariant and the proof data -/

/-- The region invariant before position `n`: before the first point every scratch buffer at anything; afterwards each
    of the four at what the point before left in it. The generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt m c n hn).s0) ∗ owns (c : Thread nD τ) scM0_1 fullShare ((outsAt m c n hn).s1) ∗ owns (c : Thread nD τ) scM0_2 fullShare ((outsAt m c n hn).s2) ∗ owns (c : Thread nD τ) scM0_3 fullShare ((outsAt m c n hn).s3)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt m c n hn).s0) ∗ owns (c : Thread nD τ) scM0_1 fullShare ((outsAt m c n hn).s1) ∗ owns (c : Thread nD τ) scM0_2 fullShare ((outsAt m c n hn).s2) ∗ owns (c : Thread nD τ) scM0_3 fullShare ((outsAt m c n hn).s3)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt m c (n - 1) (by omega)).s0) ∗ owns (c : Thread nD τ) scM0_1 fullShare ((outsAt m c (n - 1) (by omega)).s1) ∗ owns (c : Thread nD τ) scM0_2 fullShare ((outsAt m c (n - 1) (by omega)).s2) ∗ owns (c : Thread nD τ) scM0_3 fullShare ((outsAt m c (n - 1) (by omega)).s3)) ∗ (∃ r, prngReg c r)) := by
  cases n with
  | zero => exact absurd rfl hz
  | succ n => rfl

/-- The proof data of the pipeline on core `c`: the arrays as the region finds them; after the body at point `t` each
    input's buffer at its block and the three outputs' at the accumulation's components; the invariant `PhiS`; the two
    windows on `main_arg0` at the two halves of its share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).o4
    | ⟨5, _⟩ => (outsAt m c t.val t.isLt).o5
    | ⟨6, _⟩ => (outsAt m c t.val t.isLt).o6
    | ⟨_ + 7, h⟩ => absurd h (Nat.not_lt.2 (Nat.le_add_left _ _))
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨_ + 7, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt m c t.val t.isLt).o4 := by dsimp only [dats]
theorem after0_5 (c : Dev nD) (t : Fin cfg0.N) : (dats m 0 c).after 5 t = (outsAt m c t.val t.isLt).o5 := by dsimp only [dats]
theorem after0_6 (c : Dev nD) (t : Fin cfg0.N) : (dats m 0 c).after 6 t = (outsAt m c t.val t.isLt).o6 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem q0 (c : Dev nD) : (dats m 0 c).q 0 = fullShare.left := by dsimp only [dats]
theorem q1 (c : Dev nD) : (dats m 0 c).q 1 = fullShare.right := by dsimp only [dats]
theorem q2 (c : Dev nD) : (dats m 0 c).q 2 = fullShare := by dsimp only [dats]
theorem q3 (c : Dev nD) : (dats m 0 c).q 3 = fullShare := by dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

set_option maxHeartbeats 4800000 in
/-- The body at any point: the inputs' memrefs hold their blocks; the point's position says which control case it is in;
    that case's run applies, handed the four scratch buffers at what the point before left (at anything at the first
    point) and taking them back at this point's contents; an output the case does not store is handed back untouched;
    the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  have hN : t.val < 64 := lt_of_lt_of_eq t.isLt (show cfg0.N = 64 from N_0)
  by_cases h0 : t.val = 0
  · -- the first point: every accumulator is reset
    rw [Dat.leavesExact_idle (dats m 0 c) 4 t (idleAt0_4 t (ca4 t h0)) (noFlush0_4 t (ca4 t h0)),
      Dat.leavesExact_idle (dats m 0 c) 5 t (idleAt0_5 t (ca4 t h0)) (noFlush0_5 t (ca4 t h0)),
      Dat.leavesExact_idle (dats m 0 c) 6 t (idleAt0_6 t (ca4 t h0)) (noFlush0_6 t (ca4 t h0))]
    rw [outsAt_zero m c t h0]
    simp only [stepSt, dif_pos h0]
    unfold sout0_A_0 sout0_A_1 sout0_A_2 sout0_A_3
    rw [PhiS_castSucc m c t, PhiS_zero m c _ _ h0, PhiA0_eq]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ca1 t h0) (ca2 t h0) (ca3 t h0) (ca4 t h0) (iblk m c 0 t) (iblk m c 1 t) (iblk m c 2 t) (iblk m c 3 t)).2.2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, ⟨%es0, HS0⟩, ⟨%es1, HS1⟩, ⟨%es2, HS2⟩, ⟨%es3, HS3⟩⟩
    isplitl [HS0 HS1 HS2 HS3 Hg]
    · isplitr [Hg]
      · isplitl [HS0]
        · unfold owns; iexists _; isplitr
          swap; · iexact HS0
          ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ca1 t h0) (ca2 t h0) (ca3 t h0) (ca4 t h0) (iblk m c 0 t) (iblk m c 1 t) (iblk m c 2 t) (iblk m c 3 t))
        isplitl [HS1]
        · unfold owns; iexists _; isplitr
          swap; · iexact HS1
          ipureintro; exact View.read_writes_of_cover _ _ _ _ _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ca1 t h0) (ca2 t h0) (ca3 t h0) (ca4 t h0) (iblk m c 0 t) (iblk m c 1 t) (iblk m c 2 t) (iblk m c 3 t))
        isplitl [HS2]
        · unfold owns; iexists _; isplitr
          swap; · iexact HS2
          ipureintro; exact View.read_writes_of_cover _ _ _ _ _ (scover0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ca1 t h0) (ca2 t h0) (ca3 t h0) (ca4 t h0) (iblk m c 0 t) (iblk m c 1 t) (iblk m c 2 t) (iblk m c 3 t))
        unfold owns; iexists _; isplitr
        swap; · iexact HS3
        ipureintro; exact View.read_writes_of_cover _ _ _ _ _ (scover0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ca1 t h0) (ca2 t h0) (ca3 t h0) (ca4 t h0) (iblk m c 0 t) (iblk m c 1 t) (iblk m c 2 t) (iblk m c 3 t))
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    iexists _; iexact H6
  by_cases h8 : t.val % 8 = 0
  · -- the first point of a later row of blocks: the row accumulator is reset
    rw [Dat.leavesExact_idle (dats m 0 c) 4 t (idleAt0_4 t (cb4 t h8)) (noFlush0_4 t (cb4 t h8)),
      Dat.leavesExact_idle (dats m 0 c) 5 t (idleAt0_5 t (cb4 t h8)) (noFlush0_5 t (cb4 t h8)),
      Dat.leavesExact_idle (dats m 0 c) 6 t (idleAt0_6 t (cb4 t h8)) (noFlush0_6 t (cb4 t h8))]
    rw [outsAt_pos m c t h0]
    simp only [stepSt, dif_neg h0, dif_pos h8]
    unfold sout0_B_0 sout0_B_1 sout0_B_3
    rw [PhiS_castSucc m c t, PhiS_pos m c _ _ h0]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cb1 t h0) (cb2 t h8) (cb3 t h8) (cb4 t h8) (iblk m c 0 t) (iblk m c 1 t) (iblk m c 2 t) (iblk m c 3 t) _ _ _).2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexists _; iexact HS0
    isplitl [HS1]; · iexact HS1
    isplitl [HS2]; · iexact HS2
    isplitl [HS3]; · iexact HS3
    iintro ⟨H0, H1, H2, H3, H4, H5, H6, ⟨%es0, HS0⟩, ⟨%es1, HS1⟩, HS2, ⟨%es3, HS3⟩⟩
    isplitl [HS0 HS1 HS2 HS3 Hg]
    · isplitr [Hg]
      · isplitl [HS0]
        · unfold owns; iexists _; isplitr
          swap; · iexact HS0
          ipureintro; exact View.read_writes_of_cover _ _ _ _ _ (scover0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cb1 t h0) (cb2 t h8) (cb3 t h8) (cb4 t h8) (iblk m c 0 t) (iblk m c 1 t) (iblk m c 2 t) (iblk m c 3 t) _ _ _)
        isplitl [HS1]
        · unfold owns; iexists _; isplitr
          swap; · iexact HS1
          ipureintro; exact View.read_writes_of_cover _ _ _ _ _ (scover0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cb1 t h0) (cb2 t h8) (cb3 t h8) (cb4 t h8) (iblk m c 0 t) (iblk m c 1 t) (iblk m c 2 t) (iblk m c 3 t) _ _ _)
        isplitl [HS2]
        · iexact HS2
        unfold owns; iexists _; isplitr
        swap; · iexact HS3
        ipureintro; exact View.read_writes_of_cover _ _ _ _ _ (scover0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cb1 t h0) (cb2 t h8) (cb3 t h8) (cb4 t h8) (iblk m c 0 t) (iblk m c 1 t) (iblk m c 2 t) (iblk m c 3 t) _ _ _)
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    iexists _; iexact H6
  by_cases h7 : t.val % 8 = 7
  · by_cases h63 : t.val = 63
    · -- the last point: the row's logarithms are added and the three results are stored
      rw [show (dats m 0 c).leavesExact 4 t = owns (c : Thread nD τ) (ms0_4 t) fullShare ((dats m 0 c).after 4 t) from by
        unfold Dat.leavesExact; rw [liveAt0_4_E t (ce4 t h63)], after0_4]
      rw [show (dats m 0 c).leavesExact 5 t = owns (c : Thread nD τ) (ms0_5 t) fullShare ((dats m 0 c).after 5 t) from by
        unfold Dat.leavesExact; rw [liveAt0_5_E t (ce4 t h63)], after0_5]
      rw [show (dats m 0 c).leavesExact 6 t = owns (c : Thread nD τ) (ms0_6 t) fullShare ((dats m 0 c).after 6 t) from by
        unfold Dat.leavesExact; rw [liveAt0_6_E t (ce4 t h63)], after0_6]
      rw [outsAt_pos m c t h0]
      simp only [stepSt, dif_neg h0, dif_neg h8, dif_pos h7, dif_pos h63]
      unfold sout0_E_0 sout0_E_1 sout0_E_2 sout0_E_3 out0_E_4 out0_E_5 out0_E_6
      rw [PhiS_castSucc m c t, PhiS_pos m c _ _ h0]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_E c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ce1 t h63) (ce2 t h63) (ce3 t h63) (ce4 t h63) (iblk m c 0 t) (iblk m c 1 t) (iblk m c 2 t) (iblk m c 3 t) _ _ _ _).2.2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      isplitl [HS3]; · iexact HS3
      iintro ⟨H0, H1, H2, H3, ⟨%e4, H4⟩, ⟨%e5, H5⟩, ⟨%e6, H6⟩, ⟨%es0, HS0⟩, ⟨%es1, HS1⟩, ⟨%es2, HS2⟩, ⟨%es3, HS3⟩⟩
      isplitl [HS0 HS1 HS2 HS3 Hg]
      · isplitr [Hg]
        · isplitl [HS0]
          · unfold owns; iexists _; isplitr
            swap; · iexact HS0
            ipureintro; exact View.read_writes_of_cover _ _ _ _ _ (scover0_E_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ce1 t h63) (ce2 t h63) (ce3 t h63) (ce4 t h63) (iblk m c 0 t) (iblk m c 1 t) (iblk m c 2 t) (iblk m c 3 t) _ _ _ _)
          isplitl [HS1]
          · unfold owns; iexists _; isplitr
            swap; · iexact HS1
            ipureintro; exact View.read_writes_of_cover _ _ _ _ _ (scover0_E_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ce1 t h63) (ce2 t h63) (ce3 t h63) (ce4 t h63) (iblk m c 0 t) (iblk m c 1 t) (iblk m c 2 t) (iblk m c 3 t) _ _ _ _)
          isplitl [HS2]
          · unfold owns; iexists _; isplitr
            swap; · iexact HS2
            ipureintro; exact View.read_writes_of_cover _ _ _ _ _ (scover0_E_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ce1 t h63) (ce2 t h63) (ce3 t h63) (ce4 t h63) (iblk m c 0 t) (iblk m c 1 t) (iblk m c 2 t) (iblk m c 3 t) _ _ _ _)
          unfold owns; iexists _; isplitr
          swap; · iexact HS3
          ipureintro; exact View.read_writes_of_cover _ _ _ _ _ (scover0_E_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ce1 t h63) (ce2 t h63) (ce3 t h63) (ce4 t h63) (iblk m c 0 t) (iblk m c 1 t) (iblk m c 2 t) (iblk m c 3 t) _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_E_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ce1 t h63) (ce2 t h63) (ce3 t h63) (ce4 t h63) (iblk m c 0 t) (iblk m c 1 t) (iblk m c 2 t) (iblk m c 3 t) _ _ _ _)
      isplitl [H5]
      · unfold owns; iexists _; isplitr
        swap; · iexact H5
        ipureintro; exact View.read_writes_of_cover _ _ _ _ _ (cover0_E_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ce1 t h63) (ce2 t h63) (ce3 t h63) (ce4 t h63) (iblk m c 0 t) (iblk m c 1 t) (iblk m c 2 t) (iblk m c 3 t) _ _ _ _)
      unfold owns; iexists _; isplitr
      swap; · iexact H6
      ipureintro; exact View.read_writes_of_cover _ _ _ _ _ (cover0_E_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ce1 t h63) (ce2 t h63) (ce3 t h63) (ce4 t h63) (iblk m c 0 t) (iblk m c 1 t) (iblk m c 2 t) (iblk m c 3 t) _ _ _ _)
    · -- the last point of a row of blocks: the row's logarithms are added
      rw [Dat.leavesExact_idle (dats m 0 c) 4 t (idleAt0_4 t (cd4 t h63)) (noFlush0_4 t (cd4 t h63)),
        Dat.leavesExact_idle (dats m 0 c) 5 t (idleAt0_5 t (cd4 t h63)) (noFlush0_5 t (cd4 t h63)),
        Dat.leavesExact_idle (dats m 0 c) 6 t (idleAt0_6 t (cd4 t h63)) (noFlush0_6 t (cd4 t h63))]
      rw [outsAt_pos m c t h0]
      simp only [stepSt, dif_neg h0, dif_neg h8, dif_pos h7, dif_neg h63]
      unfold sout0_D_0 sout0_D_1 sout0_D_2 sout0_D_3
      rw [PhiS_castSucc m c t, PhiS_pos m c _ _ h0]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cd1 t h7) (cd2 t h7) (cd3 t h7) (cd4 t h63) (iblk m c 0 t) (iblk m c 1 t) (iblk m c 2 t) (iblk m c 3 t) _ _ _ _).2.2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, ⟨%es0, HS0⟩, ⟨%es1, HS1⟩, ⟨%es2, HS2⟩, ⟨%es3, HS3⟩⟩
      isplitl [HS0 HS1 HS2 HS3 Hg]
      · isplitr [Hg]
        · isplitl [HS0]
          · unfold owns; iexists _; isplitr
            swap; · iexact HS0
            ipureintro; exact View.read_writes_of_cover _ _ _ _ _ (scover0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cd1 t h7) (cd2 t h7) (cd3 t h7) (cd4 t h63) (iblk m c 0 t) (iblk m c 1 t) (iblk m c 2 t) (iblk m c 3 t) _ _ _ _)
          isplitl [HS1]
          · unfold owns; iexists _; isplitr
            swap; · iexact HS1
            ipureintro; exact View.read_writes_of_cover _ _ _ _ _ (scover0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cd1 t h7) (cd2 t h7) (cd3 t h7) (cd4 t h63) (iblk m c 0 t) (iblk m c 1 t) (iblk m c 2 t) (iblk m c 3 t) _ _ _ _)
          isplitl [HS2]
          · unfold owns; iexists _; isplitr
            swap; · iexact HS2
            ipureintro; exact View.read_writes_of_cover _ _ _ _ _ (scover0_D_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cd1 t h7) (cd2 t h7) (cd3 t h7) (cd4 t h63) (iblk m c 0 t) (iblk m c 1 t) (iblk m c 2 t) (iblk m c 3 t) _ _ _ _)
          unfold owns; iexists _; isplitr
          swap; · iexact HS3
          ipureintro; exact View.read_writes_of_cover _ _ _ _ _ (scover0_D_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cd1 t h7) (cd2 t h7) (cd3 t h7) (cd4 t h63) (iblk m c 0 t) (iblk m c 1 t) (iblk m c 2 t) (iblk m c 3 t) _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6
  · -- a point inside a row of blocks
    rw [Dat.leavesExact_idle (dats m 0 c) 4 t (idleAt0_4 t (cc4 t h7)) (noFlush0_4 t (cc4 t h7)),
      Dat.leavesExact_idle (dats m 0 c) 5 t (idleAt0_5 t (cc4 t h7)) (noFlush0_5 t (cc4 t h7)),
      Dat.leavesExact_idle (dats m 0 c) 6 t (idleAt0_6 t (cc4 t h7)) (noFlush0_6 t (cc4 t h7))]
    rw [outsAt_pos m c t h0]
    simp only [stepSt, dif_neg h0, dif_neg h8, dif_neg h7]
    unfold sout0_C_0 sout0_C_1 sout0_C_3
    rw [PhiS_castSucc m c t, PhiS_pos m c _ _ h0]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cc1 t h0) (cc2 t h8) (cc3 t h7) (cc4 t h7) (iblk m c 0 t) (iblk m c 1 t) (iblk m c 2 t) (iblk m c 3 t) _ _ _ _).2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, ⟨%es0, HS0⟩, ⟨%es1, HS1⟩, HS2, ⟨%es3, HS3⟩⟩
    isplitl [HS0 HS1 HS2 HS3 Hg]
    · isplitr [Hg]
      · isplitl [HS0]
        · unfold owns; iexists _; isplitr
          swap; · iexact HS0
          ipureintro; exact View.read_writes_of_cover _ _ _ _ _ (scover0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cc1 t h0) (cc2 t h8) (cc3 t h7) (cc4 t h7) (iblk m c 0 t) (iblk m c 1 t) (iblk m c 2 t) (iblk m c 3 t) _ _ _ _)
        isplitl [HS1]
        · unfold owns; iexists _; isplitr
          swap; · iexact HS1
          ipureintro; exact View.read_writes_of_cover _ _ _ _ _ (scover0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cc1 t h0) (cc2 t h8) (cc3 t h7) (cc4 t h7) (iblk m c 0 t) (iblk m c 1 t) (iblk m c 2 t) (iblk m c 3 t) _ _ _ _)
        isplitl [HS2]
        · iexact HS2
        unfold owns; iexists _; isplitr
        swap; · iexact HS3
        ipureintro; exact View.read_writes_of_cover _ _ _ _ _ (scover0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cc1 t h0) (cc2 t h8) (cc3 t h7) (cc4 t h7) (iblk m c 0 t) (iblk m c 1 t) (iblk m c 2 t) (iblk m c 3 t) _ _ _ _)
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the scratch buffers back at anything. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitr [Hg]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

/-- Every weakly fair execution of @main terminates, each array of the pipeline ending at what the proof data compute and
    every other unscoped buffer as the lines after the region leave it. -/
theorem run_main : θ_run defs (onTc (τ := τ) (main (F := F))) (s₀ m ρ)
    (Pipeline.FramePost cfgs (dats m) 0 (Pipeline.afterTail₀ cfgs (dats m) 0 (V0 m) [hostOps1])) :=
  run_main_of m ρ (dats m) (fun c => (body_obligation m c).loose) (q0 m) (q1 m) (q2 m) (q3 m) (fun _ _ => rfl) (A_eq m) (hin m) (hout m)

/-- THE FRAME, at any `F`: the program runs to the end, faults nowhere, and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KI.Shared.lean ====
import proofs.«121591_j16836271800363_1_alg».proof.Proof.Gen.KernelIdeal.Launch
import proofs.«121591_j16836271800363_1_alg».proof.Proof.Gen.KernelIdeal.Points
import Idealize.ShloMosaic.Lib.Pipeline.Frame
import Idealize.ShloMosaic.Lib.Pipeline.FrameSuffix

set_option pp.maxSteps 5000
set_option pp.deepTerms false

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The distinct buffers behind the seven windows' arrays: windows 0 and 1 both read `main_arg0`. -/
theorem arr_image : (Finset.univ.image (Pipeline.arrRef spec0) : Finset (Ref sig .tc))
    = [main_arg0, main_v0, main_v1, main_v2_0, main_v2_1, main_v2_2].toFinset := by decide

/-- The pipeline's arrays, window by window, when windows 0 and 1 hold the two halves of `main_arg0`'s share and
    every other window holds its own array whole. -/
theorem arrays_eq7 (c : Dev nD) (dat : Dat τ (Elt F) Unit ℕ (UR sig nD τ) ℕ cfg0 c)
    (hq0 : dat.q 0 = fullShare.left) (hq1 : dat.q 1 = fullShare.right)
    (hq2 : dat.q 2 = fullShare) (hq3 : dat.q 3 = fullShare)
    (G : (w : Fin cfg0.W) → Buf (Elt F) ((cfg0.win w).arr.view.loc (c.tc : Thread nD τ))) :
    (dat.arrays G : sProp 𝕄)
      = iprop((((c.tc : Thread nD τ).loc main_arg0) ↦{fullShare.left} G 0) ∗ (((c.tc : Thread nD τ).loc main_arg0) ↦{fullShare.right} G 1)
          ∗ (((c.tc : Thread nD τ).loc main_v0) ↦{fullShare} G 2) ∗ (((c.tc : Thread nD τ).loc main_v1) ↦{fullShare} G 3)
          ∗ (((c.tc : Thread nD τ).loc main_v2_0) ↦{fullShare} G 4) ∗ (((c.tc : Thread nD τ).loc main_v2_1) ↦{fullShare} G 5)
          ∗ (((c.tc : Thread nD τ).loc main_v2_2) ↦{fullShare} G 6)) := by
  have s0 : dat.share 0 = fullShare.left := (if_neg (by decide)).trans hq0
  have s1 : dat.share 1 = fullShare.right := (if_neg (by decide)).trans hq1
  have s2 : dat.share 2 = fullShare := (if_neg (by decide)).trans hq2
  have s3 : dat.share 3 = fullShare := (if_neg (by decide)).trans hq3
  have s4 : dat.share 4 = fullShare := if_pos (by decide)
  have s5 : dat.share 5 = fullShare := if_pos (by decide)
  have s6 : dat.share 6 = fullShare := if_pos (by decide)
  unfold Dat.arrays
  rw [bigSep_W0]
  rw [(arr_whole0 0).set_eq_univ, (arr_whole0 2).set_eq_univ, (arr_whole0 3).set_eq_univ,
    (arr_whole0 4).set_eq_univ, (arr_whole0 5).set_eq_univ, (arr_whole0 6).set_eq_univ, s0, s1, s2, s3, s4, s5, s6]

/-- The buffers behind the arrays, each whole, one by one. -/
theorem arrBufs_eq6 (c : Dev nD) (V : (b : Ref sig .tc) → Buf (Elt F) ((c.tc : Thread nD τ).loc b)) :
    (Pipeline.arrBufs spec0 c V : sProp 𝕄)
      = iprop((((c.tc : Thread nD τ).loc main_arg0) ↦{fullShare} V main_arg0) ∗ (((c.tc : Thread nD τ).loc main_v0) ↦{fullShare} V main_v0)
          ∗ (((c.tc : Thread nD τ).loc main_v1) ↦{fullShare} V main_v1) ∗ (((c.tc : Thread nD τ).loc main_v2_0) ↦{fullShare} V main_v2_0)
          ∗ (((c.tc : Thread nD τ).loc main_v2_1) ↦{fullShare} V main_v2_1) ∗ (((c.tc : Thread nD τ).loc main_v2_2) ↦{fullShare} V main_v2_2)) := by
  unfold Pipeline.arrBufs
  rw [bigSep_eq_bigSepL_of_eq _ arr_image (by decide)]
  rfl

/-- How the region's entry holdings become the pipeline's arrays: `main_arg0`'s full share is cut in two halves,
    one for each of the two windows that read it; every other array goes whole to its one window. -/
theorem hsplit (c : Dev nD) (dat : Dat τ (Elt F) Unit ℕ (UR sig nD τ) ℕ cfg0 c)
    (V : (b : Ref sig .tc) → Buf (Elt F) ((c.tc : Thread nD τ).loc b))
    (hq0 : dat.q 0 = fullShare.left) (hq1 : dat.q 1 = fullShare.right)
    (hq2 : dat.q 2 = fullShare) (hq3 : dat.q 3 = fullShare)
    (G : (w : Fin cfg0.W) → Buf (Elt F) ((cfg0.win w).arr.view.loc (c.tc : Thread nD τ)))
    (hG : ∀ w, G w = V (Pipeline.arrRef spec0 w)) :
    (Pipeline.arrBufs spec0 c V : sProp 𝕄) ⊢ dat.arrays G := by
  rw [arrays_eq7 c dat hq0 hq1 hq2 hq3, arrBufs_eq6, hG 0, hG 1, hG 2, hG 3, hG 4, hG 5, hG 6]
  iintro ⟨H0, Hv0, Hv1, H4, H5, H6⟩
  ihave H0' := (pointsTo_share (PosShare.mem_left_op_right fullShare)).1 $$ H0
  icases H0' with ⟨H0a, H0b⟩
  isplitl [H0a]; · iexact H0a
  isplitl [H0b]; · iexact H0b
  isplitl [Hv0]; · iexact Hv0
  isplitl [Hv1]; · iexact Hv1
  isplitl [H4]; · iexact H4
  isplitl [H5]; · iexact H5
  iexact H6

/-! ## The lines after the region -/

/-- The three result arrays, each one window's. -/
abbrev outRefs : Finset (Ref sig .tc) := [main_v2_0, main_v2_1, main_v2_2].toFinset

/-- The device buffers the lines after the region may touch: the three result arrays and the buffers that bypass the
    region. The shared input array `main_arg0` (and the two label arrays) stay with the windows that hold them. -/
def tailS : Finset (DevRef τ sig) :=
  (outRefs ∪ Pipeline.restRefs sig spec0).map ⟨Proc.devRef (sig := sig) .tc, Proc.devRef_injective _⟩

theorem outRefs_disj : Disjoint outRefs (Pipeline.restRefs sig spec0) := by decide

/-- Those buffers held at a valuation: the three result arrays and the bypassing buffers. -/
theorem held_tailS (c : Dev nD) (Wv : Valuation τ sig (Elt F)) :
    (StableHlo.held (c.tc : Thread nD τ) tailS Wv : sProp 𝕄)
      = iprop(((((c.tc : Thread nD τ).loc main_v2_0) ↦{fullShare} Wv (Proc.devRef .tc main_v2_0))
            ∗ (((c.tc : Thread nD τ).loc main_v2_1) ↦{fullShare} Wv (Proc.devRef .tc main_v2_1))
            ∗ (((c.tc : Thread nD τ).loc main_v2_2) ↦{fullShare} Wv (Proc.devRef .tc main_v2_2)))
          ∗ Pipeline.unscopedRest spec0 c (fun b => Wv (Proc.devRef .tc b))) := by
  unfold StableHlo.held tailS Pipeline.unscopedRest
  rw [bigSep_map, bigSep_union outRefs_disj]
  congr 1
  rw [bigSep_eq_bigSepL_of_eq _ rfl (by decide)]
  rfl

/-- Reading the region's exit contents at an array that only one window holds: that window's final contents. -/
theorem withArrays_at (c : Dev nD) (V : Valuation τ sig (Elt F))
    (A : (w : Fin 7) → Buf (Elt F) ((spec0 w).arr.view.loc (c.tc : Thread nD τ))) (w : Fin 7)
    (huniq : ∀ w', Pipeline.arrRef spec0 w' = Pipeline.arrRef spec0 w → w' = w) :
    Pipeline.withArrays spec0 c V A (Proc.devRef .tc (Pipeline.arrRef spec0 w)) = A w := by
  unfold Pipeline.withArrays
  have h : ∃ w', Proc.devRef .tc (Pipeline.arrRef spec0 w') = Proc.devRef (τ := τ) .tc (Pipeline.arrRef spec0 w) := ⟨w, rfl⟩
  rw [dif_pos h]
  suffices ∀ (w' : Fin 7) (e : Proc.devRef .tc (Pipeline.arrRef spec0 w') = Proc.devRef (τ := τ) .tc (Pipeline.arrRef spec0 w)),
      cast (congrArg (fun b' : DevRef τ sig => b'.ty.Contents (Elt F)) e) (A w') = A w from this _ h.choose_spec
  intro w' e
  obtain rfl : w' = w := huniq w' (Proc.devRef_injective _ e)
  rfl

end Cert.KernelIdeal.Hand

end
-- ==== Proof.KI.Tail.lean ====
import proofs.«121591_j16836271800363_1_alg».proof.Proof.KI.Shared

set_option pp.maxSteps 5000
set_option pp.deepTerms false

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem mem_tailS (x : Ref sig .tc) (h : x ∈ outRefs ∪ Pipeline.restRefs sig spec0) : Proc.devRef (τ := τ) .tc x ∈ tailS :=
  Finset.mem_map_of_mem _ h

/-- The eight lines after the region touch only the three result arrays and buffers that bypass the region. -/
theorem tail_sub : ∀ ops ∈ ([hostOps1] : List (List (HloOp τ sig (Elt F)))), ∀ op ∈ ops, op.bufs ⊆ tailS := by
  intro ops hops op hop
  simp only [List.mem_cons, List.mem_nil_iff, _root_.or_false] at hops
  subst hops
  simp only [hostOps1, List.mem_cons, List.mem_nil_iff, _root_.or_false] at hop
  rcases hop with rfl | rfl | rfl | rfl | rfl | rfl | rfl | rfl
  all_goals
    simp only [StableHlo.reshape_bufs, StableHlo.nullary_bufs, StableHlo.unary_bufs, StableHlo.binary_bufs,
      Finset.insert_subset_iff, Finset.singleton_subset_iff]
    repeat' constructor
    all_goals exact mem_tailS _ (by decide)

/-- They allocate nothing. -/
theorem tail_fresh : ∀ ops ∈ ([hostOps1] : List (List (HloOp τ sig (Elt F)))), ∀ op ∈ ops, op.fresh = ∅ := by
  intro ops hops op hop
  simp only [List.mem_cons, List.mem_nil_iff, _root_.or_false] at hops
  subst hops
  simp only [hostOps1, List.mem_cons, List.mem_nil_iff, _root_.or_false] at hop
  rcases hop with rfl | rfl | rfl | rfl | rfl | rfl | rfl | rfl <;> rfl

/-- None of them writes one of the three result arrays: each writes its own result buffer. -/
theorem tail_keeps (x : Ref sig .tc) (hx : x ∈ outRefs) :
    ∀ op ∈ ([hostOps1] : List (List (HloOp τ sig (Elt F)))).flatten, Proc.devRef (τ := τ) .tc x ∉ op.writes := by
  intro op hop
  simp only [List.flatten_cons, List.flatten_nil, List.append_nil, hostOps1, List.mem_cons, List.mem_nil_iff, _root_.or_false] at hop
  simp only [outRefs, List.mem_toFinset, List.mem_cons, List.mem_nil_iff, _root_.or_false] at hx
  rcases hx with rfl | rfl | rfl <;> rcases hop with rfl | rfl | rfl | rfl | rfl | rfl | rfl | rfl <;>
    simp only [StableHlo.nullary_writes, StableHlo.unary_writes, StableHlo.binary_writes, StableHlo.reshape_writes, Finset.mem_singleton] <;>
    exact StableHlo.devRef_ne_of_ne (by decide)

/-- THE LINES AFTER THE REGION, for arrays two windows share. From the region's exit — the boundary, the pipeline's arrays
    at any contents `A` (the two halves of `main_arg0` still apart), the bypassing buffers at `V₀` — the eight lines run
    within the three result arrays and the bypassing buffers, write none of the arrays, and hand back the arrays at `A`
    and the bypassing buffers at the lines' `StableHlo.after` from the exit contents. -/
theorem htail (𝒱₀ : Variants) (c : Dev nD) (dat : Dat τ (Elt F) Unit ℕ (UR sig nD τ) ℕ cfg0 c)
    (hq0 : dat.q 0 = fullShare.left) (hq1 : dat.q 1 = fullShare.right)
    (hq2 : dat.q 2 = fullShare) (hq3 : dat.q 3 = fullShare)
    (V₀ : Valuation τ sig (Elt F))
    (A : (w : Fin cfg0.W) → Buf (Elt F) ((cfg0.win w).arr.view.loc (c.tc : Thread nD τ)))
    (Q' : PUnit → sProp 𝕄) :
    iprop((iprop(dat.arrays A ∗ Pipeline.unscopedRest spec0 c (fun b => StableHlo.after ([hostOps1] : List (List (HloOp τ sig (Elt F)))).flatten (Pipeline.withArrays spec0 c V₀ A) (Proc.devRef .tc b))) -∗ Q' ⟨⟩)
        ∗ boundary (c.tc : Thread nD τ) ∗ dat.arrays A ∗ Pipeline.unscopedRest spec0 c (fun b => V₀ (Proc.devRef .tc b)))
      ⊢ wp frame (wpE (Pipeline.defs (fun q => Cfg.toPCfg (Val := Elt F) (cfgs q)) defs₀) (Variants.lift 𝒱₀) (c.tc : Thread nD τ) none) Set.univ
          (Pipeline.chain (([hostOps1] : List (List (HloOp τ sig (Elt F)))).map StableHlo.seq)) Q' := by
  classical
  have h4 : Pipeline.withArrays spec0 c V₀ A (Proc.devRef .tc main_v2_0) = A 4 := withArrays_at c V₀ A 4 (by decide)
  have h5 : Pipeline.withArrays spec0 c V₀ A (Proc.devRef .tc main_v2_1) = A 5 := withArrays_at c V₀ A 5 (by decide)
  have h6 : Pipeline.withArrays spec0 c V₀ A (Proc.devRef .tc main_v2_2) = A 6 := withArrays_at c V₀ A 6 (by decide)
  have hrest : (Pipeline.unscopedRest spec0 c (fun b => Pipeline.withArrays spec0 c V₀ A (Proc.devRef .tc b)) : sProp 𝕄)
      = Pipeline.unscopedRest spec0 c (fun b => V₀ (Proc.devRef .tc b)) := by
    unfold Pipeline.unscopedRest
    exact bigSep_congr fun b hb => by
      dsimp only
      rw [Pipeline.withArrays_of_ne spec0 c V₀ A b fun w e => (Finset.mem_sdiff.mp hb).2 (Finset.mem_image.mpr ⟨w, Finset.mem_univ _, e⟩)]
  have k4 : StableHlo.after ([hostOps1] : List (List (HloOp τ sig (Elt F)))).flatten (Pipeline.withArrays spec0 c V₀ A) (Proc.devRef .tc main_v2_0) = A 4 := by
    rw [StableHlo.after_of_forall_not_mem _ _ (tail_keeps main_v2_0 (by decide)), h4]
  have k5 : StableHlo.after ([hostOps1] : List (List (HloOp τ sig (Elt F)))).flatten (Pipeline.withArrays spec0 c V₀ A) (Proc.devRef .tc main_v2_1) = A 5 := by
    rw [StableHlo.after_of_forall_not_mem _ _ (tail_keeps main_v2_1 (by decide)), h5]
  have k6 : StableHlo.after ([hostOps1] : List (List (HloOp τ sig (Elt F)))).flatten (Pipeline.withArrays spec0 c V₀ A) (Proc.devRef .tc main_v2_2) = A 6 := by
    rw [StableHlo.after_of_forall_not_mem _ _ (tail_keeps main_v2_2 (by decide)), h6]
  have hW := held_tailS (F := F) c (Pipeline.withArrays spec0 c V₀ A)
  rw [h4, h5, h6, hrest] at hW
  have hW' := held_tailS (F := F) c (StableHlo.after ([hostOps1] : List (List (HloOp τ sig (Elt F)))).flatten (Pipeline.withArrays spec0 c V₀ A))
  rw [k4, k5, k6] at hW'
  have step := Pipeline.wp_seqs_then (Ix := Unit) (Name := ℕ) (U := UR sig nD τ) (Lvl := ℕ) (fun q => Cfg.toPCfg (Val := Elt F) (cfgs q)) defs₀ 𝒱₀ c tailS [] (K := Q')
    [hostOps1] tail_sub tail_fresh (Pipeline.withArrays spec0 c V₀ A)
  rw [hW, hW', Pipeline.chain_nil, wp_pure] at step
  rw [arrays_eq7 c dat hq0 hq1 hq2 hq3, ← List.append_nil (([hostOps1] : List (List (HloOp τ sig (Elt F)))).map StableHlo.seq)]
  iintro ⟨Hk, Hb, ⟨H0, H1, H2, H3, H4, H5, H6⟩, Hr⟩
  iapply step $$ [Hb H4 H5 H6 Hr]
  · isplitl [Hb]; · iexact Hb
    isplitr [Hr]
    · isplitl [H4]; · iexact H4
      isplitl [H5]; · iexact H5
      iexact H6
    iexact Hr
  iintro ⟨Hb, ⟨H4, H5, H6⟩, Hr⟩
  imodintro
  iapply Hk
  isplitr [Hr]
  · isplitl [H0]; · iexact H0
    isplitl [H1]; · iexact H1
    isplitl [H2]; · iexact H2
    isplitl [H3]; · iexact H3
    isplitl [H4]; · iexact H4
    isplitl [H5]; · iexact H5
    iexact H6
  iexact Hr

end Cert.KernelIdeal.Hand

end
-- ==== Proof.KI.Launch.lean ====
import proofs.«121591_j16836271800363_1_alg».proof.Proof.KI.Tail

set_option pp.maxSteps 5000
set_option pp.deepTerms false

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation: after the two reshapes of the
    label array that precede the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is the two reshapes, the region, then the eight lines after it: it reduces to the region continued by those
    lines, at the contents after the reshapes. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- THE RUN around a region whose windows 0 and 1 share `main_arg0`: for any proof data whose arrays are the region-entry
    contents, whose two windows on `main_arg0` hold the two halves of its share, that owes nothing and whose invariant
    starts from and ends in the scratch buffers at anything, every weakly fair execution of @main terminates, each array
    ending at what the proof data compute and every other unscoped buffer as the lines after the region leave it. -/
theorem run_main_of (dats : (p : Fin 1) → (c : Dev nD) → Dat τ (Elt F) Unit ℕ (UR sig nD τ) ℕ (cfgs p) c)
    (hbody : ∀ c, Pipeline.BodyObligationLoose (dats 0 c) defs₀ Variants.none () Set.univ)
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ)
      (Pipeline.FramePost cfgs dats 0 (Pipeline.afterTail₀ cfgs dats 0 (V0 m) [hostOps1])) := by
  classical
  exact Pipeline.θ_run_region_pf_tail (fun q => (cfgs q).toPCfg (Val := Elt F)) (fun q => (cfgs q).toPCfg_adm) dats () cellOf_inj 0
    winFacts₀0 (Pipeline.OwnSemFacts.none spec0) (Pipeline.PreFacts.none _) emb₁ defs₀ Variants.none m ρ main
    (fun _ => Pipeline.chain (([hostOps1] : List (List (HloOp τ sig (Elt F)))).map StableHlo.seq)) hbody
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => hsplit c (dats 0 c) (V m c) (hq0 c) (hq1 c) (hq2 c) (hq3 c) _ fun w => hA c w)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Pipeline.afterTail₀ cfgs dats 0 (V0 m) [hostOps1] c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => by
      rw [Pipeline.unscopedRestP_none, Pipeline.unscopedRestP_none]
      exact htail Variants.none c (dats 0 c) (hq0 c) (hq1 c) (hq2 c) (hq3 c) (V0 m c) (fun w => (dats 0 c).arrAt w cfg0.N) Q')
    (QY := fun c s => ∀ b ∈ Pipeline.restRefs sig spec0, s.mem ((c.tc : Thread nD τ).loc b) = Pipeline.afterTail₀ cfgs dats 0 (V0 m) [hostOps1] c b)
    (hY := fun c s' => by
      rw [Pipeline.unscopedRestP_none]
      iintro ⟨-, HU, HSI⟩
      unfold Pipeline.unscopedRest
      imodintro
      iapply (pointsTo_read_all (Pipeline.restRefs sig spec0) (fun b => (c.tc : Thread nD τ).loc b) (Pipeline.afterTail₀ cfgs dats 0 (V0 m) [hostOps1] c) s')
      isplitl [HU] <;> iassumption)
    (hQ := fun s h c => And.intro (h c).1 (h c).2.2)

end Cert.KernelIdeal.Hand

end
-- ==== Proof.KI.Runs.lean ====
/- The kernel body's branch conditions in closed form over the 8 x 8 grid, where the three output
   windows are idle, and the names of the staging and scratch memrefs the body is called with. -/
import proofs.«121591_j16836271800363_1_alg».proof.Proof.Gen.KernelIdeal.Launch
import proofs.«121591_j16836271800363_1_alg».proof.Proof.Gen.KernelIdeal.Skeleton
import proofs.«121591_j16836271800363_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's four branch conditions

Point `t` of the grid has coordinates `i = t / 8`, `k = t % 8`. -/

/-- `i = 0` and `k = 0`: the three scalar accumulators are zeroed. -/
abbrev cond0_1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_1 : ∀ t : Fin cfg0.N, cond0_1 (grid0.coords t) ↔ t.val = 0 :=
  (by decide +kernel : ∀ t : Fin grid0.N, cond0_1 (grid0.coords t) ↔ t.val = 0)

/-- `k = 0`: the row accumulator is zeroed. -/
abbrev cond0_2 (i : grid0.Coords) : Prop := (Scalar.cmpi .ne (Scalar.extui (Scalar.cmpi .eq (BitVec.ofNat 32 (i 1).val) 0#32)) 0#32) = 1#1
theorem hcond0_2 : ∀ t : Fin cfg0.N, cond0_2 (grid0.coords t) ↔ t.val % 8 = 0 :=
  (by decide +kernel : ∀ t : Fin grid0.N, cond0_2 (grid0.coords t) ↔ t.val % 8 = 0)

/-- `k = 7`: the sum of the logarithms of the row accumulator is added to the second scalar accumulator. -/
abbrev cond0_3 (i : grid0.Coords) : Prop := (Scalar.cmpi .ne (Scalar.extui (Scalar.cmpi .eq (BitVec.ofNat 32 (i 1).val) 7#32)) 0#32) = 1#1
theorem hcond0_3 : ∀ t : Fin cfg0.N, cond0_3 (grid0.coords t) ↔ t.val % 8 = 7 :=
  (by decide +kernel : ∀ t : Fin grid0.N, cond0_3 (grid0.coords t) ↔ t.val % 8 = 7)

/-- `i = 7` and `k = 7`: the three scalar accumulators are stored into the outputs. -/
abbrev cond0_4 (i : grid0.Coords) : Prop := k0_cond4 i = 1#1
theorem hcond0_4 : ∀ t : Fin cfg0.N, cond0_4 (grid0.coords t) ↔ t.val = 63 :=
  (by decide +kernel : ∀ t : Fin grid0.N, cond0_4 (grid0.coords t) ↔ t.val = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-- Away from the last point nothing is stored into output 4, and its block is not written back. -/
theorem idleAt0_4 : ∀ t : Fin cfg0.N, ¬cond0_4 (grid0.coords t) → cfg0.idle 4 (grid0.coords t) = true := by decide +kernel
theorem noFlush0_4 : ∀ t : Fin cfg0.N, ¬cond0_4 (grid0.coords t) → (cfg0.win 4).flush t = false := by decide +kernel
theorem liveAt0_4_E : ∀ t : Fin cfg0.N, cond0_4 (grid0.coords t) → cfg0.idle 4 (grid0.coords t) = false := by decide +kernel
theorem idleAt0_5 : ∀ t : Fin cfg0.N, ¬cond0_4 (grid0.coords t) → cfg0.idle 5 (grid0.coords t) = true := by decide +kernel
theorem noFlush0_5 : ∀ t : Fin cfg0.N, ¬cond0_4 (grid0.coords t) → (cfg0.win 5).flush t = false := by decide +kernel
theorem liveAt0_5_E : ∀ t : Fin cfg0.N, cond0_4 (grid0.coords t) → cfg0.idle 5 (grid0.coords t) = false := by decide +kernel
theorem idleAt0_6 : ∀ t : Fin cfg0.N, ¬cond0_4 (grid0.coords t) → cfg0.idle 6 (grid0.coords t) = true := by decide +kernel
theorem noFlush0_6 : ∀ t : Fin cfg0.N, ¬cond0_4 (grid0.coords t) → (cfg0.win 6).flush t = false := by decide +kernel
theorem liveAt0_6_E : ∀ t : Fin cfg0.N, cond0_4 (grid0.coords t) → cfg0.idle 6 (grid0.coords t) = false := by decide +kernel

/-! ## The memrefs the body is called with -/

/-- One staging buffer of each output window, through which its contents are stated. -/
abbrev VO0_4 : View sig .tc .vmem S1x1 .f32 := (Memref.whole cc0_stg4_0 : Memref sig .tc .vmem S1x1 .f32).view
abbrev VO0_5 : View sig .tc .vmem S1x1 .f32 := (Memref.whole cc0_stg5_0 : Memref sig .tc .vmem S1x1 .f32).view
abbrev VO0_6 : View sig .tc .vmem S1x1 .f32 := (Memref.whole cc0_stg6_0 : Memref sig .tc .vmem S1x1 .f32).view

/-- Each window's current staging memref at point `t`, and its wholeness. -/
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1 .f32 := win0_6.stage (cfg0.slots t 6)
abbrev hs0_6 (t : Fin cfg0.N) : (ms0_6 t).IsWhole := hstage0_6 ((cfg0.slots t 6).cast nbuf0_6)

/-- The four scratch operands: the row accumulator (512 x 1) and the three scalar accumulators. -/
abbrev scM0_0 : Memref sig .tc .vmem S512x1 .f32 := Memref.whole cc0_scratch0
abbrev scM0_1 : Memref sig .tc .vmem S1x1 .f32 := Memref.whole cc0_scratch1
abbrev scM0_2 : Memref sig .tc .vmem S1x1 .f32 := Memref.whole cc0_scratch2
abbrev scM0_3 : Memref sig .tc .vmem S1x1 .f32 := Memref.whole cc0_scratch3
abbrev VS0_0 : View sig .tc .vmem S512x1 .f32 := scM0_0.view
abbrev VS0_1 : View sig .tc .vmem S1x1 .f32 := scM0_1.view
abbrev VS0_2 : View sig .tc .vmem S1x1 .f32 := scM0_2.view
abbrev VS0_3 : View sig .tc .vmem S1x1 .f32 := scM0_3.view

/-- The region's invariant on a core: the four scratch operands each owned at some contents, and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Hand

end
-- ==== Proof.KI.Blocks.lean ====
import proofs.«121591_j16836271800363_1_alg».proof.Proof.KI.Launch
import proofs.«121591_j16836271800363_1_alg».proof.Proof.KI.Runs

set_option maxRecDepth 16384
set_option pp.maxSteps 5000
set_option pp.deepTerms false

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The argument arrays are as launched -/

/-- The two reshapes before the region write neither argument array. -/
theorem V_main_arg0 (c : Dev nD) : V m c main_arg0 = m ((c : Thread nD τ).loc main_arg0) := by
  show StableHlo.after hostOps0 (fun b => m (c, b)) (Proc.devRef .tc main_arg0) = _
  after_results
theorem V_main_arg1 (c : Dev nD) : V m c main_arg1 = m ((c : Thread nD τ).loc main_arg1) := by
  show StableHlo.after hostOps0 (fun b => m (c, b)) (Proc.devRef .tc main_arg1) = _
  after_results

/-- Nor does any of the eight lines after the region, and `main_arg1` is no window's array. -/
theorem tail_main_arg1 (c : Dev nD) (dats : (p : Fin 1) → (c : Dev nD) → Dat τ (Elt F) Unit ℕ (UR sig nD τ) ℕ (cfgs p) c) :
    Pipeline.afterTail₀ cfgs dats 0 (V0 m) [hostOps1] c main_arg1 = m ((c : Thread nD τ).loc main_arg1) := by
  unfold Pipeline.afterTail₀
  rw [StableHlo.after_of_forall_not_mem _ _ (fun op hop => ?_), Pipeline.withArrays_of_ne spec0 c (V0 m c) _ main_arg1 (by decide)]
  · exact V_main_arg1 m c
  · simp only [List.flatten_cons, List.flatten_nil, List.append_nil, hostOps1, List.mem_cons, List.mem_nil_iff, _root_.or_false] at hop
    rcases hop with rfl | rfl | rfl | rfl | rfl | rfl | rfl | rfl <;>
      simp only [StableHlo.nullary_writes, StableHlo.unary_writes, StableHlo.binary_writes, StableHlo.reshape_writes, Finset.mem_singleton] <;>
      exact StableHlo.devRef_ne_of_ne (by decide)

/-! ## The frame claim's post from the run's -/

/-- THE FRAME from the run: both argument arrays end as launched — `main_arg0` because an input window's array keeps
    its entry contents, `main_arg1` because it bypasses the region and no line writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
    ((h c).2 main_arg1 (by decide)).trans (tail_main_arg1 m c dats)⟩) h

end Cert.KernelIdeal.Hand

end
-- ==== Proof.KI.RunA.lean ====
/- The kernel body run at the first grid point (i = 0, k = 0): the three scalar accumulators and the row accumulator are zeroed, then the point's block is accumulated; nothing is added from the logarithms and no output is stored. The lists of pieces say what each stored buffer ends with,
   last store first; they are read off the body's stores. -/
import proofs.«121591_j16836271800363_1_alg».proof.Proof.KI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's triple in case A: from the four input blocks, the three output buffers and the four scratch
    operands owned whole, the body runs to a continuation that is given the inputs as they were and each buffer
    the case stores into with its pieces written. -/
noncomputable def kernelRun0_A (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : cond0_1 i) (hc2 : cond0_2 i) (hc3 : ¬cond0_3 i) (hc4 : ¬cond0_4 i)
    (x0 : Vec F S512x512 .f32) (x1 : Vec F S512x512 .f32) (x2 : Vec F S512x1 .i32) (x3 : Vec F S1x512 .i32) :
    Σ' (LS0 : List (View.Piece (Elt F) S512x1 .f32)) (LS1 : List (View.Piece (Elt F) S1x1 .f32)) (LS2 : List (View.Piece (Elt F) S1x1 .f32)), { LS3 : List (View.Piece (Elt F) S1x1 .f32) //
      ∀ (xi4 : Vec F S1x1 .f32) (xi5 : Vec F S1x1 .f32) (xi6 : Vec F S1x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare xi4
            ∗ owns (c : Thread nD τ) arg7 fullShare xi5
            ∗ owns (c : Thread nD τ) arg8 fullShare xi6
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare xi4
                ∗ owns (c : Thread nD τ) arg7 fullShare xi5
                ∗ owns (c : Thread nD τ) arg8 fullShare xi6
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)
                ∗ (∃ f, arg12.view.loc (c : Thread nD τ) ↦[arg12.view.set]{fullShare} arg12.view.writes (Elt F) f LS3)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10 arg11 harg11 arg12 harg12) K } := by
  refine ⟨?_, ?_, ?_, ?_, fun xi4 xi5 xi6 E K => ?run⟩
  case run =>
    simp only [cc0__supcon_kernel_eq_skeleton]; unfold cc0__supcon_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    iexists _; iexact H12

end Cert.KernelIdeal.Hand

end
-- ==== Proof.KI.RunB.lean ====
/- The kernel body run at the first column of a later block row (k = 0, i > 0): the row accumulator is zeroed, then the point's block is accumulated; the second scalar accumulator is left as it was and no output is stored. The lists of pieces say what each stored buffer ends with,
   last store first; they are read off the body's stores. -/
import proofs.«121591_j16836271800363_1_alg».proof.Proof.KI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's triple in case B: from the four input blocks, the three output buffers and the four scratch
    operands owned whole, the body runs to a continuation that is given the inputs as they were and each buffer
    the case stores into with its pieces written. -/
noncomputable def kernelRun0_B (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : cond0_2 i) (hc3 : ¬cond0_3 i) (hc4 : ¬cond0_4 i)
    (x0 : Vec F S512x512 .f32) (x1 : Vec F S512x512 .f32) (x2 : Vec F S512x1 .i32) (x3 : Vec F S1x512 .i32) (xs1 : Vec F S1x1 .f32) (xs2 : Vec F S1x1 .f32) (xs3 : Vec F S1x1 .f32) :
    Σ' (LS0 : List (View.Piece (Elt F) S512x1 .f32)) (LS1 : List (View.Piece (Elt F) S1x1 .f32)), { LS3 : List (View.Piece (Elt F) S1x1 .f32) //
      ∀ (xi4 : Vec F S1x1 .f32) (xi5 : Vec F S1x1 .f32) (xi6 : Vec F S1x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare xi4
            ∗ owns (c : Thread nD τ) arg7 fullShare xi5
            ∗ owns (c : Thread nD τ) arg8 fullShare xi6
            ∗ (∃ d, owns (c : Thread nD τ) arg9 fullShare d)
            ∗ owns (c : Thread nD τ) arg10 fullShare xs1
            ∗ owns (c : Thread nD τ) arg11 fullShare xs2
            ∗ owns (c : Thread nD τ) arg12 fullShare xs3
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare xi4
                ∗ owns (c : Thread nD τ) arg7 fullShare xi5
                ∗ owns (c : Thread nD τ) arg8 fullShare xi6
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ owns (c : Thread nD τ) arg11 fullShare xs2
                ∗ (∃ f, arg12.view.loc (c : Thread nD τ) ↦[arg12.view.set]{fullShare} arg12.view.writes (Elt F) f LS3)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10 arg11 harg11 arg12 harg12) K } := by
  refine ⟨?_, ?_, ?_, fun xi4 xi5 xi6 E K => ?run⟩
  case run =>
    simp only [cc0__supcon_kernel_eq_skeleton]; unfold cc0__supcon_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10; obtain rfl := harg11.eq_unread hf11; obtain rfl := harg12.eq_unread hf12
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]
    · iexists _; isplitr; · ipureintro; exact harg11.read_unread _
      iexact H11
    iexists _; iexact H12

end Cert.KernelIdeal.Hand

end
-- ==== Proof.KI.RunC.lean ====
/- The kernel body run at an inner column (0 < k < 7): the point's block is accumulated into the row accumulator and the first and third scalar accumulators; the second scalar accumulator is left as it was and no output is stored. The lists of pieces say what each stored buffer ends with,
   last store first; they are read off the body's stores. -/
import proofs.«121591_j16836271800363_1_alg».proof.Proof.KI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's triple in case C: from the four input blocks, the three output buffers and the four scratch
    operands owned whole, the body runs to a continuation that is given the inputs as they were and each buffer
    the case stores into with its pieces written. -/
noncomputable def kernelRun0_C (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : ¬cond0_3 i) (hc4 : ¬cond0_4 i)
    (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) :
    Σ' (LS0 : List (View.Piece (Elt F) S512x1 .f32)) (LS1 : List (View.Piece (Elt F) S1x1 .f32)), { LS3 : List (View.Piece (Elt F) S1x1 .f32) //
      ∀ (xi4 : Vec F S1x1 .f32) (xi5 : Vec F S1x1 .f32) (xi6 : Vec F S1x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare xi4
            ∗ owns (c : Thread nD τ) arg7 fullShare xi5
            ∗ owns (c : Thread nD τ) arg8 fullShare xi6
            ∗ owns (c : Thread nD τ) arg9 fullShare xs0
            ∗ owns (c : Thread nD τ) arg10 fullShare xs1
            ∗ owns (c : Thread nD τ) arg11 fullShare xs2
            ∗ owns (c : Thread nD τ) arg12 fullShare xs3
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare xi4
                ∗ owns (c : Thread nD τ) arg7 fullShare xi5
                ∗ owns (c : Thread nD τ) arg8 fullShare xi6
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ owns (c : Thread nD τ) arg11 fullShare xs2
                ∗ (∃ f, arg12.view.loc (c : Thread nD τ) ↦[arg12.view.set]{fullShare} arg12.view.writes (Elt F) f LS3)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10 arg11 harg11 arg12 harg12) K } := by
  refine ⟨?_, ?_, ?_, fun xi4 xi5 xi6 E K => ?run⟩
  case run =>
    simp only [cc0__supcon_kernel_eq_skeleton]; unfold cc0__supcon_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]
    · iexists _; isplitr; · ipureintro; exact harg11.read_unread _
      iexact H11
    iexists _; iexact H12

end Cert.KernelIdeal.Hand

end
-- ==== Proof.KI.RunD.lean ====
/- The kernel body run at the last column of a block row other than the last (k = 7, i < 7): the point's block is accumulated, then the sum of the logarithms of the row accumulator is added to the second scalar accumulator; no output is stored. The lists of pieces say what each stored buffer ends with,
   last store first; they are read off the body's stores. -/
import proofs.«121591_j16836271800363_1_alg».proof.Proof.KI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's triple in case D: from the four input blocks, the three output buffers and the four scratch
    operands owned whole, the body runs to a continuation that is given the inputs as they were and each buffer
    the case stores into with its pieces written. -/
noncomputable def kernelRun0_D (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : ¬cond0_4 i)
    (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) :
    Σ' (LS0 : List (View.Piece (Elt F) S512x1 .f32)) (LS1 : List (View.Piece (Elt F) S1x1 .f32)) (LS2 : List (View.Piece (Elt F) S1x1 .f32)), { LS3 : List (View.Piece (Elt F) S1x1 .f32) //
      ∀ (xi4 : Vec F S1x1 .f32) (xi5 : Vec F S1x1 .f32) (xi6 : Vec F S1x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare xi4
            ∗ owns (c : Thread nD τ) arg7 fullShare xi5
            ∗ owns (c : Thread nD τ) arg8 fullShare xi6
            ∗ owns (c : Thread nD τ) arg9 fullShare xs0
            ∗ owns (c : Thread nD τ) arg10 fullShare xs1
            ∗ owns (c : Thread nD τ) arg11 fullShare xs2
            ∗ owns (c : Thread nD τ) arg12 fullShare xs3
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare xi4
                ∗ owns (c : Thread nD τ) arg7 fullShare xi5
                ∗ owns (c : Thread nD τ) arg8 fullShare xi6
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)
                ∗ (∃ f, arg12.view.loc (c : Thread nD τ) ↦[arg12.view.set]{fullShare} arg12.view.writes (Elt F) f LS3)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10 arg11 harg11 arg12 harg12) K } := by
  refine ⟨?_, ?_, ?_, ?_, fun xi4 xi5 xi6 E K => ?run⟩
  case run =>
    simp only [cc0__supcon_kernel_eq_skeleton]; unfold cc0__supcon_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    iexists _; iexact H12

end Cert.KernelIdeal.Hand

end
-- ==== Proof.KI.RunE.lean ====
/- The kernel body run at the last grid point (i = 7, k = 7): the point's block is accumulated, the sum of the logarithms of the row accumulator is added to the second scalar accumulator, and the three scalar accumulators are stored into the three outputs. The lists of pieces say what each stored buffer ends with,
   last store first; they are read off the body's stores. -/
import proofs.«121591_j16836271800363_1_alg».proof.Proof.KI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's triple in case E: from the four input blocks, the three output buffers and the four scratch
    operands owned whole, the body runs to a continuation that is given the inputs as they were and each buffer
    the case stores into with its pieces written. -/
noncomputable def kernelRun0_E (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i)
    (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) :
    Σ' (L4 : List (View.Piece (Elt F) S1x1 .f32)) (L5 : List (View.Piece (Elt F) S1x1 .f32)) (L6 : List (View.Piece (Elt F) S1x1 .f32)) (LS0 : List (View.Piece (Elt F) S512x1 .f32)) (LS1 : List (View.Piece (Elt F) S1x1 .f32)) (LS2 : List (View.Piece (Elt F) S1x1 .f32)), { LS3 : List (View.Piece (Elt F) S1x1 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ (∃ d, owns (c : Thread nD τ) arg6 fullShare d)
            ∗ (∃ d, owns (c : Thread nD τ) arg7 fullShare d)
            ∗ (∃ d, owns (c : Thread nD τ) arg8 fullShare d)
            ∗ owns (c : Thread nD τ) arg9 fullShare xs0
            ∗ owns (c : Thread nD τ) arg10 fullShare xs1
            ∗ owns (c : Thread nD τ) arg11 fullShare xs2
            ∗ owns (c : Thread nD τ) arg12 fullShare xs3
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)
                ∗ (∃ f, arg12.view.loc (c : Thread nD τ) ↦[arg12.view.set]{fullShare} arg12.view.writes (Elt F) f LS3)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, fun E K => ?run⟩
  case run =>
    simp only [cc0__supcon_kernel_eq_skeleton]; unfold cc0__supcon_kernel_skel
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, ⟨%f11, %hf11, H11⟩, ⟨%f12, %hf12, H12⟩, Hk⟩
    obtain rfl := harg2.eq_unread hf2; obtain rfl := harg3.eq_unread hf3; obtain rfl := harg4.eq_unread hf4; obtain rfl := harg5.eq_unread hf5; obtain rfl := harg9.eq_unread hf9; obtain rfl := harg10.eq_unread hf10; obtain rfl := harg11.eq_unread hf11; obtain rfl := harg12.eq_unread hf12
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12

end Cert.KernelIdeal.Hand

end
-- ==== Proof.KI.Pieces.lean ====
/- What each case of the kernel body leaves in the buffers it stores into, read back as a value: every such
   buffer is stored whole last, so it holds that last store's payload, as a function of the four input blocks,
   the grid point, and the contents the scratch operands had when the point was entered. A value the body loads
   from a buffer it stored earlier in the same point is the payload stored; a load before any store reads the
   entry contents. -/
import proofs.«121591_j16836271800363_1_alg».proof.Proof.KI.RunA
import proofs.«121591_j16836271800363_1_alg».proof.Proof.KI.RunB
import proofs.«121591_j16836271800363_1_alg».proof.Proof.KI.RunC
import proofs.«121591_j16836271800363_1_alg».proof.Proof.KI.RunD
import proofs.«121591_j16836271800363_1_alg».proof.Proof.KI.RunE
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a rank-two rectangle, as a function. -/
theorem off00_eq_zero : (![0, 0] : Fin 2 → Nat) = fun _ => 0 := funext fun a => by fin_cases a <;> rfl

/-! ## Case A -/

/-- The pieces case A leaves in scratch operand 0 cover it. -/
theorem scover0_A_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 hc1 hc2 hc3 hc4 x0 x1 x2 x3).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc1 hc2 hc3 hc4 x0 x1 x2 x3).1 S512x1.size (by sl_kernel_rfl) y

/-- What case A leaves in scratch operand 0: its pieces read back. -/
noncomputable def sout0_A_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) : Vec F S512x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc1 hc2 hc3 hc4 x0 x1 x2 x3).1)

/-- It is the payload of the case's last store into it, over the blocks and the entry contents. -/
theorem sout0_A_0_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) :
    sout0_A_0 c i arg2 harg2 arg3 harg3 arg4 harg4 arg5 harg5 arg6 harg6 arg7 harg7 arg8 harg8 arg9 harg9 arg10 harg10 arg11 harg11 arg12 harg12 hc1 hc2 hc3 hc4 x0 x1 x2 x3 = k0_pay1 k0_pay6 (k0_pay13 (k0_pay7 x0 x1) (k0_pay8 i)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc1 hc2 hc3 hc4 x0 x1 x2 x3)]
  unfold kernelRun0_A
  dsimp only
  sl_unfold_words
  first
    | rw [View.canon_unit_zero (S := S512x1) off00_eq_zero]
    | rw [View.canon_cons_unit_zero (S := S512x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

/-- The pieces case A leaves in scratch operand 1 cover it. -/
theorem scover0_A_1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) (y : S1x1.Idx) :
    ∃ pc ∈ (kernelRun0_A c i arg2 harg2 arg3 harg3 arg4 harg4 arg5 harg5 arg6 harg6 arg7 harg7 arg8 harg8 arg9 harg9 arg10 harg10 arg11 harg11 arg12 harg12 hc1 hc2 hc3 hc4 x0 x1 x2 x3).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc1 hc2 hc3 hc4 x0 x1 x2 x3).2.1 S1x1.size (by sl_kernel_rfl) y

/-- What case A leaves in scratch operand 1: its pieces read back. -/
noncomputable def sout0_A_1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) : Vec F S1x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 hc1 hc2 hc3 hc4 x0 x1 x2 x3).2.1)

/-- It is the payload of the case's last store into it, over the blocks and the entry contents. -/
theorem sout0_A_1_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) :
    sout0_A_1 c i arg2 harg2 arg3 harg3 arg4 harg4 arg5 harg5 arg6 harg6 arg7 harg7 arg8 harg8 arg9 harg9 arg10 harg10 arg11 harg11 arg12 harg12 hc1 hc2 hc3 hc4 x0 x1 x2 x3 = k0_pay11 (k0_pay7 x0 x1) (k0_pay8 i) x2 x3 k0_pay3 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc1 hc2 hc3 hc4 x0 x1 x2 x3)]
  unfold kernelRun0_A
  dsimp only
  sl_unfold_words
  first
    | rw [View.canon_unit_zero (S := S1x1) off00_eq_zero]
    | rw [View.canon_cons_unit_zero (S := S1x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

/-- The pieces case A leaves in scratch operand 2 cover it. -/
theorem scover0_A_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) (y : S1x1.Idx) :
    ∃ pc ∈ (kernelRun0_A c i arg2 harg2 arg3 harg3 arg4 harg4 arg5 harg5 arg6 harg6 arg7 harg7 arg8 harg8 arg9 harg9 arg10 harg10 arg11 harg11 arg12 harg12 hc1 hc2 hc3 hc4 x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc1 hc2 hc3 hc4 x0 x1 x2 x3).2.2.1 S1x1.size (by sl_kernel_rfl) y

/-- What case A leaves in scratch operand 2: its pieces read back. -/
noncomputable def sout0_A_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) : Vec F S1x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 hc1 hc2 hc3 hc4 x0 x1 x2 x3).2.2.1)

/-- It is the payload of the case's last store into it, over the blocks and the entry contents. -/
theorem sout0_A_2_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) :
    sout0_A_2 c i arg2 harg2 arg3 harg3 arg4 harg4 arg5 harg5 arg6 harg6 arg7 harg7 arg8 harg8 arg9 harg9 arg10 harg10 arg11 harg11 arg12 harg12 hc1 hc2 hc3 hc4 x0 x1 x2 x3 = k0_pay4 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc1 hc2 hc3 hc4 x0 x1 x2 x3)]
  unfold kernelRun0_A
  dsimp only
  sl_unfold_words
  first
    | rw [View.canon_unit_zero (S := S1x1) off00_eq_zero]
    | rw [View.canon_cons_unit_zero (S := S1x1) off00_eq_zero]

/-- The pieces case A leaves in scratch operand 3 cover it. -/
theorem scover0_A_3 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) (y : S1x1.Idx) :
    ∃ pc ∈ (kernelRun0_A c i arg2 harg2 arg3 harg3 arg4 harg4 arg5 harg5 arg6 harg6 arg7 harg7 arg8 harg8 arg9 harg9 arg10 harg10 arg11 harg11 arg12 harg12 hc1 hc2 hc3 hc4 x0 x1 x2 x3).2.2.2.val, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc1 hc2 hc3 hc4 x0 x1 x2 x3).2.2.2.val S1x1.size (by sl_kernel_rfl) y

/-- What case A leaves in scratch operand 3: its pieces read back. -/
noncomputable def sout0_A_3 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) : Vec F S1x1 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 hc1 hc2 hc3 hc4 x0 x1 x2 x3).2.2.2.val)

/-- It is the payload of the case's last store into it, over the blocks and the entry contents. -/
theorem sout0_A_3_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) :
    sout0_A_3 c i arg2 harg2 arg3 harg3 arg4 harg4 arg5 harg5 arg6 harg6 arg7 harg7 arg8 harg8 arg9 harg9 arg10 harg10 arg11 harg11 arg12 harg12 hc1 hc2 hc3 hc4 x0 x1 x2 x3 = k0_pay12 (k0_pay8 i) x2 x3 k0_pay5 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 hc1 hc2 hc3 hc4 x0 x1 x2 x3)]
  unfold kernelRun0_A
  dsimp only
  sl_unfold_words
  first
    | rw [View.canon_unit_zero (S := S1x1) off00_eq_zero]
    | rw [View.canon_cons_unit_zero (S := S1x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

/-! ## Case B -/

/-- The pieces case B leaves in scratch operand 0 cover it. -/
theorem scover0_B_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) (xs1 : Vec F S1x1 .f32) (xs2 : Vec F S1x1 .f32) (xs3 : Vec F S1x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 hc1 hc2 hc3 hc4 x0 x1 x2 x3 xs1 xs2 xs3).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc1 hc2 hc3 hc4 x0 x1 x2 x3 xs1 xs2 xs3).1 S512x1.size (by sl_kernel_rfl) y

/-- What case B leaves in scratch operand 0: its pieces read back. -/
noncomputable def sout0_B_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) (xs1 : Vec F S1x1 .f32) (xs2 : Vec F S1x1 .f32) (xs3 : Vec F S1x1 .f32) : Vec F S512x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc1 hc2 hc3 hc4 x0 x1 x2 x3 xs1 xs2 xs3).1)

/-- It is the payload of the case's last store into it, over the blocks and the entry contents. -/
theorem sout0_B_0_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) (xs1 : Vec F S1x1 .f32) (xs2 : Vec F S1x1 .f32) (xs3 : Vec F S1x1 .f32) :
    sout0_B_0 c i arg2 harg2 arg3 harg3 arg4 harg4 arg5 harg5 arg6 harg6 arg7 harg7 arg8 harg8 arg9 harg9 arg10 harg10 arg11 harg11 arg12 harg12 hc1 hc2 hc3 hc4 x0 x1 x2 x3 xs1 xs2 xs3 = k0_pay1 k0_pay6 (k0_pay13 (k0_pay7 x0 x1) (k0_pay8 i)) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc1 hc2 hc3 hc4 x0 x1 x2 x3 xs1 xs2 xs3)]
  unfold kernelRun0_B
  dsimp only
  sl_unfold_words
  first
    | rw [View.canon_unit_zero (S := S512x1) off00_eq_zero]
    | rw [View.canon_cons_unit_zero (S := S512x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

/-- The pieces case B leaves in scratch operand 1 cover it. -/
theorem scover0_B_1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) (xs1 : Vec F S1x1 .f32) (xs2 : Vec F S1x1 .f32) (xs3 : Vec F S1x1 .f32) (y : S1x1.Idx) :
    ∃ pc ∈ (kernelRun0_B c i arg2 harg2 arg3 harg3 arg4 harg4 arg5 harg5 arg6 harg6 arg7 harg7 arg8 harg8 arg9 harg9 arg10 harg10 arg11 harg11 arg12 harg12 hc1 hc2 hc3 hc4 x0 x1 x2 x3 xs1 xs2 xs3).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc1 hc2 hc3 hc4 x0 x1 x2 x3 xs1 xs2 xs3).2.1 S1x1.size (by sl_kernel_rfl) y

/-- What case B leaves in scratch operand 1: its pieces read back. -/
noncomputable def sout0_B_1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) (xs1 : Vec F S1x1 .f32) (xs2 : Vec F S1x1 .f32) (xs3 : Vec F S1x1 .f32) : Vec F S1x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 hc1 hc2 hc3 hc4 x0 x1 x2 x3 xs1 xs2 xs3).2.1)

/-- It is the payload of the case's last store into it, over the blocks and the entry contents. -/
theorem sout0_B_1_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) (xs1 : Vec F S1x1 .f32) (xs2 : Vec F S1x1 .f32) (xs3 : Vec F S1x1 .f32) :
    sout0_B_1 c i arg2 harg2 arg3 harg3 arg4 harg4 arg5 harg5 arg6 harg6 arg7 harg7 arg8 harg8 arg9 harg9 arg10 harg10 arg11 harg11 arg12 harg12 hc1 hc2 hc3 hc4 x0 x1 x2 x3 xs1 xs2 xs3 = k0_pay11 (k0_pay7 x0 x1) (k0_pay8 i) x2 x3 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc1 hc2 hc3 hc4 x0 x1 x2 x3 xs1 xs2 xs3)]
  unfold kernelRun0_B
  dsimp only
  sl_unfold_words
  first
    | rw [View.canon_unit_zero (S := S1x1) off00_eq_zero]
    | rw [View.canon_cons_unit_zero (S := S1x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

/-- The pieces case B leaves in scratch operand 3 cover it. -/
theorem scover0_B_3 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) (xs1 : Vec F S1x1 .f32) (xs2 : Vec F S1x1 .f32) (xs3 : Vec F S1x1 .f32) (y : S1x1.Idx) :
    ∃ pc ∈ (kernelRun0_B c i arg2 harg2 arg3 harg3 arg4 harg4 arg5 harg5 arg6 harg6 arg7 harg7 arg8 harg8 arg9 harg9 arg10 harg10 arg11 harg11 arg12 harg12 hc1 hc2 hc3 hc4 x0 x1 x2 x3 xs1 xs2 xs3).2.2.val, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc1 hc2 hc3 hc4 x0 x1 x2 x3 xs1 xs2 xs3).2.2.val S1x1.size (by sl_kernel_rfl) y

/-- What case B leaves in scratch operand 3: its pieces read back. -/
noncomputable def sout0_B_3 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) (xs1 : Vec F S1x1 .f32) (xs2 : Vec F S1x1 .f32) (xs3 : Vec F S1x1 .f32) : Vec F S1x1 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 hc1 hc2 hc3 hc4 x0 x1 x2 x3 xs1 xs2 xs3).2.2.val)

/-- It is the payload of the case's last store into it, over the blocks and the entry contents. -/
theorem sout0_B_3_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : cond0_2 i) (hc3 : ¬cond0_3 i) (hc4 : ¬cond0_4 i) (x0 : Vec F S512x512 .f32) (x1 : Vec F S512x512 .f32) (x2 : Vec F S512x1 .i32) (x3 : Vec F S1x512 .i32) (xs1 : Vec F S1x1 .f32) (xs2 : Vec F S1x1 .f32) (xs3 : Vec F S1x1 .f32) :
    sout0_B_3 c i arg2 harg2 arg3 harg3 arg4 harg4 arg5 harg5 arg6 harg6 arg7 harg7 arg8 harg8 arg9 harg9 arg10 harg10 arg11 harg11 arg12 harg12 hc1 hc2 hc3 hc4 x0 x1 x2 x3 xs1 xs2 xs3 = k0_pay12 (k0_pay8 i) x2 x3 xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 hc1 hc2 hc3 hc4 x0 x1 x2 x3 xs1 xs2 xs3)]
  unfold kernelRun0_B
  dsimp only
  sl_unfold_words
  first
    | rw [View.canon_unit_zero (S := S1x1) off00_eq_zero]
    | rw [View.canon_cons_unit_zero (S := S1x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

/-! ## Case C -/

/-- The pieces case C leaves in scratch operand 0 cover it. -/
theorem scover0_C_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : ¬cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).1 S512x1.size (by sl_kernel_rfl) y

/-- What case C leaves in scratch operand 0: its pieces read back. -/
noncomputable def sout0_C_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : ¬cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) : Vec F S512x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).1)

/-- It is the payload of the case's last store into it, over the blocks and the entry contents. -/
theorem sout0_C_0_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : ¬cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) :
    sout0_C_0 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3 = k0_pay1 xs0 (k0_pay13 (k0_pay7 x0 x1) (k0_pay8 i)) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3)]
  unfold kernelRun0_C
  dsimp only
  sl_unfold_words
  first
    | rw [View.canon_unit_zero (S := S512x1) off00_eq_zero]
    | rw [View.canon_cons_unit_zero (S := S512x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

/-- The pieces case C leaves in scratch operand 1 cover it. -/
theorem scover0_C_1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : ¬cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) (y : S1x1.Idx) :
    ∃ pc ∈ (kernelRun0_C c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.1 S1x1.size (by sl_kernel_rfl) y

/-- What case C leaves in scratch operand 1: its pieces read back. -/
noncomputable def sout0_C_1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : ¬cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) : Vec F S1x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.1)

/-- It is the payload of the case's last store into it, over the blocks and the entry contents. -/
theorem sout0_C_1_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : ¬cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) :
    sout0_C_1 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3 = k0_pay11 (k0_pay7 x0 x1) (k0_pay8 i) x2 x3 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3)]
  unfold kernelRun0_C
  dsimp only
  sl_unfold_words
  first
    | rw [View.canon_unit_zero (S := S1x1) off00_eq_zero]
    | rw [View.canon_cons_unit_zero (S := S1x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

/-- The pieces case C leaves in scratch operand 3 cover it. -/
theorem scover0_C_3 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : ¬cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) (y : S1x1.Idx) :
    ∃ pc ∈ (kernelRun0_C c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.val, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.val S1x1.size (by sl_kernel_rfl) y

/-- What case C leaves in scratch operand 3: its pieces read back. -/
noncomputable def sout0_C_3 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : ¬cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) : Vec F S1x1 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.val)

/-- It is the payload of the case's last store into it, over the blocks and the entry contents. -/
theorem sout0_C_3_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : ¬cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) :
    sout0_C_3 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3 = k0_pay12 (k0_pay8 i) x2 x3 xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3)]
  unfold kernelRun0_C
  dsimp only
  sl_unfold_words
  first
    | rw [View.canon_unit_zero (S := S1x1) off00_eq_zero]
    | rw [View.canon_cons_unit_zero (S := S1x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

/-! ## Case D -/

/-- The pieces case D leaves in scratch operand 0 cover it. -/
theorem scover0_D_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) (y : S512x1.Idx) :
    ∃ pc ∈ (kernelRun0_D c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).1 S512x1.size (by sl_kernel_rfl) y

/-- What case D leaves in scratch operand 0: its pieces read back. -/
noncomputable def sout0_D_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) : Vec F S512x1 .f32 :=
  VS0_0.read (Elt F) (VS0_0.writes (Elt F) VS0_0.junk (kernelRun0_D c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).1)

/-- It is the payload of the case's last store into it, over the blocks and the entry contents. -/
theorem sout0_D_0_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) :
    sout0_D_0 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3 = k0_pay1 xs0 (k0_pay13 (k0_pay7 x0 x1) (k0_pay8 i)) := by
  unfold sout0_D_0
  rw [View.read_writes_eq_canon _ _ _ (scover0_D_0 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3)]
  unfold kernelRun0_D
  dsimp only
  sl_unfold_words
  first
    | rw [View.canon_unit_zero (S := S512x1) off00_eq_zero]
    | rw [View.canon_cons_unit_zero (S := S512x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

/-- The pieces case D leaves in scratch operand 1 cover it. -/
theorem scover0_D_1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) (y : S1x1.Idx) :
    ∃ pc ∈ (kernelRun0_D c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.1 S1x1.size (by sl_kernel_rfl) y

/-- What case D leaves in scratch operand 1: its pieces read back. -/
noncomputable def sout0_D_1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) : Vec F S1x1 .f32 :=
  VS0_1.read (Elt F) (VS0_1.writes (Elt F) VS0_1.junk (kernelRun0_D c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.1)

/-- It is the payload of the case's last store into it, over the blocks and the entry contents. -/
theorem sout0_D_1_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) :
    sout0_D_1 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3 = k0_pay11 (k0_pay7 x0 x1) (k0_pay8 i) x2 x3 xs1 := by
  unfold sout0_D_1
  rw [View.read_writes_eq_canon _ _ _ (scover0_D_1 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3)]
  unfold kernelRun0_D
  dsimp only
  sl_unfold_words
  first
    | rw [View.canon_unit_zero (S := S1x1) off00_eq_zero]
    | rw [View.canon_cons_unit_zero (S := S1x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

/-- The pieces case D leaves in scratch operand 2 cover it. -/
theorem scover0_D_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) (y : S1x1.Idx) :
    ∃ pc ∈ (kernelRun0_D c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.1 S1x1.size (by sl_kernel_rfl) y

/-- What case D leaves in scratch operand 2: its pieces read back. -/
noncomputable def sout0_D_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) : Vec F S1x1 .f32 :=
  VS0_2.read (Elt F) (VS0_2.writes (Elt F) VS0_2.junk (kernelRun0_D c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.1)

/-- It is the payload of the case's last store into it, over the blocks and the entry contents. -/
theorem sout0_D_2_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) :
    sout0_D_2 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3 = k0_pay2 xs2 (k0_pay1 xs0 (k0_pay13 (k0_pay7 x0 x1) (k0_pay8 i))) := by
  unfold sout0_D_2
  rw [View.read_writes_eq_canon _ _ _ (scover0_D_2 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3)]
  unfold kernelRun0_D
  dsimp only
  sl_unfold_words
  first
    | rw [View.canon_unit_zero (S := S1x1) off00_eq_zero]
    | rw [View.canon_cons_unit_zero (S := S1x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

/-- The pieces case D leaves in scratch operand 3 cover it. -/
theorem scover0_D_3 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) (y : S1x1.Idx) :
    ∃ pc ∈ (kernelRun0_D c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.2.val, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.2.val S1x1.size (by sl_kernel_rfl) y

/-- What case D leaves in scratch operand 3: its pieces read back. -/
noncomputable def sout0_D_3 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) : Vec F S1x1 .f32 :=
  VS0_3.read (Elt F) (VS0_3.writes (Elt F) VS0_3.junk (kernelRun0_D c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.2.val)

/-- It is the payload of the case's last store into it, over the blocks and the entry contents. -/
theorem sout0_D_3_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : ¬cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) :
    sout0_D_3 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3 = k0_pay12 (k0_pay8 i) x2 x3 xs3 := by
  unfold sout0_D_3
  rw [View.read_writes_eq_canon _ _ _ (scover0_D_3 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3)]
  unfold kernelRun0_D
  dsimp only
  sl_unfold_words
  first
    | rw [View.canon_unit_zero (S := S1x1) off00_eq_zero]
    | rw [View.canon_cons_unit_zero (S := S1x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

/-! ## Case E -/

/-- The pieces case E leaves in output 4's staging buffer cover it. -/
theorem cover0_E_4 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) (y : S1x1.Idx) :
    ∃ pc ∈ (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).1, y ∈ pc.1.set :=
  View.cover_of_tiledL (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).1 S1x1.size (by sl_kernel_rfl) y

/-- What case E leaves in output 4's staging buffer: its pieces read back. -/
noncomputable def out0_E_4 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) : Vec F S1x1 .f32 :=
  VO0_4.read (Elt F) (VO0_4.writes (Elt F) VO0_4.junk (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).1)

/-- It is the payload of the case's last store into it, over the blocks and the entry contents. -/
theorem out0_E_4_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) :
    out0_E_4 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3 = k0_pay11 (k0_pay7 x0 x1) (k0_pay8 i) x2 x3 xs1 := by
  unfold out0_E_4
  rw [View.read_writes_eq_canon _ _ _ (cover0_E_4 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3)]
  unfold kernelRun0_E
  dsimp only
  sl_unfold_words
  first
    | rw [View.canon_unit_zero (S := S1x1) off00_eq_zero]
    | rw [View.canon_cons_unit_zero (S := S1x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

/-- The pieces case E leaves in output 5's staging buffer cover it. -/
theorem cover0_E_5 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) (y : S1x1.Idx) :
    ∃ pc ∈ (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.1, y ∈ pc.1.set :=
  View.cover_of_tiledL (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.1 S1x1.size (by sl_kernel_rfl) y

/-- What case E leaves in output 5's staging buffer: its pieces read back. -/
noncomputable def out0_E_5 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) : Vec F S1x1 .f32 :=
  VO0_5.read (Elt F) (VO0_5.writes (Elt F) VO0_5.junk (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.1)

/-- It is the payload of the case's last store into it, over the blocks and the entry contents. -/
theorem out0_E_5_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) :
    out0_E_5 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3 = k0_pay2 xs2 (k0_pay1 xs0 (k0_pay13 (k0_pay7 x0 x1) (k0_pay8 i))) := by
  unfold out0_E_5
  rw [View.read_writes_eq_canon _ _ _ (cover0_E_5 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3)]
  unfold kernelRun0_E
  dsimp only
  sl_unfold_words
  first
    | rw [View.canon_unit_zero (S := S1x1) off00_eq_zero]
    | rw [View.canon_cons_unit_zero (S := S1x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

/-- The pieces case E leaves in output 6's staging buffer cover it. -/
theorem cover0_E_6 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) (y : S1x1.Idx) :
    ∃ pc ∈ (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.1, y ∈ pc.1.set :=
  View.cover_of_tiledL (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.1 S1x1.size (by sl_kernel_rfl) y

/-- What case E leaves in output 6's staging buffer: its pieces read back. -/
noncomputable def out0_E_6 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) : Vec F S1x1 .f32 :=
  VO0_6.read (Elt F) (VO0_6.writes (Elt F) VO0_6.junk (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.1)

/-- It is the payload of the case's last store into it, over the blocks and the entry contents. -/
theorem out0_E_6_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) :
    out0_E_6 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3 = k0_pay12 (k0_pay8 i) x2 x3 xs3 := by
  unfold out0_E_6
  rw [View.read_writes_eq_canon _ _ _ (cover0_E_6 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3)]
  unfold kernelRun0_E
  dsimp only
  sl_unfold_words
  first
    | rw [View.canon_unit_zero (S := S1x1) off00_eq_zero]
    | rw [View.canon_cons_unit_zero (S := S1x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

/-- The pieces case E leaves in scratch operand 0 cover it. -/
theorem scover0_E_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) (y : S512x1.Idx) :
    ∃ pc ∈ (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.2.1, y ∈ pc.1.set :=
  View.cover_of_tiledL (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.2.1 S512x1.size (by sl_kernel_rfl) y

/-- What case E leaves in scratch operand 0: its pieces read back. -/
noncomputable def sout0_E_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) : Vec F S512x1 .f32 :=
  VS0_0.read (Elt F) (VS0_0.writes (Elt F) VS0_0.junk (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.2.1)

/-- It is the payload of the case's last store into it, over the blocks and the entry contents. -/
theorem sout0_E_0_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) :
    sout0_E_0 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3 = k0_pay1 xs0 (k0_pay13 (k0_pay7 x0 x1) (k0_pay8 i)) := by
  unfold sout0_E_0
  rw [View.read_writes_eq_canon _ _ _ (scover0_E_0 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3)]
  unfold kernelRun0_E
  dsimp only
  sl_unfold_words
  first
    | rw [View.canon_unit_zero (S := S512x1) off00_eq_zero]
    | rw [View.canon_cons_unit_zero (S := S512x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

/-- The pieces case E leaves in scratch operand 1 cover it. -/
theorem scover0_E_1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) (y : S1x1.Idx) :
    ∃ pc ∈ (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.2.2.1, y ∈ pc.1.set :=
  View.cover_of_tiledL (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.2.2.1 S1x1.size (by sl_kernel_rfl) y

/-- What case E leaves in scratch operand 1: its pieces read back. -/
noncomputable def sout0_E_1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) : Vec F S1x1 .f32 :=
  VS0_1.read (Elt F) (VS0_1.writes (Elt F) VS0_1.junk (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.2.2.1)

/-- It is the payload of the case's last store into it, over the blocks and the entry contents. -/
theorem sout0_E_1_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) :
    sout0_E_1 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3 = k0_pay11 (k0_pay7 x0 x1) (k0_pay8 i) x2 x3 xs1 := by
  unfold sout0_E_1
  rw [View.read_writes_eq_canon _ _ _ (scover0_E_1 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3)]
  unfold kernelRun0_E
  dsimp only
  sl_unfold_words
  first
    | rw [View.canon_unit_zero (S := S1x1) off00_eq_zero]
    | rw [View.canon_cons_unit_zero (S := S1x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

/-- The pieces case E leaves in scratch operand 2 cover it. -/
theorem scover0_E_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) (y : S1x1.Idx) :
    ∃ pc ∈ (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.2.2.2.1, y ∈ pc.1.set :=
  View.cover_of_tiledL (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.2.2.2.1 S1x1.size (by sl_kernel_rfl) y

/-- What case E leaves in scratch operand 2: its pieces read back. -/
noncomputable def sout0_E_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) : Vec F S1x1 .f32 :=
  VS0_2.read (Elt F) (VS0_2.writes (Elt F) VS0_2.junk (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.2.2.2.1)

/-- It is the payload of the case's last store into it, over the blocks and the entry contents. -/
theorem sout0_E_2_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) :
    sout0_E_2 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3 = k0_pay2 xs2 (k0_pay1 xs0 (k0_pay13 (k0_pay7 x0 x1) (k0_pay8 i))) := by
  unfold sout0_E_2
  rw [View.read_writes_eq_canon _ _ _ (scover0_E_2 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3)]
  unfold kernelRun0_E
  dsimp only
  sl_unfold_words
  first
    | rw [View.canon_unit_zero (S := S1x1) off00_eq_zero]
    | rw [View.canon_cons_unit_zero (S := S1x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

/-- The pieces case E leaves in scratch operand 3 cover it. -/
theorem scover0_E_3 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) (y : S1x1.Idx) :
    ∃ pc ∈ (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.2.2.2.2.val, y ∈ pc.1.set :=
  View.cover_of_tiledL (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.2.2.2.2.val S1x1.size (by sl_kernel_rfl) y

/-- What case E leaves in scratch operand 3: its pieces read back. -/
noncomputable def sout0_E_3 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) : Vec F S1x1 .f32 :=
  VS0_3.read (Elt F) (VS0_3.writes (Elt F) VS0_3.junk (kernelRun0_E c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3).2.2.2.2.2.2.val)

/-- It is the payload of the case's last store into it, over the blocks and the entry contents. -/
theorem sout0_E_3_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc1 : ¬cond0_1 i) (hc2 : ¬cond0_2 i) (hc3 : cond0_3 i) (hc4 : cond0_4 i) (x0 : Vec F S512x512 .f32) (x1 : Vec F S512x512 .f32) (x2 : Vec F S512x1 .i32) (x3 : Vec F S1x512 .i32) (xs0 : Vec F S512x1 .f32) (xs1 : Vec F S1x1 .f32) (xs2 : Vec F S1x1 .f32) (xs3 : Vec F S1x1 .f32) :
    sout0_E_3 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3 = k0_pay12 (k0_pay8 i) x2 x3 xs3 := by
  unfold sout0_E_3
  rw [View.read_writes_eq_canon _ _ _ (scover0_E_3 c i arg2 harg2 arg3 harg3 arg4 harg4 arg5 harg5 arg6 harg6 arg7 harg7 arg8 harg8 arg9 harg9 arg10 harg10 arg11 harg11 arg12 harg12 hc1 hc2 hc3 hc4 x0 x1 x2 x3 xs0 xs1 xs2 xs3)]
  unfold kernelRun0_E
  dsimp only
  sl_unfold_words
  first
    | rw [View.canon_unit_zero (S := S1x1) off00_eq_zero]
    | rw [View.canon_cons_unit_zero (S := S1x1) off00_eq_zero]
  simp only [View.readAt_eq_ld, harg2.read_unread, harg3.read_unread, harg4.read_unread, harg5.read_unread, harg9.read_unread, harg10.read_unread, harg11.read_unread, harg12.read_unread, View.ld_unit_zero (S := S512x512) off00_eq_zero, View.ld_unit_zero (S := S512x1) off00_eq_zero, View.ld_unit_zero (S := S1x512) off00_eq_zero, View.ld_unit_zero (S := S1x1) off00_eq_zero, View.readCov_unit_zero (S := S512x1) _ off00_eq_zero, View.readCov_unit_zero (S := S1x1) _ off00_eq_zero]

end Cert.KernelIdeal.Hand

end
-- ==== Proof.KI.Data.lean ====
import proofs.«121591_j16836271800363_1_alg».proof.Proof.KI.Blocks
import proofs.«121591_j16836271800363_1_alg».proof.Proof.KI.Pieces

set_option maxRecDepth 16384
set_option pp.maxSteps 5000
set_option pp.deepTerms false

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The five control cases, from a point's position -/

theorem ca1 (t : Fin cfg0.N) (h : t.val = 0) : cond0_1 (grid0.coords t) := (hcond0_1 t).mpr h
theorem ca2 (t : Fin cfg0.N) (h : t.val = 0) : cond0_2 (grid0.coords t) := (hcond0_2 t).mpr (by omega)
theorem ca3 (t : Fin cfg0.N) (h : t.val = 0) : ¬cond0_3 (grid0.coords t) := fun hh => by have := (hcond0_3 t).mp hh; omega
theorem ca4 (t : Fin cfg0.N) (h : t.val = 0) : ¬cond0_4 (grid0.coords t) := fun hh => by have := (hcond0_4 t).mp hh; omega
theorem cb1 (t : Fin cfg0.N) (h : ¬t.val = 0) : ¬cond0_1 (grid0.coords t) := fun hh => h ((hcond0_1 t).mp hh)
theorem cb2 (t : Fin cfg0.N) (h : t.val % 8 = 0) : cond0_2 (grid0.coords t) := (hcond0_2 t).mpr h
theorem cb3 (t : Fin cfg0.N) (h : t.val % 8 = 0) : ¬cond0_3 (grid0.coords t) := fun hh => by have := (hcond0_3 t).mp hh; omega
theorem cb4 (t : Fin cfg0.N) (h : t.val % 8 = 0) : ¬cond0_4 (grid0.coords t) := fun hh => by have := (hcond0_4 t).mp hh; omega
theorem cc1 (t : Fin cfg0.N) (h : ¬t.val = 0) : ¬cond0_1 (grid0.coords t) := cb1 t h
theorem cc2 (t : Fin cfg0.N) (h : ¬t.val % 8 = 0) : ¬cond0_2 (grid0.coords t) := fun hh => h ((hcond0_2 t).mp hh)
theorem cc3 (t : Fin cfg0.N) (h : ¬t.val % 8 = 7) : ¬cond0_3 (grid0.coords t) := fun hh => h ((hcond0_3 t).mp hh)
theorem cc4 (t : Fin cfg0.N) (h : ¬t.val % 8 = 7) : ¬cond0_4 (grid0.coords t) := fun hh => by have := (hcond0_4 t).mp hh; omega
theorem cd1 (t : Fin cfg0.N) (h : t.val % 8 = 7) : ¬cond0_1 (grid0.coords t) := fun hh => by have := (hcond0_1 t).mp hh; omega
theorem cd2 (t : Fin cfg0.N) (h : t.val % 8 = 7) : ¬cond0_2 (grid0.coords t) := fun hh => by have := (hcond0_2 t).mp hh; omega
theorem cd3 (t : Fin cfg0.N) (h : t.val % 8 = 7) : cond0_3 (grid0.coords t) := (hcond0_3 t).mpr h
theorem cd4 (t : Fin cfg0.N) (h : ¬t.val = 63) : ¬cond0_4 (grid0.coords t) := fun hh => h ((hcond0_4 t).mp hh)
theorem ce1 (t : Fin cfg0.N) (h : t.val = 63) : ¬cond0_1 (grid0.coords t) := fun hh => by have := (hcond0_1 t).mp hh; omega
theorem ce2 (t : Fin cfg0.N) (h : t.val = 63) : ¬cond0_2 (grid0.coords t) := fun hh => by have := (hcond0_2 t).mp hh; omega
theorem ce3 (t : Fin cfg0.N) (h : t.val = 63) : cond0_3 (grid0.coords t) := (hcond0_3 t).mpr (by omega)
theorem ce4 (t : Fin cfg0.N) (h : t.val = 63) : cond0_4 (grid0.coords t) := (hcond0_4 t).mpr h

/-! ## What the outputs' staging buffers and the four scratch buffers hold after each point -/

/-- The three outputs' staging buffers and the four scratch buffers (the row accumulator and the three scalar
    accumulators), as contents. -/
structure St (F : FTy → Type) [FloatOps F] where
  o4 : Vec F S1x1 .f32
  o5 : Vec F S1x1 .f32
  o6 : Vec F S1x1 .f32
  s0 : Vec F S512x1 .f32
  s1 : Vec F S1x1 .f32
  s2 : Vec F S1x1 .f32
  s3 : Vec F S1x1 .f32

/-- One point: the control case the point's position selects, run at the point's memrefs and input blocks on what
    the point before left. A case that does not store a buffer leaves what it found. -/
def stepSt (c : Dev nD) (t : Fin cfg0.N) (p : St F) : St F :=
  if h0 : t.val = 0 then
    { o4 := p.o4, o5 := p.o5, o6 := p.o6,
      s0 := sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ca1 t h0) (ca2 t h0) (ca3 t h0) (ca4 t h0) (iblk m c 0 t) (iblk m c 1 t) (iblk m c 2 t) (iblk m c 3 t),
      s1 := sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ca1 t h0) (ca2 t h0) (ca3 t h0) (ca4 t h0) (iblk m c 0 t) (iblk m c 1 t) (iblk m c 2 t) (iblk m c 3 t),
      s2 := sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ca1 t h0) (ca2 t h0) (ca3 t h0) (ca4 t h0) (iblk m c 0 t) (iblk m c 1 t) (iblk m c 2 t) (iblk m c 3 t),
      s3 := sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ca1 t h0) (ca2 t h0) (ca3 t h0) (ca4 t h0) (iblk m c 0 t) (iblk m c 1 t) (iblk m c 2 t) (iblk m c 3 t) }
  else if h8 : t.val % 8 = 0 then
    { o4 := p.o4, o5 := p.o5, o6 := p.o6,
      s0 := sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cb1 t h0) (cb2 t h8) (cb3 t h8) (cb4 t h8) (iblk m c 0 t) (iblk m c 1 t) (iblk m c 2 t) (iblk m c 3 t) p.s1 p.s2 p.s3,
      s1 := sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cb1 t h0) (cb2 t h8) (cb3 t h8) (cb4 t h8) (iblk m c 0 t) (iblk m c 1 t) (iblk m c 2 t) (iblk m c 3 t) p.s1 p.s2 p.s3,
      s2 := p.s2,
      s3 := sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cb1 t h0) (cb2 t h8) (cb3 t h8) (cb4 t h8) (iblk m c 0 t) (iblk m c 1 t) (iblk m c 2 t) (iblk m c 3 t) p.s1 p.s2 p.s3 }
  else if h7 : t.val % 8 = 7 then
    if h63 : t.val = 63 then
      { o4 := out0_E_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ce1 t h63) (ce2 t h63) (ce3 t h63) (ce4 t h63) (iblk m c 0 t) (iblk m c 1 t) (iblk m c 2 t) (iblk m c 3 t) p.s0 p.s1 p.s2 p.s3,
        o5 := out0_E_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ce1 t h63) (ce2 t h63) (ce3 t h63) (ce4 t h63) (iblk m c 0 t) (iblk m c 1 t) (iblk m c 2 t) (iblk m c 3 t) p.s0 p.s1 p.s2 p.s3,
        o6 := out0_E_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ce1 t h63) (ce2 t h63) (ce3 t h63) (ce4 t h63) (iblk m c 0 t) (iblk m c 1 t) (iblk m c 2 t) (iblk m c 3 t) p.s0 p.s1 p.s2 p.s3,
        s0 := sout0_E_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ce1 t h63) (ce2 t h63) (ce3 t h63) (ce4 t h63) (iblk m c 0 t) (iblk m c 1 t) (iblk m c 2 t) (iblk m c 3 t) p.s0 p.s1 p.s2 p.s3,
        s1 := sout0_E_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ce1 t h63) (ce2 t h63) (ce3 t h63) (ce4 t h63) (iblk m c 0 t) (iblk m c 1 t) (iblk m c 2 t) (iblk m c 3 t) p.s0 p.s1 p.s2 p.s3,
        s2 := sout0_E_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ce1 t h63) (ce2 t h63) (ce3 t h63) (ce4 t h63) (iblk m c 0 t) (iblk m c 1 t) (iblk m c 2 t) (iblk m c 3 t) p.s0 p.s1 p.s2 p.s3,
        s3 := sout0_E_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ce1 t h63) (ce2 t h63) (ce3 t h63) (ce4 t h63) (iblk m c 0 t) (iblk m c 1 t) (iblk m c 2 t) (iblk m c 3 t) p.s0 p.s1 p.s2 p.s3 }
    else
      { o4 := p.o4, o5 := p.o5, o6 := p.o6,
        s0 := sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cd1 t h7) (cd2 t h7) (cd3 t h7) (cd4 t h63) (iblk m c 0 t) (iblk m c 1 t) (iblk m c 2 t) (iblk m c 3 t) p.s0 p.s1 p.s2 p.s3,
        s1 := sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cd1 t h7) (cd2 t h7) (cd3 t h7) (cd4 t h63) (iblk m c 0 t) (iblk m c 1 t) (iblk m c 2 t) (iblk m c 3 t) p.s0 p.s1 p.s2 p.s3,
        s2 := sout0_D_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cd1 t h7) (cd2 t h7) (cd3 t h7) (cd4 t h63) (iblk m c 0 t) (iblk m c 1 t) (iblk m c 2 t) (iblk m c 3 t) p.s0 p.s1 p.s2 p.s3,
        s3 := sout0_D_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cd1 t h7) (cd2 t h7) (cd3 t h7) (cd4 t h63) (iblk m c 0 t) (iblk m c 1 t) (iblk m c 2 t) (iblk m c 3 t) p.s0 p.s1 p.s2 p.s3 }
  else
    { o4 := p.o4, o5 := p.o5, o6 := p.o6,
      s0 := sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cc1 t h0) (cc2 t h8) (cc3 t h7) (cc4 t h7) (iblk m c 0 t) (iblk m c 1 t) (iblk m c 2 t) (iblk m c 3 t) p.s0 p.s1 p.s2 p.s3,
      s1 := sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cc1 t h0) (cc2 t h8) (cc3 t h7) (cc4 t h7) (iblk m c 0 t) (iblk m c 1 t) (iblk m c 2 t) (iblk m c 3 t) p.s0 p.s1 p.s2 p.s3,
      s2 := p.s2,
      s3 := sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cc1 t h0) (cc2 t h8) (cc3 t h7) (cc4 t h7) (iblk m c 0 t) (iblk m c 1 t) (iblk m c 2 t) (iblk m c 3 t) p.s0 p.s1 p.s2 p.s3 }

/-- Contents nothing reads: what the first point is handed (it resets every accumulator). -/
def junkSt : St F where
  o4 := VO0_4.read (Elt F) VO0_4.junk
  o5 := VO0_5.read (Elt F) VO0_5.junk
  o6 := VO0_6.read (Elt F) VO0_6.junk
  s0 := VS0_0.read (Elt F) VS0_0.junk
  s1 := VS0_1.read (Elt F) VS0_1.junk
  s2 := VS0_2.read (Elt F) VS0_2.junk
  s3 := VS0_3.read (Elt F) VS0_3.junk

/-- THE ACCUMULATION: the buffers after the body at position `n`, by recursion on the point. -/
def outsAt (c : Dev nD) : (n : ℕ) → n < cfg0.N → St F
  | 0, hn => stepSt m c ⟨0, hn⟩ junkSt
  | n + 1, hn => stepSt m c ⟨n + 1, hn⟩ (outsAt c n (Nat.lt_of_succ_lt hn))

theorem outsAt_pos (c : Dev nD) (t : Fin cfg0.N) (ht : t.val ≠ 0) :
    outsAt m c t.val t.isLt = stepSt m c t (outsAt m c (t.val - 1) (Nat.lt_of_le_of_lt (Nat.sub_le _ _) t.isLt)) := by
  obtain ⟨n, hn⟩ := t
  cases n with
  | zero => exact absurd rfl ht
  | succ n => rfl

theorem outsAt_zero (c : Dev nD) (t : Fin cfg0.N) (ht : t.val = 0) :
    outsAt m c t.val t.isLt = stepSt m c t junkSt := by
  obtain ⟨n, hn⟩ := t
  cases n with
  | zero => rfl
  | succ n => exact absurd ht (Nat.succ_ne_zero n)

/-! ## The region invariant and the proof data -/

/-- The region invariant before position `n`: before the first point every scratch buffer at anything; afterwards each
    of the four at what the point before left in it. The generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt m c n hn).s0) ∗ owns (c : Thread nD τ) scM0_1 fullShare ((outsAt m c n hn).s1) ∗ owns (c : Thread nD τ) scM0_2 fullShare ((outsAt m c n hn).s2) ∗ owns (c : Thread nD τ) scM0_3 fullShare ((outsAt m c n hn).s3)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt m c n hn).s0) ∗ owns (c : Thread nD τ) scM0_1 fullShare ((outsAt m c n hn).s1) ∗ owns (c : Thread nD τ) scM0_2 fullShare ((outsAt m c n hn).s2) ∗ owns (c : Thread nD τ) scM0_3 fullShare ((outsAt m c n hn).s3)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt m c (n - 1) (by omega)).s0) ∗ owns (c : Thread nD τ) scM0_1 fullShare ((outsAt m c (n - 1) (by omega)).s1) ∗ owns (c : Thread nD τ) scM0_2 fullShare ((outsAt m c (n - 1) (by omega)).s2) ∗ owns (c : Thread nD τ) scM0_3 fullShare ((outsAt m c (n - 1) (by omega)).s3)) ∗ (∃ r, prngReg c r)) := by
  cases n with
  | zero => exact absurd rfl hz
  | succ n => rfl

/-- The proof data of the pipeline on core `c`: the arrays as the region finds them; after the body at point `t` each
    input's buffer at its block and the three outputs' at the accumulation's components; the invariant `PhiS`; the two
    windows on `main_arg0` at the two halves of its share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).o4
    | ⟨5, _⟩ => (outsAt m c t.val t.isLt).o5
    | ⟨6, _⟩ => (outsAt m c t.val t.isLt).o6
    | ⟨_ + 7, h⟩ => absurd h (Nat.not_lt.2 (Nat.le_add_left _ _))
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨_ + 7, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt m c t.val t.isLt).o4 := by dsimp only [dats]
theorem after0_5 (c : Dev nD) (t : Fin cfg0.N) : (dats m 0 c).after 5 t = (outsAt m c t.val t.isLt).o5 := by dsimp only [dats]
theorem after0_6 (c : Dev nD) (t : Fin cfg0.N) : (dats m 0 c).after 6 t = (outsAt m c t.val t.isLt).o6 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem q0 (c : Dev nD) : (dats m 0 c).q 0 = fullShare.left := by dsimp only [dats]
theorem q1 (c : Dev nD) : (dats m 0 c).q 1 = fullShare.right := by dsimp only [dats]
theorem q2 (c : Dev nD) : (dats m 0 c).q 2 = fullShare := by dsimp only [dats]
theorem q3 (c : Dev nD) : (dats m 0 c).q 3 = fullShare := by dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

set_option maxHeartbeats 4800000 in
/-- The body at any point: the inputs' memrefs hold their blocks; the point's position says which control case it is in;
    that case's run applies, handed the four scratch buffers at what the point before left (at anything at the first
    point) and taking them back at this point's contents; an output the case does not store is handed back untouched;
    the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  have hN : t.val < 64 := lt_of_lt_of_eq t.isLt (show cfg0.N = 64 from N_0)
  by_cases h0 : t.val = 0
  · -- the first point: every accumulator is reset
    rw [Dat.leavesExact_idle (dats m 0 c) 4 t (idleAt0_4 t (ca4 t h0)) (noFlush0_4 t (ca4 t h0)),
      Dat.leavesExact_idle (dats m 0 c) 5 t (idleAt0_5 t (ca4 t h0)) (noFlush0_5 t (ca4 t h0)),
      Dat.leavesExact_idle (dats m 0 c) 6 t (idleAt0_6 t (ca4 t h0)) (noFlush0_6 t (ca4 t h0))]
    rw [outsAt_zero m c t h0]
    simp only [stepSt, dif_pos h0]
    unfold sout0_A_0 sout0_A_1 sout0_A_2 sout0_A_3
    rw [PhiS_castSucc m c t, PhiS_zero m c _ _ h0, PhiA0_eq]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ca1 t h0) (ca2 t h0) (ca3 t h0) (ca4 t h0) (iblk m c 0 t) (iblk m c 1 t) (iblk m c 2 t) (iblk m c 3 t)).2.2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, ⟨%es0, HS0⟩, ⟨%es1, HS1⟩, ⟨%es2, HS2⟩, ⟨%es3, HS3⟩⟩
    isplitl [HS0 HS1 HS2 HS3 Hg]
    · isplitr [Hg]
      · isplitl [HS0]
        · unfold owns; iexists _; isplitr
          swap; · iexact HS0
          ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ca1 t h0) (ca2 t h0) (ca3 t h0) (ca4 t h0) (iblk m c 0 t) (iblk m c 1 t) (iblk m c 2 t) (iblk m c 3 t))
        isplitl [HS1]
        · unfold owns; iexists _; isplitr
          swap; · iexact HS1
          ipureintro; exact View.read_writes_of_cover _ _ _ _ _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ca1 t h0) (ca2 t h0) (ca3 t h0) (ca4 t h0) (iblk m c 0 t) (iblk m c 1 t) (iblk m c 2 t) (iblk m c 3 t))
        isplitl [HS2]
        · unfold owns; iexists _; isplitr
          swap; · iexact HS2
          ipureintro; exact View.read_writes_of_cover _ _ _ _ _ (scover0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ca1 t h0) (ca2 t h0) (ca3 t h0) (ca4 t h0) (iblk m c 0 t) (iblk m c 1 t) (iblk m c 2 t) (iblk m c 3 t))
        unfold owns; iexists _; isplitr
        swap; · iexact HS3
        ipureintro; exact View.read_writes_of_cover _ _ _ _ _ (scover0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ca1 t h0) (ca2 t h0) (ca3 t h0) (ca4 t h0) (iblk m c 0 t) (iblk m c 1 t) (iblk m c 2 t) (iblk m c 3 t))
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    iexists _; iexact H6
  by_cases h8 : t.val % 8 = 0
  · -- the first point of a later row of blocks: the row accumulator is reset
    rw [Dat.leavesExact_idle (dats m 0 c) 4 t (idleAt0_4 t (cb4 t h8)) (noFlush0_4 t (cb4 t h8)),
      Dat.leavesExact_idle (dats m 0 c) 5 t (idleAt0_5 t (cb4 t h8)) (noFlush0_5 t (cb4 t h8)),
      Dat.leavesExact_idle (dats m 0 c) 6 t (idleAt0_6 t (cb4 t h8)) (noFlush0_6 t (cb4 t h8))]
    rw [outsAt_pos m c t h0]
    simp only [stepSt, dif_neg h0, dif_pos h8]
    unfold sout0_B_0 sout0_B_1 sout0_B_3
    rw [PhiS_castSucc m c t, PhiS_pos m c _ _ h0]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cb1 t h0) (cb2 t h8) (cb3 t h8) (cb4 t h8) (iblk m c 0 t) (iblk m c 1 t) (iblk m c 2 t) (iblk m c 3 t) _ _ _).2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexists _; iexact HS0
    isplitl [HS1]; · iexact HS1
    isplitl [HS2]; · iexact HS2
    isplitl [HS3]; · iexact HS3
    iintro ⟨H0, H1, H2, H3, H4, H5, H6, ⟨%es0, HS0⟩, ⟨%es1, HS1⟩, HS2, ⟨%es3, HS3⟩⟩
    isplitl [HS0 HS1 HS2 HS3 Hg]
    · isplitr [Hg]
      · isplitl [HS0]
        · unfold owns; iexists _; isplitr
          swap; · iexact HS0
          ipureintro; exact View.read_writes_of_cover _ _ _ _ _ (scover0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cb1 t h0) (cb2 t h8) (cb3 t h8) (cb4 t h8) (iblk m c 0 t) (iblk m c 1 t) (iblk m c 2 t) (iblk m c 3 t) _ _ _)
        isplitl [HS1]
        · unfold owns; iexists _; isplitr
          swap; · iexact HS1
          ipureintro; exact View.read_writes_of_cover _ _ _ _ _ (scover0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cb1 t h0) (cb2 t h8) (cb3 t h8) (cb4 t h8) (iblk m c 0 t) (iblk m c 1 t) (iblk m c 2 t) (iblk m c 3 t) _ _ _)
        isplitl [HS2]
        · iexact HS2
        unfold owns; iexists _; isplitr
        swap; · iexact HS3
        ipureintro; exact View.read_writes_of_cover _ _ _ _ _ (scover0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cb1 t h0) (cb2 t h8) (cb3 t h8) (cb4 t h8) (iblk m c 0 t) (iblk m c 1 t) (iblk m c 2 t) (iblk m c 3 t) _ _ _)
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    iexists _; iexact H6
  by_cases h7 : t.val % 8 = 7
  · by_cases h63 : t.val = 63
    · -- the last point: the row's logarithms are added and the three results are stored
      rw [show (dats m 0 c).leavesExact 4 t = owns (c : Thread nD τ) (ms0_4 t) fullShare ((dats m 0 c).after 4 t) from by
        unfold Dat.leavesExact; rw [liveAt0_4_E t (ce4 t h63)], after0_4]
      rw [show (dats m 0 c).leavesExact 5 t = owns (c : Thread nD τ) (ms0_5 t) fullShare ((dats m 0 c).after 5 t) from by
        unfold Dat.leavesExact; rw [liveAt0_5_E t (ce4 t h63)], after0_5]
      rw [show (dats m 0 c).leavesExact 6 t = owns (c : Thread nD τ) (ms0_6 t) fullShare ((dats m 0 c).after 6 t) from by
        unfold Dat.leavesExact; rw [liveAt0_6_E t (ce4 t h63)], after0_6]
      rw [outsAt_pos m c t h0]
      simp only [stepSt, dif_neg h0, dif_neg h8, dif_pos h7, dif_pos h63]
      unfold sout0_E_0 sout0_E_1 sout0_E_2 sout0_E_3 out0_E_4 out0_E_5 out0_E_6
      rw [PhiS_castSucc m c t, PhiS_pos m c _ _ h0]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_E c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ce1 t h63) (ce2 t h63) (ce3 t h63) (ce4 t h63) (iblk m c 0 t) (iblk m c 1 t) (iblk m c 2 t) (iblk m c 3 t) _ _ _ _).2.2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      isplitl [HS3]; · iexact HS3
      iintro ⟨H0, H1, H2, H3, ⟨%e4, H4⟩, ⟨%e5, H5⟩, ⟨%e6, H6⟩, ⟨%es0, HS0⟩, ⟨%es1, HS1⟩, ⟨%es2, HS2⟩, ⟨%es3, HS3⟩⟩
      isplitl [HS0 HS1 HS2 HS3 Hg]
      · isplitr [Hg]
        · isplitl [HS0]
          · unfold owns; iexists _; isplitr
            swap; · iexact HS0
            ipureintro; exact View.read_writes_of_cover _ _ _ _ _ (scover0_E_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ce1 t h63) (ce2 t h63) (ce3 t h63) (ce4 t h63) (iblk m c 0 t) (iblk m c 1 t) (iblk m c 2 t) (iblk m c 3 t) _ _ _ _)
          isplitl [HS1]
          · unfold owns; iexists _; isplitr
            swap; · iexact HS1
            ipureintro; exact View.read_writes_of_cover _ _ _ _ _ (scover0_E_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ce1 t h63) (ce2 t h63) (ce3 t h63) (ce4 t h63) (iblk m c 0 t) (iblk m c 1 t) (iblk m c 2 t) (iblk m c 3 t) _ _ _ _)
          isplitl [HS2]
          · unfold owns; iexists _; isplitr
            swap; · iexact HS2
            ipureintro; exact View.read_writes_of_cover _ _ _ _ _ (scover0_E_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ce1 t h63) (ce2 t h63) (ce3 t h63) (ce4 t h63) (iblk m c 0 t) (iblk m c 1 t) (iblk m c 2 t) (iblk m c 3 t) _ _ _ _)
          unfold owns; iexists _; isplitr
          swap; · iexact HS3
          ipureintro; exact View.read_writes_of_cover _ _ _ _ _ (scover0_E_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ce1 t h63) (ce2 t h63) (ce3 t h63) (ce4 t h63) (iblk m c 0 t) (iblk m c 1 t) (iblk m c 2 t) (iblk m c 3 t) _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_E_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ce1 t h63) (ce2 t h63) (ce3 t h63) (ce4 t h63) (iblk m c 0 t) (iblk m c 1 t) (iblk m c 2 t) (iblk m c 3 t) _ _ _ _)
      isplitl [H5]
      · unfold owns; iexists _; isplitr
        swap; · iexact H5
        ipureintro; exact View.read_writes_of_cover _ _ _ _ _ (cover0_E_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ce1 t h63) (ce2 t h63) (ce3 t h63) (ce4 t h63) (iblk m c 0 t) (iblk m c 1 t) (iblk m c 2 t) (iblk m c 3 t) _ _ _ _)
      unfold owns; iexists _; isplitr
      swap; · iexact H6
      ipureintro; exact View.read_writes_of_cover _ _ _ _ _ (cover0_E_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (ce1 t h63) (ce2 t h63) (ce3 t h63) (ce4 t h63) (iblk m c 0 t) (iblk m c 1 t) (iblk m c 2 t) (iblk m c 3 t) _ _ _ _)
    · -- the last point of a row of blocks: the row's logarithms are added
      rw [Dat.leavesExact_idle (dats m 0 c) 4 t (idleAt0_4 t (cd4 t h63)) (noFlush0_4 t (cd4 t h63)),
        Dat.leavesExact_idle (dats m 0 c) 5 t (idleAt0_5 t (cd4 t h63)) (noFlush0_5 t (cd4 t h63)),
        Dat.leavesExact_idle (dats m 0 c) 6 t (idleAt0_6 t (cd4 t h63)) (noFlush0_6 t (cd4 t h63))]
      rw [outsAt_pos m c t h0]
      simp only [stepSt, dif_neg h0, dif_neg h8, dif_pos h7, dif_neg h63]
      unfold sout0_D_0 sout0_D_1 sout0_D_2 sout0_D_3
      rw [PhiS_castSucc m c t, PhiS_pos m c _ _ h0]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cd1 t h7) (cd2 t h7) (cd3 t h7) (cd4 t h63) (iblk m c 0 t) (iblk m c 1 t) (iblk m c 2 t) (iblk m c 3 t) _ _ _ _).2.2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, ⟨%es0, HS0⟩, ⟨%es1, HS1⟩, ⟨%es2, HS2⟩, ⟨%es3, HS3⟩⟩
      isplitl [HS0 HS1 HS2 HS3 Hg]
      · isplitr [Hg]
        · isplitl [HS0]
          · unfold owns; iexists _; isplitr
            swap; · iexact HS0
            ipureintro; exact View.read_writes_of_cover _ _ _ _ _ (scover0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cd1 t h7) (cd2 t h7) (cd3 t h7) (cd4 t h63) (iblk m c 0 t) (iblk m c 1 t) (iblk m c 2 t) (iblk m c 3 t) _ _ _ _)
          isplitl [HS1]
          · unfold owns; iexists _; isplitr
            swap; · iexact HS1
            ipureintro; exact View.read_writes_of_cover _ _ _ _ _ (scover0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cd1 t h7) (cd2 t h7) (cd3 t h7) (cd4 t h63) (iblk m c 0 t) (iblk m c 1 t) (iblk m c 2 t) (iblk m c 3 t) _ _ _ _)
          isplitl [HS2]
          · unfold owns; iexists _; isplitr
            swap; · iexact HS2
            ipureintro; exact View.read_writes_of_cover _ _ _ _ _ (scover0_D_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cd1 t h7) (cd2 t h7) (cd3 t h7) (cd4 t h63) (iblk m c 0 t) (iblk m c 1 t) (iblk m c 2 t) (iblk m c 3 t) _ _ _ _)
          unfold owns; iexists _; isplitr
          swap; · iexact HS3
          ipureintro; exact View.read_writes_of_cover _ _ _ _ _ (scover0_D_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cd1 t h7) (cd2 t h7) (cd3 t h7) (cd4 t h63) (iblk m c 0 t) (iblk m c 1 t) (iblk m c 2 t) (iblk m c 3 t) _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6
  · -- a point inside a row of blocks
    rw [Dat.leavesExact_idle (dats m 0 c) 4 t (idleAt0_4 t (cc4 t h7)) (noFlush0_4 t (cc4 t h7)),
      Dat.leavesExact_idle (dats m 0 c) 5 t (idleAt0_5 t (cc4 t h7)) (noFlush0_5 t (cc4 t h7)),
      Dat.leavesExact_idle (dats m 0 c) 6 t (idleAt0_6 t (cc4 t h7)) (noFlush0_6 t (cc4 t h7))]
    rw [outsAt_pos m c t h0]
    simp only [stepSt, dif_neg h0, dif_neg h8, dif_neg h7]
    unfold sout0_C_0 sout0_C_1 sout0_C_3
    rw [PhiS_castSucc m c t, PhiS_pos m c _ _ h0]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cc1 t h0) (cc2 t h8) (cc3 t h7) (cc4 t h7) (iblk m c 0 t) (iblk m c 1 t) (iblk m c 2 t) (iblk m c 3 t) _ _ _ _).2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, ⟨%es0, HS0⟩, ⟨%es1, HS1⟩, HS2, ⟨%es3, HS3⟩⟩
    isplitl [HS0 HS1 HS2 HS3 Hg]
    · isplitr [Hg]
      · isplitl [HS0]
        · unfold owns; iexists _; isplitr
          swap; · iexact HS0
          ipureintro; exact View.read_writes_of_cover _ _ _ _ _ (scover0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cc1 t h0) (cc2 t h8) (cc3 t h7) (cc4 t h7) (iblk m c 0 t) (iblk m c 1 t) (iblk m c 2 t) (iblk m c 3 t) _ _ _ _)
        isplitl [HS1]
        · unfold owns; iexists _; isplitr
          swap; · iexact HS1
          ipureintro; exact View.read_writes_of_cover _ _ _ _ _ (scover0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cc1 t h0) (cc2 t h8) (cc3 t h7) (cc4 t h7) (iblk m c 0 t) (iblk m c 1 t) (iblk m c 2 t) (iblk m c 3 t) _ _ _ _)
        isplitl [HS2]
        · iexact HS2
        unfold owns; iexists _; isplitr
        swap; · iexact HS3
        ipureintro; exact View.read_writes_of_cover _ _ _ _ _ (scover0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (cc1 t h0) (cc2 t h8) (cc3 t h7) (cc4 t h7) (iblk m c 0 t) (iblk m c 1 t) (iblk m c 2 t) (iblk m c 3 t) _ _ _ _)
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the scratch buffers back at anything. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitr [Hg]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

/-- Every weakly fair execution of @main terminates, each array of the pipeline ending at what the proof data compute and
    every other unscoped buffer as the lines after the region leave it. -/
theorem run_main : θ_run defs (onTc (τ := τ) (main (F := F))) (s₀ m ρ)
    (Pipeline.FramePost cfgs (dats m) 0 (Pipeline.afterTail₀ cfgs (dats m) 0 (V0 m) [hostOps1])) :=
  run_main_of m ρ (dats m) (fun c => (body_obligation m c).loose) (q0 m) (q1 m) (q2 m) (q3 m) (fun _ _ => rfl) (A_eq m) (hin m) (hout m)

/-- THE FRAME, at any `F`: the program runs to the end, faults nowhere, and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.Spec.lean ====
/-
  The supervised-contrastive loss as a function of the two argument arrays, index by index.

  For a feature array `x` (4096 rows of 512 extended reals) and a label array `l` (4096 words):
  the clamped row norm `nrm`, the normalised rows `xn`, the cosine similarities `sim`, the
  identity matrix `eye`, the label-agreement matrix `same`, the positive-pair mask
  `lab = same - eye`, and the row divisor `dv` (the sum over a row of `exp (sim - eye)`).
  Two arrangements of the loss are stated over them: `Kval` sums `lab * sim` and the logarithms of
  the divisors separately; `Rval` sums `log (exp (lab * sim) / divisor)` entry by entry, the
  divisor taken at the column index.
-/
import Idealize.ShloMosaic.PureOps.Ideal
import Idealize.ShloMosaic.PureOps.Ideal.Laws
import Idealize.ShloMosaic.Lib.ValueIdx

noncomputable section

open scoped BigOperators
open Idealize.ShloMosaic

namespace Cert.SupCon

/-- The lower clamp of a row norm (a positive real, a little under 1e-8). -/
abbrev eps : EReal := Ideal.ofBits .f32 0x322BCC77#32
/-- The temperature, 1. -/
abbrev one : EReal := Ideal.ofBits .f32 0x3F800000#32
/-- The number of rows, 4096, as a float. -/
abbrev c4096 : EReal := Ideal.ofBits .f32 0x45800000#32

/-- The row norm, clamped below by `eps`. -/
def nrm (x : Fin 4096 → Fin 512 → EReal) (a : Fin 4096) : EReal :=
  max (Ideal.sqrt (∑ d : Fin 512, x a d * x a d)) eps

/-- A row divided by its clamped norm. -/
def xn (x : Fin 4096 → Fin 512 → EReal) (a : Fin 4096) (d : Fin 512) : EReal :=
  Ideal.div (x a d) (nrm x a)

/-- The cosine similarity of rows `a` and `b`. -/
def sim (x : Fin 4096 → Fin 512 → EReal) (a b : Fin 4096) : EReal :=
  ∑ d : Fin 512, xn x a d * xn x b d

/-- The identity matrix. -/
def eye (a b : Fin 4096) : EReal := if a = b then 1 else 0

/-- 1 where two rows carry the same label, else 0. -/
def same (l : Fin 4096 → BitVec 32) (a b : Fin 4096) : EReal := if l a = l b then 1 else 0

/-- The positive-pair mask: same label, the diagonal removed. -/
def lab (l : Fin 4096 → BitVec 32) (a b : Fin 4096) : EReal := same l a b - eye a b

/-- The divisor of row `a`, each term `exp (sim / 1 - eye / 1)`. -/
def dv (x : Fin 4096 → Fin 512 → EReal) (a : Fin 4096) : EReal :=
  ∑ b : Fin 4096, Ideal.exp (Ideal.div (sim x a b) one - Ideal.div (eye a b) one)

/-- The same divisor with the subtraction made before the division, `exp ((sim - eye) / 1)`. -/
def dvR (x : Fin 4096 → Fin 512 → EReal) (b : Fin 4096) : EReal :=
  ∑ c : Fin 4096, Ideal.exp (Ideal.div (sim x b c - eye b c) one)

/-- The sum over all pairs of `lab * (sim / 1)`. -/
def Aval (x : Fin 4096 → Fin 512 → EReal) (l : Fin 4096 → BitVec 32) : EReal :=
  ∑ a : Fin 4096, ∑ b : Fin 4096, lab l a b * Ideal.div (sim x a b) one

/-- The number of positive pairs. -/
def Lval (l : Fin 4096 → BitVec 32) : EReal := ∑ a : Fin 4096, ∑ b : Fin 4096, lab l a b

/-- The sum over the rows of the logarithm of the row's divisor. -/
def Bval (x : Fin 4096 → Fin 512 → EReal) : EReal := ∑ a : Fin 4096, Ideal.log (dv x a)

/-- The loss with the two sums kept apart: `-(A - 4096 * B) / L`. -/
def Kval (x : Fin 4096 → Fin 512 → EReal) (l : Fin 4096 → BitVec 32) : EReal :=
  Ideal.div (-(Aval x l - c4096 * Bval x)) (Lval l)

/-- The loss entry by entry: `-(∑ log (exp (lab * sim / 1) / divisor of the column)) / L`. -/
def Rval (x : Fin 4096 → Fin 512 → EReal) (l : Fin 4096 → BitVec 32) : EReal :=
  Ideal.div
    (-(∑ a : Fin 4096, ∑ b : Fin 4096,
        Ideal.log (Ideal.div (Ideal.exp (Ideal.div (lab l a b * sim x a b) one)) (dvR x b))))
    (Lval l)

end Cert.SupCon

end
-- ==== Proof.KI.PayValue.lean ====
/-
  One grid point of the loss kernel, value by value.

  The 8 × 8 grid walks the 4096 × 4096 pair matrix in 512 × 512 blocks: at point (i, k) the body holds
  rows 512 i … 512 i + 511 and rows 512 k … 512 k + 511 of the feature array and the labels of the same
  rows. Each value the body stores is read here as a function of those blocks: the similarity block is
  `sim` at the rows `rowOf i p`, `rowOf k q`; the identity block compares the offset row and column
  numbers as 32-bit words, which agree exactly when the rows do because nothing wraps below 4096; the
  mask block is `lab`; and the three accumulations add, to what was there, the block's sum of
  `lab * (sim / 1)` (`stepA`), its count of positive pairs (`stepL`), and, row by row, its share of
  the row's divisor (`stepD`). At the end of a row of blocks the logarithms of the finished divisor
  column are summed into the fourth accumulator.
-/
import proofs.«121591_j16836271800363_1_alg».proof.Proof.Gen.KernelIdeal.Skeleton
import proofs.«121591_j16836271800363_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost

noncomputable section

open scoped BigOperators

namespace Cert.KernelIdeal.PayValue

open Cert.KernelIdeal Cert.KernelIdeal.Gen Cert.SupCon Idealize.ShloMosaic Idealize.ShloMosaic.ValueIdx

/-! ## Small index sets -/

/-- A shape whose extents are all 1 has one index. -/
instance : Subsingleton S1x1.Idx := ⟨fun a b => by
  rw [eq_ix2 a, eq_ix2 b]
  exact congrArg₂ ix2 (Subsingleton.elim (α := Fin 1) _ _) (Subsingleton.elim (α := Fin 1) _ _)⟩
instance : Subsingleton S1.Idx := ⟨fun a b => by
  rw [eq_ix1 a, eq_ix1 b]
  exact congrArg ix1 (Subsingleton.elim (α := Fin 1) _ _)⟩

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The float zero word is the extended real 0. -/
theorem zero_word : Ideal.ofBits .f32 0x00000000#32 = 0 := Ideal.ofBits_zero_f32

/-! ## Sums from the zero word -/

/-- A sum over every axis but unit ones is the sum over every index. -/
theorem mr_total {s t : Shape} {axes : List (Fin s.rank)} (src : FVec Ideal s .f32) (h : s.Reduces axes t)
    (ht : ∀ b, t.size b = 1) (hφ : FKind.Formats .f32) (hacc : (0x00000000#32 : BitVec 32) = 0x00000000#32)
    (j : t.Idx) : multiReduction .add axes t src 0x00000000#32 h hφ hacc j = ∑ i : s.Idx, src i :=
  Ideal.multiReduction_add_total src _ h ht hφ hacc j

/-- A sum over one axis is the sum over that axis's coordinates. -/
theorem mr_single {s t : Shape} {a : Fin s.rank} (src : FVec Ideal s .f32) (h : s.Reduces [a] t)
    (hφ : FKind.Formats .f32) (hacc : (0x00000000#32 : BitVec 32) = 0x00000000#32) (j : t.Idx) :
    multiReduction .add [a] t src 0x00000000#32 h hφ hacc j = ∑ k : Fin (s.size a), src (h.lift j k) :=
  Ideal.multiReduction_add_single src _ h hφ hacc j

/-! ## The stored values -/

/-- The divisor accumulator after a grid point: the old column plus the point's row sums. -/
theorem pay1_eq (v74 : Vec Ideal S512x1 .f32) (v78 : FVec Ideal S512x1 .f32) :
    k0_pay1 v74 v78 = fun j => v74 j + v78 j := by
  unfold k0_pay1
  exact shapeCast_self _ _

theorem pay1_at (v74 : Vec Ideal S512x1 .f32) (v78 : FVec Ideal S512x1 .f32) (p : Fin 512) :
    k0_pay1 v74 v78 (ix2 p 0) = v74 (ix2 p 0) + v78 (ix2 p 0) := by
  rw [pay1_eq]

/-- A total of a one-entry vector added into a one-entry accumulator. -/
theorem acc_1x1 (acc : Vec Ideal S1x1 .f32) (v : FVec Ideal S1 .f32) (h1 : S1.ShapeCasts S1x1x1)
    (h2 : ∀ a, (![0, 0, 0] : Fin 3 → Nat) a < S1x1x1.size a) (h3 : S1x1.ShapeCasts S1x1) :
    shapeCast S1x1 (addf acc (broadcast S1x1 (extractAt ![0, 0, 0] (shapeCast S1x1x1 v h1) h2))) h3
      = fun _ => acc (ix2 0 0) + v (ix1 0) := by
  rw [shapeCast_self]
  funext j
  show acc j + v _ = acc (ix2 0 0) + v (ix1 0)
  rw [Subsingleton.elim j (ix2 0 0)]
  exact congrArg (acc (ix2 0 0) + v ·) (Subsingleton.elim _ _)

/-- The logarithm accumulator at a row's last point: the old value plus the sum of the logarithms
    of the divisor column. -/
theorem pay2_eq (v91 : Vec Ideal S1x1 .f32) (v92 : Vec Ideal S512x1 .f32) :
    k0_pay2 v91 v92 = fun _ => v91 (ix2 0 0) + ∑ p : Fin 512, Ideal.log (v92 (ix2 p 0)) := by
  unfold k0_pay2
  refine (acc_1x1 v91 _ _ _ _).trans ?_
  funext _
  refine congrArg (v91 (ix2 0 0) + ·) ?_
  refine (mr_total _ reduces_S1x512x1_S1 (by decide) _ _ _).trans ?_
  rw [sum_idx3, Fin.sum_univ_one]
  refine Finset.sum_congr rfl fun p _ => ?_
  rw [Fin.sum_univ_one]
  refine (shapeCast_apply _ shapeCasts_S512x1_S1x512x1 (ix3 0 p 0) (ix2 p 0) ?_).trans rfl
  rw [Shape.rowMajor_val_three, Shape.rowMajor_val_two]
  show p.val * 1 + 0 = (0 * 512 + p.val) * 1 + 0
  omega

theorem pay3_eq : k0_pay3 (F := Ideal) = fun _ => 0 := by
  unfold k0_pay3
  exact (shapeCast_self _ _).trans (funext fun _ => zero_word)

theorem pay4_eq : k0_pay4 (F := Ideal) = fun _ => 0 := by
  unfold k0_pay4
  exact (shapeCast_self _ _).trans (funext fun _ => zero_word)

theorem pay5_eq : k0_pay5 (F := Ideal) = fun _ => 0 := by
  unfold k0_pay5
  exact (shapeCast_self _ _).trans (funext fun _ => zero_word)

theorem pay6_eq : k0_pay6 (F := Ideal) = fun _ => 0 := by
  unfold k0_pay6
  exact (shapeCast_self _ _).trans (funext fun _ => zero_word)

/-- Division by the temperature, entry by entry. -/
theorem pay10_eq (v27 : FVec Ideal S512x512 .f32) :
    k0_pay10 v27 = fun j => Ideal.div (v27 j) one := rfl

/-! ## Rows of the whole array inside a block -/

/-- Row `p` of block `i`. -/
def rowOf (i : Fin 8) (p : Fin 512) : Fin 4096 := ⟨512 * i.val + p.val, by omega⟩

/-- Block-relative row numbers, offset by the block's start as 32-bit words, agree exactly when the
    rows of the whole array do: nothing wraps below 4096. -/
theorem word_eq_iff (i k : Fin 8) (p q : Fin 512) :
    IntOp.addi (Scalar.muli (BitVec.ofNat 32 i.val) 512#32) (BitVec.ofNat 32 p.val)
      = IntOp.addi (Scalar.muli (BitVec.ofNat 32 k.val) 512#32) (BitVec.ofNat 32 q.val)
      ↔ rowOf i p = rowOf k q := by
  have hi := i.isLt; have hk := k.isLt; have hp := p.isLt; have hq := q.isLt
  constructor
  · intro h
    have h' := congrArg BitVec.toNat h
    simp only [IntOp.addi, Scalar.muli, IntOp.muli, BitVec.toNat_add, BitVec.toNat_mul,
      BitVec.toNat_ofNat] at h'
    norm_num at h'
    exact Fin.ext (by simp only [rowOf]; omega)
  · intro h
    have h' : 512 * i.val + p.val = 512 * k.val + q.val := congrArg Fin.val h
    have hik : i = k := Fin.ext (by omega)
    have hpq : p = q := Fin.ext (by omega)
    subst hik; subst hpq; rfl

/-- A compare bit, zero-extended to a word and converted signed, is 1 where the words agree and 0
    elsewhere. -/
theorem bit_to_float (x y : BitVec 32) :
    FloatOps.sitofp (F := Ideal) .f32 ((IntOp.cmpi .eq x y).setWidth 32) = if x = y then (1 : EReal) else 0 := by
  show ((((IntOp.cmpi .eq x y).setWidth 32).toInt : ℝ) : EReal) = _
  rw [toInt_setWidth_bit]
  by_cases h : x = y
  · rw [IntOp.cmpi_eq.mpr h, if_pos h]; simp
  · rw [eq_zero_of_ne_one (mt IntOp.cmpi_eq.mp h), if_neg h]; simp

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The identity matrix's block at a grid point: row and column numbers offset by the blocks' starts. -/
theorem pay8_at (gi : grid0.Coords) (i k : Fin 8) (hgi0 : (gi 0).val = i.val) (hgi1 : (gi 1).val = k.val)
    (p q : Fin 512) : k0_pay8 (F := Ideal) gi (ix2 p q) = eye (rowOf i p) (rowOf k q) := by
  unfold k0_pay8
  refine (bit_to_float _ _).trans ?_
  unfold eye
  refine if_congr ?_ rfl rfl
  show IntOp.addi (Scalar.muli (BitVec.ofNat 32 (gi 0).val) 512#32)
        (iota .tc S512x512 32 [0] iota_S512x512_d0_w32 (ix2 p q))
      = IntOp.addi (Scalar.muli (BitVec.ofNat 32 (gi 1).val) 512#32)
        (iota .tc S512x512 32 [1] iota_S512x512_d1_w32 (ix2 p q)) ↔ _
  rw [iota_single_apply, iota_single_apply, hgi0, hgi1]
  exact word_eq_iff i k p q

/-- The positive-pair mask's block: the row block's labels against the column block's. -/
theorem pay9_at (l : Fin 4096 → BitVec 32) (i k : Fin 8) (v38 : FVec Ideal S512x512 .f32)
    (x2 : Vec Ideal S512x1 .i32) (x3 : Vec Ideal S1x512 .i32)
    (hv38 : ∀ p q, v38 (ix2 p q) = eye (rowOf i p) (rowOf k q))
    (hx2 : ∀ p, x2 (ix2 p 0) = l (rowOf i p)) (hx3 : ∀ q, x3 (ix2 0 q) = l (rowOf k q)) (p q : Fin 512) :
    k0_pay9 v38 x2 x3 (ix2 p q) = lab l (rowOf i p) (rowOf k q) := by
  unfold k0_pay9
  show FloatOps.subf (FloatOps.sitofp (F := Ideal) .f32 ((IntOp.cmpi .eq
      (broadcastTo S512x512 (shapeCast S512x1 x2 shapeCasts_S512x1_S512x1) broadcasts_S512x1_S512x512 (ix2 p q))
      (broadcastTo S512x512 (shapeCast S1x512 x3 shapeCasts_S1x512_S1x512) broadcasts_S1x512_S512x512 (ix2 p q))).setWidth 32))
      (v38 (ix2 p q)) = _
  rw [bit_to_float, shapeCast_self, shapeCast_self, broadcastTo_a1_ab_apply, broadcastTo_1b_ab_apply, hx2, hx3,
    hv38]
  rfl

theorem pay10_at (X : Fin 4096 → Fin 512 → EReal) (i k : Fin 8) (v27 : FVec Ideal S512x512 .f32)
    (hv27 : ∀ p q, v27 (ix2 p q) = sim X (rowOf i p) (rowOf k q)) (p q : Fin 512) :
    k0_pay10 v27 (ix2 p q) = Ideal.div (sim X (rowOf i p) (rowOf k q)) one := by
  show Ideal.div (v27 (ix2 p q)) one = _
  rw [hv27]

/-! ## One grid point's contributions -/

/-- The sum over a block pair of `lab * (sim / 1)`. -/
def stepA (X : Fin 4096 → Fin 512 → EReal) (l : Fin 4096 → BitVec 32) (i k : Fin 8) : EReal :=
  ∑ p : Fin 512, ∑ q : Fin 512, lab l (rowOf i p) (rowOf k q) * Ideal.div (sim X (rowOf i p) (rowOf k q)) one

/-- The number of positive pairs in a block pair. -/
def stepL (l : Fin 4096 → BitVec 32) (i k : Fin 8) : EReal :=
  ∑ p : Fin 512, ∑ q : Fin 512, lab l (rowOf i p) (rowOf k q)

/-- A row's share of its divisor from one column block. -/
def stepD (X : Fin 4096 → Fin 512 → EReal) (i k : Fin 8) (p : Fin 512) : EReal :=
  ∑ q : Fin 512, Ideal.exp (Ideal.div (sim X (rowOf i p) (rowOf k q)) one - Ideal.div (eye (rowOf i p) (rowOf k q)) one)

/-! ## The similarity block -/

/-- A row sum of a 512 × 512 block, over the literal column range. -/
theorem row_sum (src : FVec Ideal S512x512 .f32) (hφ : FKind.Formats .f32)
    (hacc : (0x00000000#32 : BitVec 32) = 0x00000000#32) (p : Fin 512) :
    multiReduction (F := Ideal) .add [1] S512 src 0x00000000#32 reduces_S512x512_S512 hφ hacc (ix1 p)
      = ∑ d : Fin 512, src (ix2 p d) := by
  refine (mr_single src reduces_S512x512_S512 hφ hacc (ix1 p)).trans ?_
  show ∑ d : Fin 512, src (reduces_S512x512_S512.lift (ix1 p) d) = _
  refine Finset.sum_congr rfl fun d _ => congrArg src ?_
  exact funext fun c => Fin.ext (by match c with | ⟨0, _⟩ => rfl | ⟨1, _⟩ => rfl)

/-- A block's entry divided by its row's clamped norm: the squares summed
    along the row, cast to a column, the square root, the clamp, the column broadcast over the row. -/
theorem normalised_at (x : FVec Ideal S512x512 .f32) (R : Fin 512 → Fin 512 → EReal)
    (hx : ∀ p d, x (ix2 p d) = R p d) (p d : Fin 512) :
    divf (F := Ideal) x (broadcastTo S512x512 (maximumf (F := Ideal) (sqrt (F := Ideal) (shapeCast S512x1
        (multiReduction (F := Ideal) .add [1] S512 (mulf (F := Ideal) x x) 0x00000000#32 reduces_S512x512_S512 (.inl rfl) rfl)
        shapeCasts_S512_S512x1)) (broadcast S512x1 (Scalar.ofBits (F := Ideal) .f32 0x322BCC77#32)))
        broadcasts_S512x1_S512x512) (ix2 p d)
      = Ideal.div (R p d) (max (Ideal.sqrt (∑ d' : Fin 512, R p d' * R p d')) eps) := by
  rw [divf_apply, hx, broadcastTo_a1_ab_apply, maximumf_apply]
  refine congrArg (Ideal.div (R p d)) (congrArg (max · eps) ?_)
  show Ideal.sqrt (shapeCast S512x1 _ shapeCasts_S512_S512x1 (ix2 p 0)) = _
  rw [shapeCast_a_a1_apply]
  refine congrArg Ideal.sqrt ?_
  refine (row_sum _ _ _ p).trans ?_
  refine Finset.sum_congr rfl fun d' _ => ?_
  rw [mulf_apply, hx]

/-! The operand indices of the block product: row of the left, column of the right, the contracted
coordinate on the other axis of each. -/
theorem lhs_0 (j : S512x512.Idx) (c : dot_S512x512_S512x512_S512x512_1_0_0_1_n_n.contr.Idx) :
    (dot_S512x512_S512x512_S512x512_1_0_0_1_n_n.lhsIdx j c 0).val = (j 0).val := by
  unfold DotDims.lhsIdx
  rw [dif_neg (show ¬(0 : Fin S512x512.rank) ∈ dot_S512x512_S512x512_S512x512_1_0_0_1_n_n.lhsBatch by decide),
    dif_pos (show (0 : Fin S512x512.rank) ∈ dot_S512x512_S512x512_S512x512_1_0_0_1_n_n.lhsNonContracting by decide)]
  rfl
theorem lhs_1 (j : S512x512.Idx) (c : dot_S512x512_S512x512_S512x512_1_0_0_1_n_n.contr.Idx) :
    (dot_S512x512_S512x512_S512x512_1_0_0_1_n_n.lhsIdx j c 1).val = (c ⟨0, by decide⟩).val :=
  dot_S512x512_S512x512_S512x512_1_0_0_1_n_n.lhsIdx_val_of_single rfl j c
theorem rhs_0 (j : S512x512.Idx) (c : dot_S512x512_S512x512_S512x512_1_0_0_1_n_n.contr.Idx) :
    (dot_S512x512_S512x512_S512x512_1_0_0_1_n_n.rhsIdx j c 0).val = (c ⟨0, by decide⟩).val :=
  dot_S512x512_S512x512_S512x512_1_0_0_1_n_n.rhsIdx_val_of_single rfl j c
theorem rhs_1 (j : S512x512.Idx) (c : dot_S512x512_S512x512_S512x512_1_0_0_1_n_n.contr.Idx) :
    (dot_S512x512_S512x512_S512x512_1_0_0_1_n_n.rhsIdx j c 1).val = (j 1).val := by
  unfold DotDims.rhsIdx
  rw [dif_neg (show ¬(1 : Fin S512x512.rank) ∈ dot_S512x512_S512x512_S512x512_1_0_0_1_n_n.rhsBatch by decide),
    dif_pos (show (1 : Fin S512x512.rank) ∈ dot_S512x512_S512x512_S512x512_1_0_0_1_n_n.rhsNonContracting by decide)]
  rfl

/-- The similarity block at a grid point: both blocks normalised by rows, the second transposed, the
    product accumulated into zero. -/
theorem pay7_at (X : Fin 4096 → Fin 512 → EReal) (i k : Fin 8) (x0 x1 : Vec Ideal S512x512 .f32)
    (hx0 : ∀ p d, x0 (ix2 p d) = X (rowOf i p) d) (hx1 : ∀ q d, x1 (ix2 q d) = X (rowOf k q) d)
    (p q : Fin 512) : k0_pay7 x0 x1 (ix2 p q) = sim X (rowOf i p) (rowOf k q) := by
  unfold k0_pay7
  refine (Ideal.matmul_constant_zero_apply dot_S512x512_S512x512_S512x512_1_0_0_1_n_n none _ _ (ix2 p q)).trans ?_
  rw [← Equiv.sum_comp (contrEquiv1 dot_S512x512_S512x512_S512x512_1_0_0_1_n_n 512 rfl rfl).symm]
  unfold sim
  refine Finset.sum_congr rfl fun d _ => ?_
  have hk := contrEquiv1_symm_val dot_S512x512_S512x512_S512x512_1_0_0_1_n_n 512 rfl rfl d
  have el : dot_S512x512_S512x512_S512x512_1_0_0_1_n_n.lhsIdx (ix2 p q)
      ((contrEquiv1 dot_S512x512_S512x512_S512x512_1_0_0_1_n_n 512 rfl rfl).symm d) = ix2 p d :=
    funext fun a => Fin.ext (by
      match a with
      | ⟨0, _⟩ => exact lhs_0 _ _
      | ⟨1, _⟩ => exact (lhs_1 _ _).trans hk)
  have er : dot_S512x512_S512x512_S512x512_1_0_0_1_n_n.rhsIdx (ix2 p q)
      ((contrEquiv1 dot_S512x512_S512x512_S512x512_1_0_0_1_n_n 512 rfl rfl).symm d) = ix2 d q :=
    funext fun a => Fin.ext (by
      match a with
      | ⟨0, _⟩ => exact (rhs_0 _ _).trans hk
      | ⟨1, _⟩ => exact rhs_1 _ _)
  rw [el, er, transpose_ix2_apply]
  refine congrArg₂ (· * ·) ?_ ?_
  · exact (normalised_at x0 (fun p d => X (rowOf i p) d) hx0 p d).trans rfl
  · exact (normalised_at x1 (fun q d => X (rowOf k q) d) hx1 q d).trans rfl

/-! ## The three accumulations of a grid point -/

/-- A row's share of its divisor from the column block: the row sum of `exp (sim / 1 - eye / 1)`. -/
theorem pay13_at (X : Fin 4096 → Fin 512 → EReal) (i k : Fin 8) (v27 v38 : FVec Ideal S512x512 .f32)
    (hv27 : ∀ p q, v27 (ix2 p q) = sim X (rowOf i p) (rowOf k q))
    (hv38 : ∀ p q, v38 (ix2 p q) = eye (rowOf i p) (rowOf k q)) (p : Fin 512) :
    k0_pay13 v27 v38 (ix2 p 0) = stepD X i k p := by
  unfold k0_pay13
  refine (shapeCast_a_a1_apply _ shapeCasts_S512_S512x1 p 0).trans ?_
  refine (row_sum _ _ _ p).trans ?_
  unfold stepD
  refine Finset.sum_congr rfl fun q _ => ?_
  show Ideal.exp (Ideal.div (v27 (ix2 p q)) one - Ideal.div (v38 (ix2 p q)) one) = _
  rw [hv27, hv38]

/-- The running sum of `lab * (sim / 1)` after a grid point. -/
theorem pay11_eq (X : Fin 4096 → Fin 512 → EReal) (l : Fin 4096 → BitVec 32) (i k : Fin 8)
    (v27 v38 : FVec Ideal S512x512 .f32) (x2 : Vec Ideal S512x1 .i32) (x3 : Vec Ideal S1x512 .i32)
    (v53 : Vec Ideal S1x1 .f32)
    (hv27 : ∀ p q, v27 (ix2 p q) = sim X (rowOf i p) (rowOf k q))
    (hv38 : ∀ p q, v38 (ix2 p q) = eye (rowOf i p) (rowOf k q))
    (hx2 : ∀ p, x2 (ix2 p 0) = l (rowOf i p)) (hx3 : ∀ q, x3 (ix2 0 q) = l (rowOf k q)) :
    k0_pay11 v27 v38 x2 x3 v53 = fun _ => v53 (ix2 0 0) + stepA X l i k := by
  unfold k0_pay11
  refine (acc_1x1 v53 _ _ _ _).trans ?_
  funext _
  refine congrArg (v53 (ix2 0 0) + ·) ?_
  refine (mr_total _ reduces_S1x512x512_S1 (by decide) _ _ _).trans ?_
  rw [sum_idx3, Fin.sum_univ_one]
  unfold stepA
  refine Finset.sum_congr rfl fun p _ => Finset.sum_congr rfl fun q _ => ?_
  rw [shapeCast_ab_1ab_apply, mulf_apply, pay9_at l i k v38 x2 x3 hv38 hx2 hx3, pay10_at X i k v27 hv27]

/-- The running count of positive pairs after a grid point. -/
theorem pay12_eq (l : Fin 4096 → BitVec 32) (i k : Fin 8)
    (v38 : FVec Ideal S512x512 .f32) (x2 : Vec Ideal S512x1 .i32) (x3 : Vec Ideal S1x512 .i32)
    (v64 : Vec Ideal S1x1 .f32)
    (hv38 : ∀ p q, v38 (ix2 p q) = eye (rowOf i p) (rowOf k q))
    (hx2 : ∀ p, x2 (ix2 p 0) = l (rowOf i p)) (hx3 : ∀ q, x3 (ix2 0 q) = l (rowOf k q)) :
    k0_pay12 v38 x2 x3 v64 = fun _ => v64 (ix2 0 0) + stepL l i k := by
  unfold k0_pay12
  refine (acc_1x1 v64 _ _ _ _).trans ?_
  funext _
  refine congrArg (v64 (ix2 0 0) + ·) ?_
  refine (mr_total _ reduces_S1x512x512_S1 (by decide) _ _ _).trans ?_
  rw [sum_idx3, Fin.sum_univ_one]
  unfold stepL
  refine Finset.sum_congr rfl fun p _ => Finset.sum_congr rfl fun q _ => ?_
  rw [shapeCast_ab_1ab_apply, pay9_at l i k v38 x2 x3 hv38 hx2 hx3]

end Cert.KernelIdeal.PayValue

end
-- ==== Proof.KI.TailValue.lean ====
/-
  The loss from the three accumulated scalars: `-(A - 4096 * B) / L`, each scalar read out of its
  one-entry array.
-/
import proofs.«121591_j16836271800363_1_alg».proof.Proof.KI.PayValue
import proofs.«121591_j16836271800363_1_alg».proof.KernelIdeal

noncomputable section

namespace Cert.KernelIdeal.PayValue

open Cert.KernelIdeal Cert.KernelIdeal.Gen Cert.SupCon Idealize.ShloMosaic Idealize.ShloMosaic.ValueIdx

/-- The final arithmetic on the three one-entry arrays, as a rank-0 array. -/
def tailVal (a4 a5 a6 : FVec Ideal S1x1 .f32) : FVec Ideal S_ .f32 :=
  Host.divf (F := Ideal)
    (Host.negf (F := Ideal) (subf (F := Ideal) (shapeCast S_ a4 shapeCasts_S1x1_S_)
      (mulf (F := Ideal) (constant (F := Ideal) S_ .f32 0x45800000#32) (shapeCast S_ a5 shapeCasts_S1x1_S_))))
    (shapeCast S_ a6 shapeCasts_S1x1_S_)

/-- A one-entry array cast to rank 0 reads its one entry. -/
theorem shapeCast_1x1_scalar (a : FVec Ideal S1x1 .f32) (h : S1x1.ShapeCasts S_) (i0 : S_.Idx) :
    shapeCast S_ a h i0 = a (ix2 0 0) :=
  congrArg a (Subsingleton.elim _ _)

theorem tailVal_apply (a4 a5 a6 : FVec Ideal S1x1 .f32) (i0 : S_.Idx) :
    tailVal a4 a5 a6 i0 = Ideal.div (-(a4 (ix2 0 0) - c4096 * a5 (ix2 0 0))) (a6 (ix2 0 0)) := by
  show Ideal.div (-(shapeCast S_ a4 shapeCasts_S1x1_S_ i0
      - Ideal.ofBits .f32 0x45800000#32 * shapeCast S_ a5 shapeCasts_S1x1_S_ i0))
      (shapeCast S_ a6 shapeCasts_S1x1_S_ i0) = _
  rw [shapeCast_1x1_scalar, shapeCast_1x1_scalar, shapeCast_1x1_scalar]

end Cert.KernelIdeal.PayValue

end
-- ==== Proof.KI.Accum.lean ====
/-
  The 64 grid points as one fold, and what it leaves.

  The kernel carries three scalars and a column of 512 partial divisors from one grid point to the
  next. The scalars are zeroed at the first point; the column is zeroed at the start of each row of
  blocks and, at the end of the row, the sum of its logarithms is added to the second scalar. By
  induction over the points the first and third scalars are the sums of the blocks' contributions so
  far, the column is the sum over the current row of blocks so far, and the second scalar covers the
  finished rows of blocks. Regrouping the 4096 rows as 8 blocks of 512, and the 64 points as the
  8 × 8 block pairs, turns the final values into the loss's three sums; only commutativity and
  associativity of addition on the extended reals are used.
-/
import proofs.«121591_j16836271800363_1_alg».proof.Proof.KI.PayValue

noncomputable section

open scoped BigOperators

namespace Cert.KernelIdeal.PayValue

open Cert.SupCon Idealize.ShloMosaic

/-! ## The 64 grid points as a fold -/

/-- What the kernel carries across grid points: the three running scalars and the divisor column. -/
structure KState where
  A : EReal
  B : EReal
  L : EReal
  D : Fin 512 → EReal

/-- The row block and the column block of grid point `t` (row-major over the 8 × 8 grid). -/
def gi_ (t : ℕ) : Fin 8 := ⟨t / 8 % 8, Nat.mod_lt _ (by norm_num)⟩
def gk_ (t : ℕ) : Fin 8 := ⟨t % 8, Nat.mod_lt _ (by norm_num)⟩

/-- One grid point: the scalars are zeroed at the first point, the divisor column at the start of each
    row of blocks; the logarithms of a finished divisor column are added at the end of its row. -/
def kstep (X : Fin 4096 → Fin 512 → EReal) (l : Fin 4096 → BitVec 32) (t : ℕ) (s : KState) : KState :=
  let A0 := if t = 0 then 0 else s.A
  let B0 := if t = 0 then 0 else s.B
  let L0 := if t = 0 then 0 else s.L
  let D0 : Fin 512 → EReal := fun p => if t % 8 = 0 then 0 else s.D p
  let D1 : Fin 512 → EReal := fun p => D0 p + stepD X (gi_ t) (gk_ t) p
  { A := A0 + stepA X l (gi_ t) (gk_ t), L := L0 + stepL l (gi_ t) (gk_ t), D := D1,
    B := if t % 8 = 7 then B0 + ∑ p : Fin 512, Ideal.log (D1 p) else B0 }

/-- The state before grid point `n`. -/
def kstate (X : Fin 4096 → Fin 512 → EReal) (l : Fin 4096 → BitVec 32) (s0 : KState) : ℕ → KState
  | 0 => s0
  | n + 1 => kstep X l n (kstate X l s0 n)

section Fold
variable (X : Fin 4096 → Fin 512 → EReal) (l : Fin 4096 → BitVec 32) (s0 : KState)

/-- The logarithm total of one finished row of blocks. -/
def rowB (j : ℕ) : EReal :=
  ∑ p : Fin 512, Ideal.log (∑ t ∈ Finset.Ico (8 * j) (8 * j + 8), stepD X (gi_ t) (gk_ t) p)

/-- After `n ≥ 1` points: the scalars are the sums over the points so far, the divisor column is the
    sum over the current row of blocks so far, the logarithm total covers the finished rows. -/
theorem kstate_inv (n : ℕ) (hn : 1 ≤ n) :
    (kstate X l s0 n).A = ∑ t ∈ Finset.range n, stepA X l (gi_ t) (gk_ t)
    ∧ (kstate X l s0 n).L = ∑ t ∈ Finset.range n, stepL l (gi_ t) (gk_ t)
    ∧ (∀ p, (kstate X l s0 n).D p = ∑ t ∈ Finset.Ico (8 * ((n - 1) / 8)) n, stepD X (gi_ t) (gk_ t) p)
    ∧ (kstate X l s0 n).B = ∑ j ∈ Finset.range (n / 8), rowB X j := by
  induction n, hn using Nat.le_induction with
  | base =>
    refine ⟨?_, ?_, ?_, ?_⟩
    · simp [kstate, kstep]
    · simp [kstate, kstep]
    · intro p; simp [kstate, kstep]
    · simp [kstate, kstep]
  | succ n hn ih =>
    obtain ⟨hA, hL, hD, hB⟩ := ih
    have hn0 : n ≠ 0 := by omega
    have hD1 : ∀ p, (kstate X l s0 (n + 1)).D p
        = ∑ t ∈ Finset.Ico (8 * (n / 8)) (n + 1), stepD X (gi_ t) (gk_ t) p := by
      intro p
      show (if n % 8 = 0 then 0 else (kstate X l s0 n).D p) + stepD X (gi_ n) (gk_ n) p = _
      rw [Finset.sum_Ico_succ_top (by omega : 8 * (n / 8) ≤ n)]
      by_cases h8 : n % 8 = 0
      · rw [if_pos h8, (by omega : 8 * (n / 8) = n), Finset.Ico_self, Finset.sum_empty]
      · rw [if_neg h8, hD p, (by omega : (n - 1) / 8 = n / 8)]
    refine ⟨?_, ?_, ?_, ?_⟩
    · show (if n = 0 then 0 else (kstate X l s0 n).A) + stepA X l (gi_ n) (gk_ n) = _
      rw [if_neg hn0, hA, Finset.sum_range_succ]
    · show (if n = 0 then 0 else (kstate X l s0 n).L) + stepL l (gi_ n) (gk_ n) = _
      rw [if_neg hn0, hL, Finset.sum_range_succ]
    · intro p
      rw [hD1 p, (by omega : (n + 1 - 1) / 8 = n / 8)]
    · show (if n % 8 = 7 then (if n = 0 then 0 else (kstate X l s0 n).B)
            + ∑ p : Fin 512, Ideal.log ((kstate X l s0 (n + 1)).D p)
          else (if n = 0 then 0 else (kstate X l s0 n).B)) = _
      rw [if_neg hn0, hB]
      by_cases h7 : n % 8 = 7
      · rw [if_pos h7, (by omega : (n + 1) / 8 = n / 8 + 1), Finset.sum_range_succ]
        refine congrArg (_ + ·) ?_
        unfold rowB
        refine Finset.sum_congr rfl fun p _ => ?_
        rw [hD1 p, (by omega : n + 1 = 8 * (n / 8) + 8)]
      · rw [if_neg h7, (by omega : (n + 1) / 8 = n / 8)]

end Fold

/-! ## Regrouping the sums over rows and over grid points -/

/-- The 4096 rows are 8 blocks of 512 consecutive rows. -/
def blockEquiv : Fin 8 × Fin 512 ≃ Fin 4096 where
  toFun x := rowOf x.1 x.2
  invFun a := (⟨a.val / 512, by have := a.isLt; omega⟩, ⟨a.val % 512, Nat.mod_lt _ (by norm_num)⟩)
  left_inv := fun ⟨i, p⟩ => by
    have := i.isLt; have := p.isLt
    refine Prod.ext (Fin.ext ?_) (Fin.ext ?_) <;> simp only [rowOf] <;> omega
  right_inv := fun a => Fin.ext (by simp only [rowOf]; omega)

theorem sum_rows {M : Type*} [AddCommMonoid M] (f : Fin 4096 → M) :
    ∑ a, f a = ∑ i : Fin 8, ∑ p : Fin 512, f (rowOf i p) := by
  rw [← Equiv.sum_comp blockEquiv f, Fintype.sum_prod_type]
  rfl

/-- The 64 grid points are the 8 × 8 block pairs in row-major order. -/
def gridEquiv : Fin 8 × Fin 8 ≃ Fin 64 where
  toFun x := ⟨8 * x.1.val + x.2.val, by have := x.1.isLt; have := x.2.isLt; omega⟩
  invFun t := (⟨t.val / 8, by have := t.isLt; omega⟩, ⟨t.val % 8, Nat.mod_lt _ (by norm_num)⟩)
  left_inv := fun ⟨i, k⟩ => by
    have := i.isLt; have := k.isLt
    refine Prod.ext (Fin.ext ?_) (Fin.ext ?_) <;> simp only <;> omega
  right_inv := fun t => Fin.ext (by simp only; omega)

theorem sum_points {M : Type*} [AddCommMonoid M] (f : ℕ → M) :
    ∑ t ∈ Finset.range 64, f t = ∑ i : Fin 8, ∑ k : Fin 8, f (8 * i.val + k.val) := by
  rw [Finset.sum_range, ← Equiv.sum_comp gridEquiv, Fintype.sum_prod_type]
  rfl

theorem gi_point (i k : Fin 8) : gi_ (8 * i.val + k.val) = i :=
  Fin.ext (by have := i.isLt; have := k.isLt; simp only [gi_]; omega)
theorem gk_point (i k : Fin 8) : gk_ (8 * i.val + k.val) = k :=
  Fin.ext (by have := i.isLt; have := k.isLt; simp only [gk_]; omega)

section Final
variable (X : Fin 4096 → Fin 512 → EReal) (l : Fin 4096 → BitVec 32) (s0 : KState)

theorem Aval_blocks : Aval X l = ∑ i : Fin 8, ∑ k : Fin 8, stepA X l i k := by
  unfold Aval
  rw [sum_rows]
  refine Finset.sum_congr rfl fun i _ => ?_
  refine (Finset.sum_congr rfl fun p _ => sum_rows _).trans ?_
  exact Finset.sum_comm

theorem Lval_blocks : Lval l = ∑ i : Fin 8, ∑ k : Fin 8, stepL l i k := by
  unfold Lval
  rw [sum_rows]
  refine Finset.sum_congr rfl fun i _ => ?_
  refine (Finset.sum_congr rfl fun p _ => sum_rows _).trans ?_
  exact Finset.sum_comm

theorem dv_blocks (i : Fin 8) (p : Fin 512) : dv X (rowOf i p) = ∑ k : Fin 8, stepD X i k p := by
  unfold dv
  exact sum_rows _

theorem Bval_blocks : Bval X = ∑ i : Fin 8, ∑ p : Fin 512, Ideal.log (dv X (rowOf i p)) := by
  unfold Bval
  exact sum_rows _

theorem rowB_eq (i : Fin 8) : rowB X i.val = ∑ p : Fin 512, Ideal.log (dv X (rowOf i p)) := by
  unfold rowB
  refine Finset.sum_congr rfl fun p _ => congrArg Ideal.log ?_
  rw [dv_blocks, Finset.sum_Ico_eq_sum_range, Nat.add_sub_cancel_left, Finset.sum_range]
  refine Finset.sum_congr rfl fun k _ => ?_
  rw [gi_point, gk_point]

/-- After the 64 grid points the three scalars are the loss's three sums, whatever the start state. -/
theorem kstate_final :
    (kstate X l s0 64).A = Aval X l ∧ (kstate X l s0 64).B = Bval X ∧ (kstate X l s0 64).L = Lval l := by
  obtain ⟨hA, hL, -, hB⟩ := kstate_inv X l s0 64 (by norm_num)
  refine ⟨?_, ?_, ?_⟩
  · rw [hA, sum_points, Aval_blocks]
    exact Finset.sum_congr rfl fun i _ => Finset.sum_congr rfl fun k _ => by rw [gi_point, gk_point]
  · rw [hB, (by norm_num : 64 / 8 = 8), Finset.sum_range, Bval_blocks]
    exact Finset.sum_congr rfl fun i _ => rowB_eq X i
  · rw [hL, sum_points, Lval_blocks]
    exact Finset.sum_congr rfl fun i _ => Finset.sum_congr rfl fun k _ => by rw [gi_point, gk_point]

end Final

end Cert.KernelIdeal.PayValue

end
-- ==== Proof.KI.Value.lean ====
/-
  The kernel's three results as the loss's three sums.

  At grid point `t` (row block `t / 8`, column block `t % 8`) the four blocks the body holds are rows
  of the two argument arrays: the index maps send the point to those block numbers, and an entry of a
  block sits at block number × block size + its place inside the block. With the blocks identified,
  each value a control case stores is the point's contribution added to what the point before left,
  or to zero where the case resets. So, by induction over the points, the three scalar accumulators
  and the divisor column follow the fold `kstate`, and at the last point the three results are the
  fold's final scalars, which are the sum of `lab * sim`, the sum of the logarithms of the divisors
  and the number of positive pairs.
-/
import proofs.«121591_j16836271800363_1_alg».proof.Proof.KI.Data
import proofs.«121591_j16836271800363_1_alg».proof.Proof.KI.Accum
import Idealize.ShloMosaic.Lib.ValueLayout

set_option maxRecDepth 16384
set_option pp.maxSteps 5000
set_option pp.deepTerms false

noncomputable section

open scoped BigOperators

namespace Cert.KernelIdeal.Hand

open Idealize.ShloMosaic Idealize.ShloMosaic.TcCoe Idealize.ShloMosaic.Tactic Idealize.ShloMosaic.ValueIdx
open Idealize.SL.Sem
open Cert.KernelIdeal Cert.KernelIdeal.Gen Cert.KernelIdeal.PayValue Cert.SupCon

variable (m : (ℓ : Loc nD τ sig) → Buf (Elt Ideal) ℓ) (c : Dev nD)

/-- The feature array and the label array as launched, by coordinates. -/
def Xof : Fin 4096 → Fin 512 → EReal :=
  fun a d => (m ((c : Thread nD τ).loc main_arg0) : FVec Ideal S4096x512 .f32) (ix2 a d)
def Lof : Fin 4096 → BitVec 32 :=
  fun a => (m ((c : Thread nD τ).loc main_arg1) : IVec S4096 32) (ix1 a)

/-! ## The blocks a point holds -/

/-- The index maps over the grid: the row block is `t / 8`, the column block `t % 8`. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8 :=
  (by decide +kernel : ∀ t : Fin grid0.N, _)

theorem coords_facts : ∀ t : Fin cfg0.N,
    ((grid0.coords t) 0).val = t.val / 8 % 8 ∧ ((grid0.coords t) 1).val = t.val % 8 :=
  (by decide +kernel : ∀ t : Fin grid0.N, _)

theorem coords_at (t : Fin cfg0.N) :
    ((grid0.coords t) 0).val = (gi_ t.val).val ∧ ((grid0.coords t) 1).val = (gk_ t.val).val :=
  coords_facts t

theorem lt64 (t : Fin cfg0.N) : t.val < 64 := lt_of_lt_of_eq t.isLt (show cfg0.N = 64 from N_0)

/-- The label array reshaped to a column, and to a row, before the region. -/
theorem V_main_v0 : (V m c main_v0 : IVec S4096x1 32)
    = shapeCast S4096x1 (m ((c : Thread nD τ).loc main_arg1) : IVec S4096 32) shapeCasts_S4096_S4096x1 := by
  show StableHlo.after hostOps0 (fun b => m (c, b)) (Proc.devRef .tc main_v0) = _
  after_results
  rfl
theorem V_main_v1 : (V m c main_v1 : IVec S1x4096 32)
    = shapeCast S1x4096 (m ((c : Thread nD τ).loc main_arg1) : IVec S4096 32) shapeCasts_S4096_S1x4096 := by
  show StableHlo.after hostOps0 (fun b => m (c, b)) (Proc.devRef .tc main_v1) = _
  after_results
  rfl

theorem iblk0_at (t : Fin cfg0.N) (p d : Fin 512) :
    (iblk m c 0 t : Vec Ideal S512x512 .f32) (ix2 p d) = Xof m c (rowOf (gi_ t.val) p) d := by
  obtain ⟨e0, e1, -⟩ := idx_facts t
  have hN := lt64 t
  show V m c main_arg0 (((cfg0.win 0).blk t).view.emb (ix2 p d))
      = m ((c : Thread nD τ).loc main_arg0) (ix2 (rowOf (gi_ t.val) p) d)
  rw [V_main_arg0]
  refine congrArg _ (funext fun a => Fin.ext ?_)
  match a with
  | ⟨0, _⟩ =>
    show win0_0.index t (0 : Fin 2) * 512 + 1 * p.val = 512 * (t.val / 8 % 8) + p.val
    omega
  | ⟨1, _⟩ =>
    show win0_0.index t (1 : Fin 2) * 512 + 1 * d.val = d.val
    omega

theorem iblk1_at (t : Fin cfg0.N) (q d : Fin 512) :
    (iblk m c 1 t : Vec Ideal S512x512 .f32) (ix2 q d) = Xof m c (rowOf (gk_ t.val) q) d := by
  obtain ⟨-, -, e0, e1, -⟩ := idx_facts t
  show V m c main_arg0 (((cfg0.win 1).blk t).view.emb (ix2 q d))
      = m ((c : Thread nD τ).loc main_arg0) (ix2 (rowOf (gk_ t.val) q) d)
  rw [V_main_arg0]
  refine congrArg _ (funext fun a => Fin.ext ?_)
  match a with
  | ⟨0, _⟩ =>
    show win0_1.index t (0 : Fin 2) * 512 + 1 * q.val = 512 * (t.val % 8) + q.val
    omega
  | ⟨1, _⟩ =>
    show win0_1.index t (1 : Fin 2) * 512 + 1 * d.val = d.val
    omega

theorem iblk2_at (t : Fin cfg0.N) (p : Fin 512) :
    (iblk m c 2 t : Vec Ideal S512x1 .i32) (ix2 p 0) = Lof m c (rowOf (gi_ t.val) p) := by
  obtain ⟨-, -, -, -, e0, e1, -⟩ := idx_facts t
  have hN := lt64 t
  show V m c main_v0 (((cfg0.win 2).blk t).view.emb (ix2 p 0)) = _
  rw [V_main_v0]
  refine (shapeCast_apply _ shapeCasts_S4096_S4096x1 _ (ix1 (rowOf (gi_ t.val) p)) ?_).trans rfl
  rw [Shape.rowMajor_val_one, Shape.rowMajor_val_two]
  show 512 * (t.val / 8 % 8) + p.val
      = (win0_2.index t (0 : Fin 2) * 512 + 1 * p.val) * 1 + (win0_2.index t (1 : Fin 2) * 1 + 1 * 0)
  omega

theorem iblk3_at (t : Fin cfg0.N) (q : Fin 512) :
    (iblk m c 3 t : Vec Ideal S1x512 .i32) (ix2 0 q) = Lof m c (rowOf (gk_ t.val) q) := by
  obtain ⟨-, -, -, -, -, -, e0, e1⟩ := idx_facts t
  show V m c main_v1 (((cfg0.win 3).blk t).view.emb (ix2 0 q)) = _
  rw [V_main_v1]
  refine (shapeCast_apply _ shapeCasts_S4096_S1x4096 _ (ix1 (rowOf (gk_ t.val) q)) ?_).trans rfl
  rw [Shape.rowMajor_val_one, Shape.rowMajor_val_two]
  show 512 * (t.val % 8) + q.val
      = (win0_3.index t (0 : Fin 2) * 1 + 1 * 0) * 4096 + (win0_3.index t (1 : Fin 2) * 512 + 1 * q.val)
  omega

/-! ## A point's values -/

section Point
variable (t : Fin cfg0.N)

theorem sim_at (p q : Fin 512) :
    k0_pay7 (iblk m c 0 t) (iblk m c 1 t) (ix2 p q)
      = sim (Xof m c) (rowOf (gi_ t.val) p) (rowOf (gk_ t.val) q) :=
  pay7_at (Xof m c) (gi_ t.val) (gk_ t.val) (iblk m c 0 t) (iblk m c 1 t) (iblk0_at m c t) (iblk1_at m c t) p q

theorem eye_at (p q : Fin 512) :
    k0_pay8 (F := Ideal) (grid0.coords t) (ix2 p q) = eye (rowOf (gi_ t.val) p) (rowOf (gk_ t.val) q) :=
  pay8_at (grid0.coords t) (gi_ t.val) (gk_ t.val) (coords_at t).1 (coords_at t).2 p q

/-- The first scalar after the point: what it was handed plus the block pair's `lab * sim`. -/
theorem ptA (xs1 : Vec Ideal S1x1 .f32) :
    k0_pay11 (k0_pay7 (iblk m c 0 t) (iblk m c 1 t)) (k0_pay8 (grid0.coords t)) (iblk m c 2 t) (iblk m c 3 t) xs1 (ix2 0 0)
      = xs1 (ix2 0 0) + stepA (Xof m c) (Lof m c) (gi_ t.val) (gk_ t.val) :=
  congrFun (pay11_eq (Xof m c) (Lof m c) (gi_ t.val) (gk_ t.val) (k0_pay7 (iblk m c 0 t) (iblk m c 1 t))
    (k0_pay8 (grid0.coords t)) (iblk m c 2 t) (iblk m c 3 t) xs1 (sim_at m c t) (eye_at t)
    (iblk2_at m c t) (iblk3_at m c t)) (ix2 0 0)

/-- The third scalar after the point: what it was handed plus the block pair's positive pairs. -/
theorem ptL (xs3 : Vec Ideal S1x1 .f32) :
    k0_pay12 (k0_pay8 (grid0.coords t)) (iblk m c 2 t) (iblk m c 3 t) xs3 (ix2 0 0)
      = xs3 (ix2 0 0) + stepL (Lof m c) (gi_ t.val) (gk_ t.val) :=
  congrFun (pay12_eq (Lof m c) (gi_ t.val) (gk_ t.val) (k0_pay8 (grid0.coords t)) (iblk m c 2 t) (iblk m c 3 t)
    xs3 (eye_at t) (iblk2_at m c t) (iblk3_at m c t)) (ix2 0 0)

/-- The divisor column after the point: what it was handed plus the column block's share. -/
theorem ptD (xs0 : Vec Ideal S512x1 .f32) (p : Fin 512) :
    k0_pay1 xs0 (k0_pay13 (k0_pay7 (iblk m c 0 t) (iblk m c 1 t)) (k0_pay8 (grid0.coords t))) (ix2 p 0)
      = xs0 (ix2 p 0) + stepD (Xof m c) (gi_ t.val) (gk_ t.val) p :=
  (pay1_at xs0 _ p).trans (congrArg (xs0 (ix2 p 0) + ·)
    (pay13_at (Xof m c) (gi_ t.val) (gk_ t.val) (k0_pay7 (iblk m c 0 t) (iblk m c 1 t)) (k0_pay8 (grid0.coords t))
      (sim_at m c t) (eye_at t) p))

/-- The second scalar at the end of a row of blocks: what it was handed plus the logarithms of the
    finished divisor column. -/
theorem ptB (xs2 : Vec Ideal S1x1 .f32) (xs0 : Vec Ideal S512x1 .f32) :
    k0_pay2 xs2 (k0_pay1 xs0 (k0_pay13 (k0_pay7 (iblk m c 0 t) (iblk m c 1 t)) (k0_pay8 (grid0.coords t)))) (ix2 0 0)
      = xs2 (ix2 0 0) + ∑ p : Fin 512, Ideal.log (xs0 (ix2 p 0) + stepD (Xof m c) (gi_ t.val) (gk_ t.val) p) :=
  (congrFun (pay2_eq xs2 _) (ix2 0 0)).trans (congrArg (xs2 (ix2 0 0) + ·)
    (Finset.sum_congr rfl fun p _ => congrArg Ideal.log (ptD m c t xs0 p)))

end Point

/-! ## One point against one step of the fold -/

/-- The buffers agree with a state of the fold. -/
def Rel (st : St Ideal) (ks : KState) : Prop :=
  st.s1 (ix2 0 0) = ks.A ∧ st.s2 (ix2 0 0) = ks.B ∧ st.s3 (ix2 0 0) = ks.L ∧ ∀ p : Fin 512, st.s0 (ix2 p 0) = ks.D p

theorem step_rel (t : Fin cfg0.N) (st : St Ideal) (ks : KState) (h : t.val = 0 ∨ Rel st ks) :
    Rel (stepSt m c t st) (kstep (Xof m c) (Lof m c) t.val ks) := by
  have hN := lt64 t
  unfold Rel
  by_cases h0 : t.val = 0
  · -- the first point: everything starts from zero
    have h8 : t.val % 8 = 0 := by omega
    have h7 : ¬t.val % 8 = 7 := by omega
    simp only [stepSt, dif_pos h0]
    rw [sout0_A_0_eq, sout0_A_1_eq, sout0_A_2_eq, sout0_A_3_eq]
    refine ⟨?_, ?_, ?_, ?_⟩
    · refine (ptA m c t (k0_pay3 (F := Ideal))).trans ?_
      show k0_pay3 (F := Ideal) (ix2 0 0) + _ = (if t.val = 0 then 0 else ks.A) + _
      rw [if_pos h0, pay3_eq]
    · show k0_pay4 (F := Ideal) (ix2 0 0) = (if t.val % 8 = 7 then _ else (if t.val = 0 then 0 else ks.B))
      rw [if_neg h7, if_pos h0, pay4_eq]
    · refine (ptL m c t (k0_pay5 (F := Ideal))).trans ?_
      show k0_pay5 (F := Ideal) (ix2 0 0) + _ = (if t.val = 0 then 0 else ks.L) + _
      rw [if_pos h0, pay5_eq]
    · intro p
      refine (ptD m c t (k0_pay6 (F := Ideal)) p).trans ?_
      show k0_pay6 (F := Ideal) (ix2 p 0) + _ = (if t.val % 8 = 0 then 0 else ks.D p) + _
      rw [if_pos h8, pay6_eq]
  obtain ⟨hA, hB, hL, hD⟩ := h.resolve_left h0
  by_cases h8 : t.val % 8 = 0
  · -- the first point of a later row of blocks: the divisor column starts from zero
    have h7 : ¬t.val % 8 = 7 := by omega
    simp only [stepSt, dif_neg h0, dif_pos h8]
    rw [sout0_B_0_eq, sout0_B_1_eq, sout0_B_3_eq]
    refine ⟨?_, ?_, ?_, ?_⟩
    · refine (ptA m c t st.s1).trans ?_
      show _ = (if t.val = 0 then 0 else ks.A) + _
      rw [if_neg h0, hA]
    · show st.s2 (ix2 0 0) = (if t.val % 8 = 7 then _ else (if t.val = 0 then 0 else ks.B))
      rw [if_neg h7, if_neg h0, hB]
    · refine (ptL m c t st.s3).trans ?_
      show _ = (if t.val = 0 then 0 else ks.L) + _
      rw [if_neg h0, hL]
    · intro p
      refine (ptD m c t (k0_pay6 (F := Ideal)) p).trans ?_
      show k0_pay6 (F := Ideal) (ix2 p 0) + _ = (if t.val % 8 = 0 then 0 else ks.D p) + _
      rw [if_pos h8, pay6_eq]
  by_cases h7 : t.val % 8 = 7
  · have hB' : st.s2 (ix2 0 0) + ∑ p : Fin 512, Ideal.log (st.s0 (ix2 p 0)
          + stepD (Xof m c) (gi_ t.val) (gk_ t.val) p) = (kstep (Xof m c) (Lof m c) t.val ks).B := by
      show _ = (if t.val % 8 = 7 then (if t.val = 0 then 0 else ks.B)
          + ∑ p : Fin 512, Ideal.log ((if t.val % 8 = 0 then 0 else ks.D p) + stepD (Xof m c) (gi_ t.val) (gk_ t.val) p)
        else (if t.val = 0 then 0 else ks.B))
      rw [if_pos h7, if_neg h0, hB]
      refine congrArg (ks.B + ·) (Finset.sum_congr rfl fun p _ => ?_)
      rw [if_neg h8, hD p]
    by_cases h63 : t.val = 63
    · -- the last point
      simp only [stepSt, dif_neg h0, dif_neg h8, dif_pos h7, dif_pos h63]
      rw [sout0_E_0_eq, sout0_E_1_eq, sout0_E_2_eq, sout0_E_3_eq]
      refine ⟨?_, ?_, ?_, ?_⟩
      · refine (ptA m c t st.s1).trans ?_
        show _ = (if t.val = 0 then 0 else ks.A) + _
        rw [if_neg h0, hA]
      · exact (ptB m c t st.s2 st.s0).trans hB'
      · refine (ptL m c t st.s3).trans ?_
        show _ = (if t.val = 0 then 0 else ks.L) + _
        rw [if_neg h0, hL]
      · intro p
        refine (ptD m c t st.s0 p).trans ?_
        show _ = (if t.val % 8 = 0 then 0 else ks.D p) + _
        rw [if_neg h8, hD p]
    · -- the last point of a row of blocks
      simp only [stepSt, dif_neg h0, dif_neg h8, dif_pos h7, dif_neg h63]
      rw [sout0_D_0_eq, sout0_D_1_eq, sout0_D_2_eq, sout0_D_3_eq]
      refine ⟨?_, ?_, ?_, ?_⟩
      · refine (ptA m c t st.s1).trans ?_
        show _ = (if t.val = 0 then 0 else ks.A) + _
        rw [if_neg h0, hA]
      · exact (ptB m c t st.s2 st.s0).trans hB'
      · refine (ptL m c t st.s3).trans ?_
        show _ = (if t.val = 0 then 0 else ks.L) + _
        rw [if_neg h0, hL]
      · intro p
        refine (ptD m c t st.s0 p).trans ?_
        show _ = (if t.val % 8 = 0 then 0 else ks.D p) + _
        rw [if_neg h8, hD p]
  · -- a point inside a row of blocks
    simp only [stepSt, dif_neg h0, dif_neg h8, dif_neg h7]
    rw [sout0_C_0_eq, sout0_C_1_eq, sout0_C_3_eq]
    refine ⟨?_, ?_, ?_, ?_⟩
    · refine (ptA m c t st.s1).trans ?_
      show _ = (if t.val = 0 then 0 else ks.A) + _
      rw [if_neg h0, hA]
    · show st.s2 (ix2 0 0) = (if t.val % 8 = 7 then _ else (if t.val = 0 then 0 else ks.B))
      rw [if_neg h7, if_neg h0, hB]
    · refine (ptL m c t st.s3).trans ?_
      show _ = (if t.val = 0 then 0 else ks.L) + _
      rw [if_neg h0, hL]
    · intro p
      refine (ptD m c t st.s0 p).trans ?_
      show _ = (if t.val % 8 = 0 then 0 else ks.D p) + _
      rw [if_neg h8, hD p]

/-- At the last point the three results are the three scalars just stored. -/
theorem step_out (t : Fin cfg0.N) (h63 : t.val = 63) (st : St Ideal) :
    (stepSt m c t st).o4 = (stepSt m c t st).s1 ∧ (stepSt m c t st).o5 = (stepSt m c t st).s2
      ∧ (stepSt m c t st).o6 = (stepSt m c t st).s3 := by
  have h0 : ¬t.val = 0 := by omega
  have h8 : ¬t.val % 8 = 0 := by omega
  have h7 : t.val % 8 = 7 := by omega
  simp only [stepSt, dif_neg h0, dif_neg h8, dif_pos h7, dif_pos h63]
  rw [out0_E_4_eq, out0_E_5_eq, out0_E_6_eq, sout0_E_1_eq, sout0_E_2_eq, sout0_E_3_eq]
  exact ⟨rfl, rfl, rfl⟩

/-! ## The invariant, and the last point -/

theorem outsAt_rel (s0 : KState) : ∀ (n : ℕ) (hn : n < cfg0.N),
    Rel (outsAt m c n hn) (kstate (Xof m c) (Lof m c) s0 (n + 1))
  | 0, hn => step_rel m c ⟨0, hn⟩ junkSt s0 (Or.inl rfl)
  | n + 1, hn =>
    step_rel m c ⟨n + 1, hn⟩ (outsAt m c n (Nat.lt_of_succ_lt hn)) (kstate (Xof m c) (Lof m c) s0 (n + 1))
      (Or.inr (outsAt_rel s0 n (Nat.lt_of_succ_lt hn)))

theorem outsAt_inv (s0 : KState) (n : ℕ) (hn : n < cfg0.N) :
    (outsAt m c n hn).s1 (ix2 0 0) = (kstate (Xof m c) (Lof m c) s0 (n + 1)).A
    ∧ (outsAt m c n hn).s2 (ix2 0 0) = (kstate (Xof m c) (Lof m c) s0 (n + 1)).B
    ∧ (outsAt m c n hn).s3 (ix2 0 0) = (kstate (Xof m c) (Lof m c) s0 (n + 1)).L
    ∧ (∀ p : Fin 512, (outsAt m c n hn).s0 (ix2 p 0) = (kstate (Xof m c) (Lof m c) s0 (n + 1)).D p)
    ∧ (n = 63 → (outsAt m c n hn).o4 (ix2 0 0) = (kstate (Xof m c) (Lof m c) s0 (n + 1)).A
        ∧ (outsAt m c n hn).o5 (ix2 0 0) = (kstate (Xof m c) (Lof m c) s0 (n + 1)).B
        ∧ (outsAt m c n hn).o6 (ix2 0 0) = (kstate (Xof m c) (Lof m c) s0 (n + 1)).L) := by
  obtain ⟨hA, hB, hL, hD⟩ := outsAt_rel m c s0 n hn
  refine ⟨hA, hB, hL, hD, ?_⟩
  rintro rfl
  obtain ⟨e4, e5, e6⟩ := step_out m c ⟨63, hn⟩ rfl (outsAt m c 62 (Nat.lt_of_succ_lt hn))
  have e : outsAt m c 63 hn = stepSt m c ⟨63, hn⟩ (outsAt m c 62 (Nat.lt_of_succ_lt hn)) := rfl
  rw [e] at hA hB hL ⊢
  rw [e4, e5, e6]
  exact ⟨hA, hB, hL⟩

/-- The three results after the last point are the loss's three sums. -/
theorem outs_final (h63 : 63 < cfg0.N) :
    (outsAt m c 63 h63).o4 (ix2 0 0) = Aval (Xof m c) (Lof m c)
    ∧ (outsAt m c 63 h63).o5 (ix2 0 0) = Bval (Xof m c)
    ∧ (outsAt m c 63 h63).o6 (ix2 0 0) = Lval (Lof m c) := by
  obtain ⟨-, -, -, -, h⟩ := outsAt_inv m c ⟨0, 0, 0, fun _ => 0⟩ 63 h63
  obtain ⟨e4, e5, e6⟩ := h rfl
  obtain ⟨fA, fB, fL⟩ := kstate_final (Xof m c) (Lof m c) ⟨0, 0, 0, fun _ => 0⟩
  exact ⟨e4.trans fA, e5.trans fB, e6.trans fL⟩

end Cert.KernelIdeal.Hand

end
-- ==== Proof.KI.Final.lean ====
import proofs.«121591_j16836271800363_1_alg».proof.Proof.KI.Data
import proofs.«121591_j16836271800363_1_alg».proof.Proof.KI.TailValue
import proofs.«121591_j16836271800363_1_alg».proof.Proof.KI.Value
import Idealize.ShloMosaic.Lib.Pipeline.Value

set_option maxRecDepth 16384
set_option pp.maxSteps 5000
set_option pp.deepTerms false

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

open Cert.KernelIdeal.PayValue Cert.SupCon

/-! ## The three result arrays after the run (at the ideal instance) -/

theorem t63 : (63 : ℕ) < cfg0.N := by rw [show cfg0.N = 64 from N_0]; norm_num
/-- The last grid point. -/
def T63 : Fin cfg0.N := ⟨63, t63⟩

/-- Result window 4's array after the run: the one point that writes it back is the last, and what that point left
    in its buffer is the accumulation's component. -/
theorem final4 (c : Dev nD) : (dats m 0 c).arrAt 4 cfg0.N = fun _ => (outsAt m c 63 t63).o4 (ValueIdx.ix2 0 0) := by
  refine (dats m 0 c).arrAt_eq_of_cover 4 (fun _ => (outsAt m c 63 t63).o4 (ValueIdx.ix2 0 0)) (fun t hf => ?_) (fun i => ⟨T63, (flush0_4 T63).mpr rfl, ?_⟩)
  · have h63 : t = T63 := by
      have := (flush0_4 t).mp hf
      have hN : t.val < 64 := lt_of_lt_of_eq t.isLt (show cfg0.N = 64 from N_0)
      exact Fin.ext (by show t.val = 63; omega)
    subst h63
    show (cfg0.win 4).cut (grid0.coords T63) ((dats m 0 c).after 4 T63) = _
    rw [after0_4]
    funext j
    show (outsAt m c 63 t63).o4 j = (outsAt m c 63 t63).o4 (ValueIdx.ix2 0 0)
    exact congrArg _ (Subsingleton.elim (α := S1x1.Idx) j (ValueIdx.ix2 0 0))
  · show i ∈ ((View.whole main_v2_0).slice (win0_4.rect T63)).set
    rw [View.set_slice_whole, Rect.mem_set_unit]
    intro a
    have ha : (i a).val < 1 := by
      have := (i a).isLt
      match a with
      | ⟨0, _⟩ => exact this
      | ⟨1, _⟩ => exact this
    match a with
    | ⟨0, _⟩ => exact ⟨by show 0 * 1 ≤ _; omega, by show _ < 0 * 1 + 1; omega⟩
    | ⟨1, _⟩ => exact ⟨by show 0 * 1 ≤ _; omega, by show _ < 0 * 1 + 1; omega⟩

/-- Result window 5's array after the run: the one point that writes it back is the last, and what that point left
    in its buffer is the accumulation's component. -/
theorem final5 (c : Dev nD) : (dats m 0 c).arrAt 5 cfg0.N = fun _ => (outsAt m c 63 t63).o5 (ValueIdx.ix2 0 0) := by
  refine (dats m 0 c).arrAt_eq_of_cover 5 (fun _ => (outsAt m c 63 t63).o5 (ValueIdx.ix2 0 0)) (fun t hf => ?_) (fun i => ⟨T63, (flush0_5 T63).mpr rfl, ?_⟩)
  · have h63 : t = T63 := by
      have := (flush0_5 t).mp hf
      have hN : t.val < 64 := lt_of_lt_of_eq t.isLt (show cfg0.N = 64 from N_0)
      exact Fin.ext (by show t.val = 63; omega)
    subst h63
    show (cfg0.win 5).cut (grid0.coords T63) ((dats m 0 c).after 5 T63) = _
    rw [after0_5]
    funext j
    show (outsAt m c 63 t63).o5 j = (outsAt m c 63 t63).o5 (ValueIdx.ix2 0 0)
    exact congrArg _ (Subsingleton.elim (α := S1x1.Idx) j (ValueIdx.ix2 0 0))
  · show i ∈ ((View.whole main_v2_1).slice (win0_5.rect T63)).set
    rw [View.set_slice_whole, Rect.mem_set_unit]
    intro a
    have ha : (i a).val < 1 := by
      have := (i a).isLt
      match a with
      | ⟨0, _⟩ => exact this
      | ⟨1, _⟩ => exact this
    match a with
    | ⟨0, _⟩ => exact ⟨by show 0 * 1 ≤ _; omega, by show _ < 0 * 1 + 1; omega⟩
    | ⟨1, _⟩ => exact ⟨by show 0 * 1 ≤ _; omega, by show _ < 0 * 1 + 1; omega⟩

/-- Result window 6's array after the run: the one point that writes it back is the last, and what that point left
    in its buffer is the accumulation's component. -/
theorem final6 (c : Dev nD) : (dats m 0 c).arrAt 6 cfg0.N = fun _ => (outsAt m c 63 t63).o6 (ValueIdx.ix2 0 0) := by
  refine (dats m 0 c).arrAt_eq_of_cover 6 (fun _ => (outsAt m c 63 t63).o6 (ValueIdx.ix2 0 0)) (fun t hf => ?_) (fun i => ⟨T63, (flush0_6 T63).mpr rfl, ?_⟩)
  · have h63 : t = T63 := by
      have := (flush0_6 t).mp hf
      have hN : t.val < 64 := lt_of_lt_of_eq t.isLt (show cfg0.N = 64 from N_0)
      exact Fin.ext (by show t.val = 63; omega)
    subst h63
    show (cfg0.win 6).cut (grid0.coords T63) ((dats m 0 c).after 6 T63) = _
    rw [after0_6]
    funext j
    show (outsAt m c 63 t63).o6 j = (outsAt m c 63 t63).o6 (ValueIdx.ix2 0 0)
    exact congrArg _ (Subsingleton.elim (α := S1x1.Idx) j (ValueIdx.ix2 0 0))
  · show i ∈ ((View.whole main_v2_2).slice (win0_6.rect T63)).set
    rw [View.set_slice_whole, Rect.mem_set_unit]
    intro a
    have ha : (i a).val < 1 := by
      have := (i a).isLt
      match a with
      | ⟨0, _⟩ => exact this
      | ⟨1, _⟩ => exact this
    match a with
    | ⟨0, _⟩ => exact ⟨by show 0 * 1 ≤ _; omega, by show _ < 0 * 1 + 1; omega⟩
    | ⟨1, _⟩ => exact ⟨by show 0 * 1 ≤ _; omega, by show _ < 0 * 1 + 1; omega⟩

/-! ## What the eight lines after the region leave in the result -/

/-- The result buffer after the lines: the quotient they compute from the three result arrays. -/
theorem v9_eq (c : Dev nD) :
    Pipeline.afterTail₀ cfgs (dats m) 0 (V0 m) [hostOps1] c main_v9
      = tailVal ((dats m 0 c).arrAt 4 cfg0.N) ((dats m 0 c).arrAt 5 cfg0.N) ((dats m 0 c).arrAt 6 cfg0.N) := by
  unfold Pipeline.afterTail₀
  show StableHlo.after hostOps1 _ (Proc.devRef .tc main_v9) = _
  after_results
  rw [withArrays_at c _ _ 4 (by decide), withArrays_at c _ _ 5 (by decide), withArrays_at c _ _ 6 (by decide)]
  rfl

/-- The result after the run is `Kval` of the argument arrays: the tail's quotient of the three accumulated sums. -/
theorem v9_value (c : Dev nD) :
    Pipeline.afterTail₀ cfgs (dats m) 0 (V0 m) [hostOps1] c main_v9 = fun _ => Kval (Xof m c) (Lof m c) := by
  rw [v9_eq]
  funext i0
  rw [tailVal_apply, final4, final5, final6]
  dsimp only
  rw [(outs_final m c t63).1, (outs_final m c t63).2.1, (outs_final m c t63).2.2]
  rfl

/-- THE KERNEL'S RUN, READ: every weakly fair execution terminates with the result at `Kval` of the argument arrays and
    both argument arrays as launched. -/
theorem run_value : θ_run defs (onTc (τ := τ) (main (F := Ideal))) ⟨m, fun _ => 0, ρ⟩ (fun r => ∀ c : Dev nD,
      r.2.mem ((c.tc : Thread nD τ).loc main_v9) = (fun _ => Kval (Xof m c) (Lof m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v9 (by decide)).trans (v9_value m c),
      ((h c).1 0).trans (((dats m 0 c).arrAt_in 0 rfl _).trans ((A_eq m c 0).trans (V_main_arg0 m c))),
      ((h c).2 main_arg1 (by decide)).trans (tail_main_arg1 m c (dats m))⟩) (run_main m ρ)

end Cert.KernelIdeal.Hand

end
-- ==== Proof.Law.lean ====
/-
  The two arrangements of the loss agree when every feature is a real number.

  For real `u` and real `v > 0`, `log (exp u / v) = u - log v`; summing over all pairs with `v` the
  divisor of the column, `∑ a b, (u a b - w b) = ∑ a b, u a b - 4096 * ∑ b, w b`. Each step needs
  its quantities finite: a real row has a real sum of squares, hence a real square root, a clamped
  norm that is a positive real, real normalised entries, real similarities, positive real
  exponentials and a positive real divisor, whose logarithm is real. The common denominator, the
  number of positive pairs, is never opened.
-/
import proofs.«121591_j16836271800363_1_alg».proof.Proof.Spec

noncomputable section

open scoped BigOperators
open Idealize.ShloMosaic

namespace Cert.SupCon

/-! ## The three constants -/

theorem one_eq : one = 1 := by
  have h : (8388608 : ℝ) * (2 ^ 23)⁻¹ = 1 := by norm_num
  simp [one, Ideal.ofBits, Ideal.ieee]
  exact_mod_cast h

theorem c4096_eq : c4096 = ((4096 : ℝ) : EReal) := by
  have h : (8388608 : ℝ) * (2 ^ 11)⁻¹ = 4096 := by norm_num
  simp [c4096, Ideal.ofBits, Ideal.ieee]
  exact_mod_cast h

theorem eps_pos_real : ∃ e : ℝ, 0 < e ∧ eps = (e : EReal) := by
  refine ⟨11258999 * (2 ^ 50)⁻¹, by positivity, ?_⟩
  simp [eps, Ideal.ofBits, Ideal.ieee]

/-- The clamp as a real number. -/
def epsR : ℝ := Classical.choose eps_pos_real
theorem epsR_pos : 0 < epsR := (Classical.choose_spec eps_pos_real).1
theorem eps_eq : eps = (epsR : EReal) := (Classical.choose_spec eps_pos_real).2

/-- Division by the temperature 1 is the identity on every extended real. -/
theorem div_one (u : EReal) : Ideal.div u one = u := by
  rw [one_eq, Ideal.div, if_neg one_ne_zero, inv_one, mul_one]

/-! ## Real sums inside the extended reals -/

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (r s : ℝ) : ((max r s : ℝ) : EReal) = max (r : EReal) (s : EReal) := by
  rcases le_total r s with h | h
  · rw [max_eq_right h, max_eq_right (EReal.coe_le_coe_iff.mpr h)]
  · rw [max_eq_left h, max_eq_left (EReal.coe_le_coe_iff.mpr h)]

/-! ## The same quantities over the reals -/

section Reals
variable (X : Fin 4096 → Fin 512 → ℝ) (l : Fin 4096 → BitVec 32)

def rNrm (a : Fin 4096) : ℝ := max (Real.sqrt (∑ d : Fin 512, X a d * X a d)) epsR
def rXn (a : Fin 4096) (d : Fin 512) : ℝ := X a d * (1 / rNrm X a)
def rSim (a b : Fin 4096) : ℝ := ∑ d : Fin 512, rXn X a d * rXn X b d
def rEye (a b : Fin 4096) : ℝ := if a = b then 1 else 0
def rSame (a b : Fin 4096) : ℝ := if l a = l b then 1 else 0
def rLab (a b : Fin 4096) : ℝ := rSame l a b - rEye a b
def rDv (a : Fin 4096) : ℝ := ∑ b : Fin 4096, Real.exp (rSim X a b - rEye a b)

theorem rNrm_pos (a : Fin 4096) : 0 < rNrm X a := lt_max_of_lt_right epsR_pos

theorem rDv_pos (a : Fin 4096) : 0 < rDv X a :=
  Finset.sum_pos (fun _ _ => Real.exp_pos _) Finset.univ_nonempty

/-- The array of extended reals a real array denotes. -/
abbrev up : Fin 4096 → Fin 512 → EReal := fun a d => (X a d : EReal)

theorem nrm_eq (a : Fin 4096) : nrm (up X) a = (rNrm X a : EReal) := by
  unfold nrm rNrm
  simp only [← EReal.coe_mul, ← coe_sum]
  rw [Ideal.sqrt_coe, if_neg (not_lt.mpr (Finset.sum_nonneg fun d _ => mul_self_nonneg _)), eps_eq,
    coe_max]

theorem xn_eq (a : Fin 4096) (d : Fin 512) : xn (up X) a d = (rXn X a d : EReal) := by
  unfold xn rXn
  rw [nrm_eq, Ideal.div_coe (rNrm_pos X a).ne', EReal.coe_mul]

theorem sim_eq (a b : Fin 4096) : sim (up X) a b = (rSim X a b : EReal) := by
  unfold sim rSim
  simp only [xn_eq, ← EReal.coe_mul, ← coe_sum]

theorem eye_eq (a b : Fin 4096) : eye a b = (rEye a b : EReal) := by
  unfold eye rEye
  split_ifs <;> simp

theorem same_eq (a b : Fin 4096) : same l a b = (rSame l a b : EReal) := by
  unfold same rSame
  split_ifs <;> simp

theorem lab_eq (a b : Fin 4096) : lab l a b = (rLab l a b : EReal) := by
  unfold lab rLab
  rw [same_eq, eye_eq, EReal.coe_sub]

theorem dv_eq (a : Fin 4096) : dv (up X) a = (rDv X a : EReal) := by
  unfold dv rDv
  simp only [div_one, sim_eq, eye_eq, ← EReal.coe_sub, Ideal.exp_coe, ← coe_sum]

theorem dvR_eq (a : Fin 4096) : dvR (up X) a = (rDv X a : EReal) := by
  unfold dvR rDv
  simp only [div_one, sim_eq, eye_eq, ← EReal.coe_sub, Ideal.exp_coe, ← coe_sum]

theorem log_dv_eq (a : Fin 4096) : Ideal.log (dv (up X) a) = (Real.log (rDv X a) : EReal) := by
  rw [dv_eq, Ideal.log_coe, if_neg (not_le.mpr (rDv_pos X a))]

/-- The numerator of the separated arrangement. -/
theorem knum_eq :
    -(Aval (up X) l - c4096 * Bval (up X))
      = ((-((∑ a : Fin 4096, ∑ b : Fin 4096, rLab l a b * rSim X a b)
            - 4096 * ∑ a : Fin 4096, Real.log (rDv X a)) : ℝ) : EReal) := by
  unfold Aval Bval
  simp only [div_one, lab_eq, sim_eq, log_dv_eq, ← EReal.coe_mul, ← coe_sum, c4096_eq,
    ← EReal.coe_sub, ← EReal.coe_neg]

/-- One entry of the entry-by-entry arrangement: `log (exp u / v) = u - log v`. -/
theorem rentry_eq (a b : Fin 4096) :
    Ideal.log (Ideal.div (Ideal.exp (Ideal.div (lab l a b * sim (up X) a b) one)) (dvR (up X) b))
      = ((rLab l a b * rSim X a b - Real.log (rDv X b) : ℝ) : EReal) := by
  have hD := rDv_pos X b
  rw [div_one, lab_eq, sim_eq, ← EReal.coe_mul, Ideal.exp_coe, dvR_eq, Ideal.div_coe hD.ne',
    ← EReal.coe_mul, Ideal.log_coe,
    if_neg (not_le.mpr (mul_pos (Real.exp_pos _) (one_div_pos.mpr hD)))]
  congr 1
  rw [one_div, ← div_eq_mul_inv, Real.log_div (Real.exp_pos _).ne' hD.ne', Real.log_exp]

/-- The numerator of the entry-by-entry arrangement. -/
theorem rnum_eq :
    -(∑ a : Fin 4096, ∑ b : Fin 4096,
        Ideal.log (Ideal.div (Ideal.exp (Ideal.div (lab l a b * sim (up X) a b) one)) (dvR (up X) b)))
      = ((-(∑ a : Fin 4096, ∑ b : Fin 4096, (rLab l a b * rSim X a b - Real.log (rDv X b))) : ℝ) : EReal) := by
  simp only [rentry_eq, ← coe_sum, ← EReal.coe_neg]

/-- The law over the reals: the column term sums to 4096 copies of its total. -/
theorem real_law (u : Fin 4096 → Fin 4096 → ℝ) (w : Fin 4096 → ℝ) :
    ∑ a : Fin 4096, ∑ b : Fin 4096, (u a b - w b)
      = (∑ a : Fin 4096, ∑ b : Fin 4096, u a b) - 4096 * ∑ b : Fin 4096, w b := by
  simp only [Finset.sum_sub_distrib, Finset.sum_const, Finset.card_univ, Fintype.card_fin,
    nsmul_eq_mul]
  norm_num

end Reals

/-! ## The law -/

theorem Kval_eq_Rval (x : Fin 4096 → Fin 512 → EReal) (l : Fin 4096 → BitVec 32)
    (hfin : ∀ a d, ∃ r : ℝ, x a d = (r : EReal)) : Kval x l = Rval x l := by
  choose X hX using hfin
  obtain rfl : x = up X := funext fun a => funext fun d => hX a d
  unfold Kval Rval
  refine congrArg (Ideal.div · (Lval l)) ?_
  rw [knum_eq, rnum_eq, real_law]

end Cert.SupCon

end
-- ==== Proof.RefIsSpec.lean ====
/-
  The reference program's result is the entry-by-entry arrangement of the loss.

  Each stage of the reference is read at an index built from its coordinates and identified with the
  specification's quantity of the same name: the identity matrix from two iotas (row and column
  numbers below 4096 agree as 32-bit words exactly when they are equal), the positive-pair mask
  (the reference compares the column's label with the row's, which is symmetric), the clamped row
  norm, the normalised entries, the similarities as the contraction of the normalised array with its
  transpose, the row divisors, and the logarithm array, whose divisor is broadcast along the rows and
  so is the column's. The two total sums over the rank-2 index set are double sums over the
  coordinates, and the zero initial values of the sums drop out.
-/
import proofs.«121591_j16836271800363_1_alg».proof.Proof.Spec
import proofs.«121591_j16836271800363_1_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic
  Idealize.ShloMosaic.ValueIdx Cert.SupCon

/-- A one-bit comparison converted to a float is 1 where the words agree and 0 elsewhere. -/
theorem uitofp_cmpi_eq (x y : BitVec 32) :
    FloatOps.uitofp (F := Ideal) .f32 (IntOp.cmpi .eq x y) = if x = y then (1 : EReal) else 0 := by
  show (((IntOp.cmpi .eq x y).toNat : ℝ) : EReal) = _
  by_cases h : x = y
  · rw [IntOp.cmpi_eq.mpr h, if_pos h]; simp
  · rw [eq_zero_of_ne_one (mt IntOp.cmpi_eq.mp h), if_neg h]; simp

/-- Row and column numbers below 4096 are equal as 32-bit words exactly when they are equal. -/
theorem ofNat_eq_iff (a b : Fin 4096) :
    IntOp.addi (BitVec.ofNat 32 a.val) 0#32 = BitVec.ofNat 32 b.val ↔ a = b := by
  unfold IntOp.addi
  rw [BitVec.add_zero]
  constructor
  · intro h
    have h' := congrArg BitVec.toNat h
    rw [BitVec.toNat_ofNat, BitVec.toNat_ofNat] at h'
    have ha := a.isLt
    have hb := b.isLt
    exact Fin.ext (by omega)
  · rintro rfl; rfl

variable (X : (⟨S4096x512, .f32⟩ : BufTy).Contents (Elt Ideal)) (Lb : (⟨S4096, .i32⟩ : BufTy).Contents (Elt Ideal))

/-- The identity matrix, as the reference builds it from two iotas. -/
theorem v5_at (a b : Fin 4096) : val_main_v5 (F := Ideal) (ix2 a b) = eye a b := by
  rw [val_main_v5_apply, val_main_v4_apply, val_main_v3_apply, val_main_v0_apply, val_main_v2_apply,
    val_main_c_apply, val_main_v1_apply, uitofp_cmpi_eq]
  unfold eye
  exact if_congr (ofNat_eq_iff a b) rfl rfl

/-- The positive-pair mask: the reference compares the column's label with the row's. -/
theorem v12_at (a b : Fin 4096) :
    val_main_v12 (F := Ideal) Lb (ix2 a b) = lab (fun a => Lb (ix1 a)) a b := by
  have e8 : idx_main_v6 (idx_main_v8 (ix2 a b)) = ix1 b :=
    funext fun c => Fin.ext (by match c with | ⟨0, _⟩ => rfl)
  have e9 : idx_main_v7 (idx_main_v9 (ix2 a b)) = ix1 a :=
    funext fun c => Fin.ext (by match c with | ⟨0, _⟩ => rfl)
  rw [val_main_v12_apply, val_main_v11_apply, val_main_v10_apply, val_main_v8_apply, val_main_v6_apply,
    val_main_v9_apply, val_main_v7_apply, v5_at, e8, e9, uitofp_cmpi_eq, Ideal.subf_def]
  unfold lab same
  exact congrArg (· - eye a b) (if_congr eq_comm rfl rfl)

/-- The clamped norm of row `a`, kept as a column. -/
theorem v15_at (a : Fin 4096) (z : Fin 1) :
    val_main_v15 (F := Ideal) X (ix2 a z) = nrm (fun a d => X (ix2 a d)) a := by
  have e : ∀ k : Fin 512, idx_main_call0_v1 (idx_main_call0_v2 (ix2 a z)) k = ix2 a k :=
    fun k => funext fun c => Fin.ext (by match c with | ⟨0, _⟩ => rfl | ⟨1, _⟩ => rfl)
  rw [val_main_v15_apply, val_main_v13_apply, val_main_call0_v2_apply, val_main_call0_v1_apply,
    val_main_call0_cst_apply, val_main_v14_apply, val_main_cst_apply]
  simp only [val_main_call0_v0_apply, e, Ideal.ofBits_def, Ideal.ofBits_zero_f32, zero_add,
    Ideal.mulf_def, Ideal.hostUnary_sqrt_def, Ideal.maximumf_def]
  rfl

/-- A normalised entry. -/
theorem v17_at (a : Fin 4096) (d : Fin 512) :
    val_main_v17 (F := Ideal) X (ix2 a d) = xn (fun a d => X (ix2 a d)) a d := by
  have e : idx_main_v16 (ix2 a d) = ix2 a (0 : Fin 1) :=
    funext fun c => Fin.ext (by match c with | ⟨0, _⟩ => rfl | ⟨1, _⟩ => rfl)
  rw [val_main_v17_apply, val_main_v16_apply, e, v15_at, Ideal.hostDivf_def]
  rfl

/-- A similarity: the product of the normalised array with its transpose. -/
theorem v19_at (a b : Fin 4096) :
    val_main_v19 (F := Ideal) X (ix2 a b) = sim (fun a d => X (ix2 a d)) a b := by
  have el : ∀ k : Fin 512, lidx_main_v19 (ix2 a b) k = ix2 a k :=
    fun k => funext fun c => Fin.ext (by match c with | ⟨0, _⟩ => rfl | ⟨1, _⟩ => rfl)
  have er : ∀ k : Fin 512, idx_main_v18 (ridx_main_v19 (ix2 a b) k) = ix2 b k :=
    fun k => funext fun c => Fin.ext (by match c with | ⟨0, _⟩ => rfl | ⟨1, _⟩ => rfl)
  rw [val_main_v19_apply]
  unfold sim
  refine Finset.sum_congr rfl fun k _ => ?_
  rw [val_main_v18_apply, el, er, v17_at, v17_at]

/-- The divisor of row `b`. -/
theorem v28_at (b : Fin 4096) :
    val_main_v28 (F := Ideal) X (ix1 b) = dvR (fun a d => X (ix2 a d)) b := by
  have e : ∀ k : Fin 4096, idx_main_v28 (ix1 b) k = ix2 b k :=
    fun k => funext fun c => Fin.ext (by match c with | ⟨0, _⟩ => rfl | ⟨1, _⟩ => rfl)
  rw [val_main_v28_apply, val_main_cst_2_apply, Ideal.ofBits_def, Ideal.ofBits_zero_f32, zero_add]
  unfold dvR
  refine Finset.sum_congr rfl fun c _ => ?_
  rw [e, val_main_v27_apply, val_main_v26_apply, val_main_v24_apply, v19_at, v5_at, val_main_v25_apply,
    val_main_cst_1_apply]
  rfl

/-- One entry of the logarithm array: the divisor is the column's. -/
theorem v32_at (a b : Fin 4096) :
    val_main_v32 (F := Ideal) X Lb (ix2 a b)
      = Ideal.log (Ideal.div (Ideal.exp (Ideal.div
          (lab (fun a => Lb (ix1 a)) a b * sim (fun a d => X (ix2 a d)) a b) one))
          (dvR (fun a d => X (ix2 a d)) b)) := by
  have e : idx_main_v29 (idx_main_v30 (ix2 a b)) = ix1 b :=
    funext fun c => Fin.ext (by match c with | ⟨0, _⟩ => rfl)
  rw [val_main_v32_apply, val_main_v31_apply, val_main_v23_apply, val_main_v22_apply, val_main_v20_apply,
    v12_at, v19_at, val_main_v21_apply, val_main_cst_0_apply, val_main_v30_apply, val_main_v29_apply, e,
    v28_at]
  rfl

/-- The reference's result, at its one index, is the entry-by-entry arrangement of the loss. -/
theorem ref_value_at (i : S_.Idx) :
    val_main_v36 (F := Ideal) X Lb i = Rval (fun a d => X (ix2 a d)) (fun a => Lb (ix1 a)) := by
  rw [val_main_v36_apply, val_main_v34_apply, val_main_v33_apply, val_main_v35_apply,
    val_main_cst_3_apply, val_main_cst_4_apply, sum_idx2, sum_idx2]
  simp only [v32_at, v12_at, Ideal.ofBits_def, Ideal.ofBits_zero_f32, zero_add, Ideal.hostDivf_def,
    Ideal.hostNegf_def, Ideal.negf_def]
  rfl

theorem ref_value :
    val_main_v36 (F := Ideal) X Lb = fun _ => Rval (fun a d => X (ix2 a d)) (fun a => Lb (ix1 a)) :=
  funext (ref_value_at X Lb)

end Cert.ReferenceIdeal.RefValue

end
-- ==== Proof.Finite.lean ====
/-
  Under the precondition every entry of the feature array is a real number.

  The precondition is one conjunction over all entries of `|x| < +∞`, stated as a reduction by
  `and` of the one-bit comparisons into a single word that equals 1. A fold by `and` that ends at 1
  met only 1s, so each comparison holds; the word compared against denotes `⊤`; and an extended real
  whose absolute value `max x (-x)` is below `⊤` is neither `⊤` nor `⊥`, hence a real.
-/
import proofs.«121591_j16836271800363_1_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll
import Idealize.ShloMosaic.Lib.Pipeline.Value

noncomputable section

namespace Cert.Pre_finite_inputs.Finite

open Cert.Pre_finite_inputs Cert.Pre_finite_inputs.Gen Idealize.ShloMosaic Idealize.ShloMosaic.ValueIdx

/-- The scalar shape has one index. -/
instance : Subsingleton S_.Idx := ⟨fun a b => funext fun d => d.elim0⟩

/-- The word the predicate compares against denotes +∞. -/
theorem inf_eq : Ideal.ofBits .f32 0x7F800000#32 = ⊤ := by simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | top => simp at h
  | coe r => exact ⟨r, rfl⟩

/-- Under the precondition every entry of the feature array is a real number. -/
theorem real_of_pre (X : FVec Ideal S4096x512 .f32) (Lb : IVec S4096 32)
    (h : Cert.Pre_finite_inputs.fn (F := Ideal) X Lb = fun _ => 1#1) (i : S4096x512.Idx) :
    ∃ r : ℝ, X i = (r : EReal) := by
  have h0 := congrFun h ix0
  dsimp only [Cert.Pre_finite_inputs.fn] at h0
  have hi := Host.reduce_andi_all _ _ _ _ _ h0 i
  rw [cmpf_apply, broadcastInDim_apply _ _ _ i ix0 (fun a => a.elim0)] at hi
  have hi' : Ideal.cmp .olt (max (X i) (-(X i))) (Ideal.ofBits .f32 0x7F800000#32) = 1#1 := hi
  rw [inf_eq] at hi'
  refine real_of_abs_lt_top _ ?_
  by_contra hn
  have h0' : Ideal.cmp .olt (max (X i) (-(X i))) ⊤ = 0#1 := by
    simp only [Ideal.cmp, decide_eq_false hn]
    rfl
  rw [h0'] at hi'
  exact absurd hi' (by decide)

/-- The same, entry by entry over the two coordinates. -/
theorem real_of_pre_ix (X : FVec Ideal S4096x512 .f32) (Lb : IVec S4096 32)
    (h : Cert.Pre_finite_inputs.fn (F := Ideal) X Lb = fun _ => 1#1) (a : Fin 4096) (d : Fin 512) :
    ∃ r : ℝ, X (ix2 a d) = (r : EReal) :=
  real_of_pre X Lb h (ix2 a d)

end Cert.Pre_finite_inputs.Finite

end
-- ==== Proof.RefIsKval.lean ====
/-
  Under the precondition, the reference program's result is the separated arrangement of the loss:
  the reference computes the entry-by-entry arrangement, every feature is a real number, and on real
  features the two arrangements agree.
-/
import proofs.«121591_j16836271800363_1_alg».proof.Proof.Law
import proofs.«121591_j16836271800363_1_alg».proof.Proof.RefIsSpec
import proofs.«121591_j16836271800363_1_alg».proof.Proof.Finite

noncomputable section

namespace Cert.ReferenceIdeal.RefValue

open Cert.ReferenceIdeal Cert.ReferenceIdeal.Gen Cert.ReferenceIdeal.Read Idealize.ShloMosaic
  Idealize.ShloMosaic.ValueIdx Cert.SupCon

theorem ref_value_eq_Kval (X : (⟨S4096x512, .f32⟩ : BufTy).Contents (Elt Ideal))
    (Lb : (⟨S4096, .i32⟩ : BufTy).Contents (Elt Ideal))
    (h : Cert.Pre_finite_inputs.fn (F := Ideal) X Lb = fun _ => 1#1) :
    val_main_v36 (F := Ideal) X Lb
      = fun _ => Kval (fun a d => X (ix2 a d)) (fun a => Lb (ix1 a)) := by
  rw [ref_value, Kval_eq_Rval _ _ (Cert.Pre_finite_inputs.Finite.real_of_pre_ix X Lb h)]

end Cert.ReferenceIdeal.RefValue

end
-- ==== Proof.lean ====
/- The proof of `Cert.Claim` for the supervised-contrastive loss kernel against its whole-array reference.

   THE TWO PROGRAMS. With `x` the 4096 × 512 input, `l` the 4096 labels, `n a = max (‖x a‖, ε)`, `sim a b = ⟨x a / n a, x b / n b⟩`,
   `lab a b = [l a = l b] − [a = b]` and `dv a = Σ_b exp (sim a b − [a = b])`:
     the kernel walks the 8 × 8 grid of 512 × 512 tiles of the similarity matrix, both tiles cut out of the same array `x`, and
     accumulates `A = Σ lab · sim`, `L = Σ lab`, per row of tiles the row sums `dv`, and at the end of each row of tiles
     `B += Σ log dv`; the host then forms `−(A − 4096 · B) / L`;
     the reference forms `−(Σ_{a,b} log (exp (lab a b · sim a b) / dv b)) / L` over the whole matrix.
   They agree over the extended reals because every quantity is a REAL when the input is finite (the precondition), and for
   real `u` and real `v > 0`, `log (exp u / v) = u − log v`; the sum over `a` of `log (dv b)` is `4096 · log (dv b)`.

   THE PARTS. `Proof/Spec.lean` states both results as functions of the arrays (`Kval`, `Rval`); `Proof/Law.lean` proves them
   equal on finite input; `Proof/RefIsSpec.lean`, `Proof/Finite.lean`, `Proof/RefIsKval.lean` read the reference's run as
   `Rval`, the precondition as finiteness, and combine them. Under `Proof/KI/` (the idealized kernel) and `Proof/K/` (the
   word-level kernel, the same text at the other program): the launch of a region two of whose windows read ONE array
   (`Shared`, `Tail`, `Launch`: the array's share is cut in halves between the two windows, and the lines after the region
   run within the other buffers), the body in its five control cases (`Runs`, `RunA` … `RunE`, `Pieces`), the proof data and
   the body obligation (`Blocks`, `Data`). `Proof/KI/PayValue.lean`, `Accum.lean`, `TailValue.lean`, `Value.lean`, `Final.lean`
   read the body's arithmetic at an index, the accumulation over the 64 points, and the result. -/
import proofs.«121591_j16836271800363_1_alg».proof.Defs
import proofs.«121591_j16836271800363_1_alg».proof.Proof.Gen.Kernel
import proofs.«121591_j16836271800363_1_alg».proof.Proof.Gen.KernelIdeal
import proofs.«121591_j16836271800363_1_alg».proof.Proof.Gen.ReferenceIdeal
import proofs.«121591_j16836271800363_1_alg».proof.Proof.Gen.ReferenceIdeal.Run
import proofs.«121591_j16836271800363_1_alg».proof.Proof.Gen.ReferenceIdeal.Read
import proofs.«121591_j16836271800363_1_alg».proof.Proof.Gen.Pre_finite_inputs
import proofs.«121591_j16836271800363_1_alg».proof.Proof.K.Data
import proofs.«121591_j16836271800363_1_alg».proof.Proof.KI.Final
import proofs.«121591_j16836271800363_1_alg».proof.Proof.RefIsKval
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- At the ideal instance, from memories agreeing on the arguments, the kernel's result is `Kval` of the arguments (the
    accumulation over the grid, then the host's quotient) and the reference's is `Rval`, which on finite input is `Kval`. -/
theorem algebraic : Cert.algebraic_KernelIdeal_ReferenceIdeal := by
  intro m ρ m' ρ' hpre hagree
  refine ⟨fun c => fun _ => Cert.SupCon.Kval (Cert.KernelIdeal.Hand.Xof m c) (Cert.KernelIdeal.Hand.Lof m c),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v36_eq _ _).trans
    (Cert.ReferenceIdeal.RefValue.ref_value_eq_Kval _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
